-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S32 .f32) (main_arg6 : FVec F S32x10 .f32) (main_arg7 : FVec F S10 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x10 .f32 := Host.absf main_arg6
  let main_cst_8 : FVec F S_ .f32 := constant S_ .f32 0x7F800000#32
  let main_v25 : FVec F S32x10 .f32 := broadcastInDim S32x10 ![] bcast_S_S32x10 main_cst_8
  let main_v26 : IVec S32x10 1 := cmpf .olt main_v24 main_v25
  let main_c_9 : IVec S_ 1 := constantI S_ 1 1#1
  let main_v27 : IVec S_ 1 := (fun x v => Host.reduce IntOp.andi x v reducesTo_S32x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x1 .f32) (main_arg1 : IVec S2x3200000 32) (main_arg2 : FVec F S1x64 .f32) (main_arg3 : FVec F S64 .f32) (main_arg4 : FVec F S64x32 .f32) (main_arg5 : FVec F S32 .f32) (main_arg6 : FVec F S32x10 .f32) (main_arg7 : FVec F S10 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x32 : Shape := ⟨2, ![1, 32]⟩
abbrev S1x10 : Shape := ⟨2, ![1, 10]⟩
abbrev S100000x64 : Shape := ⟨2, ![100000, 64]⟩
abbrev S10000x1 : Shape := ⟨2, ![10000, 1]⟩
abbrev S10000x64 : Shape := ⟨2, ![10000, 64]⟩
abbrev S3300000x64 : Shape := ⟨2, ![3300000, 64]⟩
abbrev S100000x32 : Shape := ⟨2, ![100000, 32]⟩
abbrev S10000x32 : Shape := ⟨2, ![10000, 32]⟩
abbrev S3300000x32 : Shape := ⟨2, ![3300000, 32]⟩
abbrev S100000x10 : Shape := ⟨2, ![100000, 10]⟩
abbrev S10000x10 : Shape := ⟨2, ![10000, 10]⟩
abbrev S3300000x10 : Shape := ⟨2, ![3300000, 10]⟩

abbrev nBuf : Space → Nat
  | .hbm => 104
  | .vmem => 22
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x10, .f32⟩
  | .hbm, ⟨7, _⟩ => ⟨S10, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S1x64, .f32⟩
  | .hbm, ⟨49, _⟩ => ⟨S1x32, .f32⟩
  | .hbm, ⟨50, _⟩ => ⟨S1x10, .f32⟩
  | .hbm, ⟨51, _⟩ => ⟨S100000x64, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x64, .f32⟩
  | .hbm, ⟨61, _⟩ => ⟨S3300000x1, .f32⟩
  | .hbm, ⟨62, _⟩ => ⟨S3300000x64, .f32⟩
  | .hbm, ⟨63, _⟩ => ⟨S3300000x64, .f32⟩
  | .hbm, ⟨64, _⟩ => ⟨S_, .f32⟩
  | .hbm, ⟨65, _⟩ => ⟨S100000x64, .f32⟩
  | .hbm, ⟨66, _⟩ => ⟨S3300000x1, .i32⟩
  | .hbm, ⟨67, _⟩ => ⟨S100000x64, .f32⟩
  | .hbm, ⟨68, _⟩ => ⟨S100000x32, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x32, .f32⟩
  | .hbm, ⟨78, _⟩ => ⟨S3300000x1, .f32⟩
  | .hbm, ⟨79, _⟩ => ⟨S3300000x32, .f32⟩
  | .hbm, ⟨80, _⟩ => ⟨S3300000x32, .f32⟩
  | .hbm, ⟨81, _⟩ => ⟨S_, .f32⟩
  | .hbm, ⟨82, _⟩ => ⟨S100000x32, .f32⟩
  | .hbm, ⟨83, _⟩ => ⟨S3300000x1, .i32⟩
  | .hbm, ⟨84, _⟩ => ⟨S100000x32, .f32⟩
  | .hbm, ⟨85, _⟩ => ⟨S100000x10, .f32⟩
  | .hbm, ⟨86, _⟩ => ⟨S_, .i32⟩
  | .hbm, ⟨87, _⟩ => ⟨S3300000, .i32⟩
  | .hbm, ⟨88, _⟩ => ⟨S3300000, .i1⟩
  | .hbm, ⟨89, _⟩ => ⟨S_, .i32⟩
  | .hbm, ⟨90, _⟩ => ⟨S3300000, .i32⟩
  | .hbm, ⟨91, _⟩ => ⟨S3300000, .i32⟩
  | .hbm, ⟨92, _⟩ => ⟨S3300000, .i32⟩
  | .hbm, ⟨93, _⟩ => ⟨S3300000x1, .i32⟩
  | .hbm, ⟨94, _⟩ => ⟨S3300000x10, .f32⟩
  | .hbm, ⟨95, _⟩ => ⟨S3300000x1, .f32⟩
  | .hbm, ⟨96, _⟩ => ⟨S3300000x10, .f32⟩
  | .hbm, ⟨97, _⟩ => ⟨S3300000x10, .f32⟩
  | .hbm, ⟨98, _⟩ => ⟨S_, .f32⟩
  | .hbm, ⟨99, _⟩ => ⟨S100000x10, .f32⟩
  | .hbm, ⟨100, _⟩ => ⟨S3300000x1, .i32⟩
  | .hbm, ⟨101, _⟩ => ⟨S100000x10, .f32⟩
  | .hbm, ⟨102, _⟩ => ⟨S1x10, .f32⟩
  | .hbm, ⟨103, _⟩ => ⟨S10, .f32⟩
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S32x10, .f32⟩
  | .local _ .vmem, ⟨15, _⟩ => ⟨S10000x10, .f32⟩
  | .local _ .vmem, ⟨16, _⟩ => ⟨S10000x10, .f32⟩
  | .local _ .vmem, ⟨17, _⟩ => ⟨S10000x10, .f32⟩
  | .local _ .vmem, ⟨18, _⟩ => ⟨S10000x10, .f32⟩
  | .local _ .vmem, ⟨19, _⟩ => ⟨S1x10, .f32⟩
  | .local _ .vmem, ⟨20, _⟩ => ⟨S1x10, .f32⟩
  | .local _ .vmem, ⟨21, _⟩ => ⟨S1x10, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v16 : BitVec 1 := Scalar.cmpi .eq arg0 c9_i32
  let v17 : BitVec 32 := Scalar.extui v16
  let c0_i32_8 : BitVec 32 := 0#32
  let v18 : BitVec 1 := Scalar.cmpi .ne v17 c0_i32_8
  v18

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S64_S1x64 : S64.ShapeCasts S1x64
  shapeCasts_S32_S1x32 : S32.ShapeCasts S1x32
  shapeCasts_S10_S1x10 : S10.ShapeCasts S1x10
  inb_S10000x1_S10000x1_0_0 : ∀ a, (![0, 0] : Fin 2 → Nat) a + S10000x1.size a ≤ S10000x1.size a
  h_S10000x1 : 0 < S10000x1.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S10000x64_S10000x64 : S10000x64.ShapeCasts S10000x64
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x10_S32x10_0_0 : ∀ a, (![0, 0] : Fin 2 → Nat) a + S32x10.size a ≤ S32x10.size a
  h_S32x10 : 0 < S32x10.numel
  inb_S10000x10_S10000x10_0_0 : ∀ a, (![0, 0] : Fin 2 → Nat) a + S10000x10.size a ≤ S10000x10.size a
  h_S10000x10 : 0 < S10000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  inb_S1x10_S1x10_0_0 : ∀ a, (![0, 0] : Fin 2 → Nat) a + S1x10.size a ≤ S1x10.size a
  h_S1x10 : 0 < S1x10.numel
  shapeCasts_S1x10_S1x10 : S1x10.ShapeCasts S1x10
  shapeCasts_S10000x10_S10000x10 : S10000x10.ShapeCasts S10000x10
  broadcasts_S1x10_S10000x10 : S1x10.Broadcasts S10000x10
  reduces_S10000x10_S10 : S10000x10.Reduces [0] S10
  shapeCasts_S1x10_S10 : S1x10.ShapeCasts S10
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x1_S1x64_S10000x64_1_0_0_1_n_n_wf : DotDims.WF S10000x1 S1x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x10_S10000x10_1_0_0_1_n_n_wf : DotDims.WF S10000x32 S32x10 S10000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x10.size a ≤ S32x10.size a
  hwx2_2 : ∀ i : grid2.Coords, EltTy.bits .f32 = 32 ∨ (Rect.block (s := S32x10) S32x10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x10.size a ≤ S100000x10.size a
  hwx2_3 : ∀ i : grid2.Coords, EltTy.bits .f32 = 32 ∨ (Rect.block (s := S100000x10) S10000x10.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x10.size a ≤ S100000x10.size a
  hwx3_0 : ∀ i : grid3.Coords, EltTy.bits .f32 = 32 ∨ (Rect.block (s := S100000x10) S10000x10.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x10.size a ≤ S1x10.size a
  hwx3_1 : ∀ i : grid3.Coords, EltTy.bits .f32 = 32 ∨ (Rect.block (s := S1x10) S1x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x10_S10000x10_1_0_0_1_n_n : DotDims S10000x32 S32x10 S10000x10 where
  lhsContracting := [1]
  rhsContracting := [0]
  lhsNonContracting := [0]
  rhsNonContracting := [1]
  lhsBatch := []
  rhsBatch := []
  wf := dot_S10000x32_S32x10_S10000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S10000x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S10000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S1x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x10.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S100000x32 : Shape := ⟨2, ![100000, 32]⟩
abbrev S3300000x32 : Shape := ⟨2, ![3300000, 32]⟩
abbrev S1x32 : Shape := ⟨2, ![1, 32]⟩
abbrev S100000x10 : Shape := ⟨2, ![100000, 10]⟩
abbrev S3300000x10 : Shape := ⟨2, ![3300000, 10]⟩
abbrev S1x10 : Shape := ⟨2, ![1, 10]⟩

abbrev nBuf : Space → Nat
  | .hbm => 129
  | .vmem => 0
  | .smem => 0
  | _ => 0

abbrev hbmTy0_0 (i : Nat) : BufTy := match i % 128 with
  | 0 => ⟨S100000x1, .f32⟩
  | 1 => ⟨S2x3200000, .i32⟩
  | 2 => ⟨S1x64, .f32⟩
  | 3 => ⟨S64, .f32⟩
  | 4 => ⟨S64x32, .f32⟩
  | 5 => ⟨S32, .f32⟩
  | 6 => ⟨S32x10, .f32⟩
  | 7 => ⟨S10, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S100000x64, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x64, .f32⟩
  | 58 => ⟨S3300000x1, .f32⟩
  | 59 => ⟨S3300000x64, .f32⟩
  | 60 => ⟨S3300000x64, .f32⟩
  | 61 => ⟨S_, .f32⟩
  | 62 => ⟨S100000x64, .f32⟩
  | 63 => ⟨S3300000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S_, .f32⟩
  | 70 => ⟨S100000x64, .f32⟩
  | 71 => ⟨S100000x64, .i1⟩
  | 72 => ⟨S_, .f32⟩
  | 73 => ⟨S100000x64, .f32⟩
  | 74 => ⟨S100000x64, .f32⟩
  | 75 => ⟨S100000x64, .f32⟩
  | 76 => ⟨S100000x32, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000x32, .f32⟩
  | 86 => ⟨S3300000x1, .f32⟩
  | 87 => ⟨S3300000x32, .f32⟩
  | 88 => ⟨S3300000x32, .f32⟩
  | 89 => ⟨S_, .f32⟩
  | 90 => ⟨S100000x32, .f32⟩
  | 91 => ⟨S3300000x1, .i32⟩
  | 92 => ⟨S100000x32, .f32⟩
  | 93 => ⟨S1x32, .f32⟩
  | 94 => ⟨S100000x32, .f32⟩
  | 95 => ⟨S100000x32, .f32⟩
  | 96 => ⟨S_, .f32⟩
  | 97 => ⟨S_, .f32⟩
  | 98 => ⟨S100000x32, .f32⟩
  | 99 => ⟨S100000x32, .i1⟩
  | 100 => ⟨S_, .f32⟩
  | 101 => ⟨S100000x32, .f32⟩
  | 102 => ⟨S100000x32, .f32⟩
  | 103 => ⟨S100000x32, .f32⟩
  | 104 => ⟨S100000x10, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x10, .f32⟩
  | 114 => ⟨S3300000x1, .f32⟩
  | 115 => ⟨S3300000x10, .f32⟩
  | 116 => ⟨S3300000x10, .f32⟩
  | 117 => ⟨S_, .f32⟩
  | 118 => ⟨S100000x10, .f32⟩
  | 119 => ⟨S3300000x1, .i32⟩
  | 120 => ⟨S100000x10, .f32⟩
  | 121 => ⟨S1x10, .f32⟩
  | 122 => ⟨S100000x10, .f32⟩
  | 123 => ⟨S100000x10, .f32⟩
  | 124 => ⟨S_, .f32⟩
  | 125 => ⟨S10, .f32⟩
  | 126 => ⟨S_, .f32⟩
  | 127 => ⟨S10, .f32⟩
  | _ => ⟨S100000x1, .f32⟩

abbrev hbmTy0_1 (i : Nat) : BufTy := match i % 128 with
  | 0 => ⟨S10, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_v65 : Ref sig .tc := ⟨.hbm, 103, rfl⟩
abbrev main_v66 : Ref sig .tc := ⟨.hbm, 104, rfl⟩
abbrev main_c_14 : Ref sig .tc := ⟨.hbm, 105, rfl⟩
abbrev main_v67 : Ref sig .tc := ⟨.hbm, 106, rfl⟩
abbrev main_v68 : Ref sig .tc := ⟨.hbm, 107, rfl⟩
abbrev main_c_15 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_16 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_17 : Ref sig .tc := ⟨.hbm, 124, rfl⟩
abbrev main_v83 : Ref sig .tc := ⟨.hbm, 125, rfl⟩
abbrev main_cst_18 : Ref sig .tc := ⟨.hbm, 126, rfl⟩
abbrev main_v84 : Ref sig .tc := ⟨.hbm, 127, rfl⟩
abbrev main_v85 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S10_d0 : S100000x10.ReducesTo [0] S10
  h_S_ : 0 < S_.numel
  bcast_S_S10 : S_.BroadcastsInDim S10 (![] : Fin 0 → Fin S10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1_S1x64_S100000x64_1_0_0_1_n_n_wf : DotDims.WF S100000x1 S1x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x10_S100000x10_1_0_0_1_n_n_wf : DotDims.WF S100000x32 S32x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x10_S100000x10_1_0_0_1_n_n : DotDims S100000x32 S32x10 S100000x10 where
  lhsContracting := [1]
  rhsContracting := [0]
  lhsNonContracting := [0]
  rhsNonContracting := [1]
  lhsBatch := []
  rhsBatch := []
  wf := dot_S100000x32_S32x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.K.Reg0.lean ====
/-
  Region 0 of the network's program (one dense layer, tiled over the nodes in ten blocks of 10000 rows), at any
  contents `V` of the buffers when the region is entered: each window's block at a grid point, what the layer's body
  leaves in the output block as a function of the input blocks (its one covering store of the layer's payload), the
  body's triple, and the data the pipeline's launch theorem takes — after the body every input block is untouched and
  the output block holds the payload of the input blocks.
-/
import proofs.«165814_j17411797418191_1_alg».proof.Proof.Gen.Kernel.Launch
import proofs.«165814_j17411797418191_1_alg».proof.Proof.Gen.Kernel.Skeleton
import proofs.«165814_j17411797418191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or carried over from the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or carried over from the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x1 := Rect.unit (s := S10000x1) ![0, 0] S10000x1.size inb_S10000x1_S10000x1_0_0
abbrev r0_1 : Rect S1x64 := Rect.unit (s := S1x64) ![0, 0] S1x64.size inb_S1x64_S1x64_0_0
abbrev r0_2 : Rect S10000x64 := Rect.unit (s := S10000x64) ![0, 0] S10000x64.size inb_S10000x64_S10000x64_0_0

/-- The output block after the body: its one store, of the layer's payload of the loaded input blocks. -/
def out0_2 (x0 : Vec F S10000x1 .f32) (x1 : Vec F S1x64 .f32) : Vec F S10000x64 .f32 :=
  View.canon [⟨r0_2, k0_pay1 (View.ld x0 r0_0) (View.ld x1 r0_1)⟩]

/-- The store is of the whole block, so it covers it. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 4000000 in
/-- The body on whole staging memrefs — the inputs' at contents `x·`, the output's at anything — runs to the
    continuation with the inputs as they were and the output at `out0_2` of them. -/
theorem sound_kernel0 (c : Dev nD) (E : Set ℕ) (i : grid0.Coords) (arg1 : Memref sig .tc .vmem S10000x1 .f32) (harg1 : arg1.IsWhole) (arg2 : Memref sig .tc .vmem S1x64 .f32) (harg2 : arg2.IsWhole) (arg3 : Memref sig .tc .vmem S10000x64 .f32) (harg3 : arg3.IsWhole)
    (x0 : Vec F S10000x1 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data: the arrays as the region finds them; after the body each input's buffer at its block and
    the output's at the payload of the input blocks; the class invariant (scoped rest and generator register untouched);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the network's program (one dense layer, tiled over the nodes in ten blocks of 10000 rows), at any
  contents `V` of the buffers when the region is entered: each window's block at a grid point, what the layer's body
  leaves in the output block as a function of the input blocks (its one covering store of the layer's payload), the
  body's triple, and the data the pipeline's launch theorem takes — after the body every input block is untouched and
  the output block holds the payload of the input blocks.
-/
import proofs.«165814_j17411797418191_1_alg».proof.Proof.Gen.Kernel.Launch
import proofs.«165814_j17411797418191_1_alg».proof.Proof.Gen.Kernel.Skeleton
import proofs.«165814_j17411797418191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or carried over from the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or carried over from the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or carried over from the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S64x32 := Rect.unit (s := S64x32) ![0, 0] S64x32.size inb_S64x32_S64x32_0_0
abbrev r1_3 : Rect S10000x32 := Rect.unit (s := S10000x32) ![0, 0] S10000x32.size inb_S10000x32_S10000x32_0_0

/-- The output block after the body: its one store, of the layer's payload of the loaded input blocks. -/
def out1_3 (x0 : Vec F S10000x64 .f32) (x1 : Vec F S1x64 .f32) (x2 : Vec F S64x32 .f32) : Vec F S10000x32 .f32 :=
  View.canon [⟨r1_3, k1_pay1 (View.ld x0 r1_0) (View.ld x1 r1_1) (View.ld x2 r1_2)⟩]

/-- The store is of the whole block, so it covers it. -/
theorem cover1_3 (p0 : Vec F S10000x32 .f32) (y : S10000x32.Idx) :
    ∃ pc ∈ ([⟨r1_3, p0⟩] : List (View.Piece (Elt F) S10000x32 .f32)), y ∈ pc.1.set :=
  View.cover_of_tiled [⟨r1_3, p0⟩] S10000x32.size (by rfl) y

set_option maxHeartbeats 4000000 in
/-- The body on whole staging memrefs — the inputs' at contents `x·`, the output's at anything — runs to the
    continuation with the inputs as they were and the output at `out1_3` of them. -/
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S64x32 .f32) (harg3 : arg3.IsWhole) (arg4 : Memref sig .tc .vmem S10000x32 .f32) (harg4 : arg4.IsWhole)
    (x0 : Vec F S10000x64 .f32) (x1 : Vec F S1x64 .f32) (x2 : Vec F S64x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_act_matmul_kernel i arg1 harg1 arg2 harg2 arg3 harg3 arg4 harg4) K := by
  simp only [cc1__bias_act_matmul_kernel_eq_skeleton]; unfold cc1__bias_act_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data: the arrays as the region finds them; after the body each input's buffer at its block and
    the output's at the payload of the input blocks; the class invariant (scoped rest and generator register untouched);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the network's program (one dense layer, tiled over the nodes in ten blocks of 10000 rows), at any
  contents `V` of the buffers when the region is entered: each window's block at a grid point, what the layer's body
  leaves in the output block as a function of the input blocks (its one covering store of the layer's payload), the
  body's triple, and the data the pipeline's launch theorem takes — after the body every input block is untouched and
  the output block holds the payload of the input blocks.
-/
import proofs.«165814_j17411797418191_1_alg».proof.Proof.Gen.Kernel.Launch
import proofs.«165814_j17411797418191_1_alg».proof.Proof.Gen.Kernel.Skeleton
import proofs.«165814_j17411797418191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or carried over from the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or carried over from the fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or carried over from the fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x32 := Rect.unit (s := S10000x32) ![0, 0] S10000x32.size inb_S10000x32_S10000x32_0_0
abbrev r2_1 : Rect S1x32 := Rect.unit (s := S1x32) ![0, 0] S1x32.size inb_S1x32_S1x32_0_0
abbrev r2_2 : Rect S32x10 := Rect.unit (s := S32x10) ![0, 0] S32x10.size inb_S32x10_S32x10_0_0
abbrev r2_3 : Rect S10000x10 := Rect.unit (s := S10000x10) ![0, 0] S10000x10.size inb_S10000x10_S10000x10_0_0

/-- The output block after the body: its one store, of the layer's payload of the loaded input blocks. -/
def out2_3 (x0 : Vec F S10000x32 .f32) (x1 : Vec F S1x32 .f32) (x2 : Vec F S32x10 .f32) : Vec F S10000x10 .f32 :=
  View.canon [⟨r2_3, k2_pay1 (View.ld x0 r2_0) (View.ld x1 r2_1) (View.ld x2 r2_2)⟩]

/-- The store is of the whole block, so it covers it. -/
theorem cover2_3 (p0 : Vec F S10000x10 .f32) (y : S10000x10.Idx) :
    ∃ pc ∈ ([⟨r2_3, p0⟩] : List (View.Piece (Elt F) S10000x10 .f32)), y ∈ pc.1.set :=
  View.cover_of_tiled [⟨r2_3, p0⟩] S10000x10.size (by rfl) y

set_option maxHeartbeats 4000000 in
/-- The body on whole staging memrefs — the inputs' at contents `x·`, the output's at anything — runs to the
    continuation with the inputs as they were and the output at `out2_3` of them. -/
theorem sound_kernel2 (c : Dev nD) (E : Set ℕ) (i : grid2.Coords) (arg1 : Memref sig .tc .vmem S10000x32 .f32) (harg1 : arg1.IsWhole) (arg2 : Memref sig .tc .vmem S1x32 .f32) (harg2 : arg2.IsWhole) (arg3 : Memref sig .tc .vmem S32x10 .f32) (harg3 : arg3.IsWhole) (arg4 : Memref sig .tc .vmem S10000x10 .f32) (harg4 : arg4.IsWhole)
    (x0 : Vec F S10000x32 .f32) (x1 : Vec F S1x32 .f32) (x2 : Vec F S32x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__bias_act_matmul_kernel i arg1 harg1 arg2 harg2 arg3 harg3 arg4 harg4) K := by
  simp only [cc2__bias_act_matmul_kernel_eq_skeleton]; unfold cc2__bias_act_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data: the arrays as the region finds them; after the body each input's buffer at its block and
    the output's at the payload of the input blocks; the class invariant (scoped rest and generator register untouched);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3Base.lean ====
/-
  Region 3 of the network's program — the read-out: per block of 10000 nodes add the bias row, sum the block's rows,
  and accumulate the sums in a one-row scratch that is zeroed at the first block and, at the last block, scaled by the
  reciprocal of the node count into the output row. This module holds what the three control cases of the body share:
  the two branch conditions in closed form over the ten grid points, where the output row is idle, the memrefs the
  body is called with, the region invariant with the scratch row singled out, and the input blocks.
-/
import proofs.«165814_j17411797418191_1_alg».proof.Proof.Gen.Kernel.Launch
import proofs.«165814_j17411797418191_1_alg».proof.Proof.Gen.Kernel.Skeleton
import proofs.«165814_j17411797418191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or carried over from the fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions -/

/-- "This is the first block": the scratch row is zeroed. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)
/-- "This is the last block": the scaled sums are stored to the output row. -/
abbrev cond3_1 (i : grid3.Coords) : Prop := k3_cond2 i = 1#1
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- Away from the last block the output row is idle and is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

/-! ## The memrefs the body is called with -/

/-- One staging buffer of the output row, through which its contents are stated. -/
abbrev VO3_2 : View sig .tc .vmem S1x10 .f32 := (Memref.whole cc3_stg2_0 : Memref sig .tc .vmem S1x10 .f32).view
abbrev ms3_0 (t : Fin cfg3.N) : Memref sig .tc .vmem S10000x10 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x10 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x10 .f32 := win3_2.stage (cfg3.slots t 2)
abbrev hs3_2 (t : Fin cfg3.N) : (ms3_2 t).IsWhole := hstage3_2 ((cfg3.slots t 2).cast nbuf3_2)
/-- The scratch row carried between blocks. -/
abbrev scM3_0 : Memref sig .tc .vmem S1x10 .f32 := Memref.whole cc3_scratch0
abbrev VS3_0 : View sig .tc .vmem S1x10 .f32 := scM3_0.view

/-! ## The region invariant with the scratch row singled out -/

/-- The core's scoped buffers other than region 3's staging buffers — every other region's staging buffers at any
    contents, then the scratch row as `X` says — and the generator register at some state. -/
def PhiBase (c : Dev nD) (X : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ X) ∗ (∃ r, prngReg c r))

/-- The class invariant is `PhiBase` with the scratch row at anything. -/
theorem PhiA3_eq (c : Dev nD) :
    (Pipeline.ΦA spec3 c : sProp 𝕄) = PhiBase c (iprop(∃ d, owns (c : Thread nD τ) scM3_0 fullShare d)) := by
  unfold Pipeline.ΦA PhiBase; rw [scopedRest3_eq]; simp only [scM3_0, owns_whole]; try rfl

/-- The scratch row's clause can be taken out of `PhiBase` and another put back in its place. -/
theorem PhiBase_swap (c : Dev nD) (X Y : sProp 𝕄) : PhiBase c X ⊢ iprop(X ∗ (Y -∗ PhiBase c Y)) := by
  unfold PhiBase
  iintro ⟨⟨HR0, HR1, HR2, HR3, HR4, HR5, HR6, HR7, HR8, HR9, HR10, HR11, HR12, HR13, HR14, HR15, HR16, HX⟩, Hg⟩
  isplitl [HX]; · iexact HX
  iintro HY
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    iexact HY
  iexact Hg

end Cert.Kernel.Hand

end
-- ==== Proof.K.Reg3RunA.lean ====
/-
  Region 3's body run symbolically in the case of the first block (the scratch row is zeroed, then the block's biased row sums are added; the output row is not touched): the pieces its stores leave in the output row and in the
  scratch row, with the proof that on whole memrefs the body runs to its continuation with exactly those pieces written.
-/
import proofs.«165814_j17411797418191_1_alg».proof.Proof.K.Reg3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_A (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : cond3_0 i) (hc1 : ¬cond3_1 i)
    (x0 : Vec F S10000x10 .f32) (x1 : Vec F S1x10 .f32) :
    Σ' (L2 : List (View.Piece (Elt F) S1x10 .f32)), { LS0 : List (View.Piece (Elt F) S1x10 .f32) //
      ∀ (xi2 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__bias_mean_kernel i arg1 harg1 arg2 harg2 arg3 harg3 arg4 harg4) K } := by
  refine ⟨[], ?_, fun xi2 E K => ?run⟩
  case run =>
    simp only [cc3__bias_mean_kernel_eq_skeleton]; unfold cc3__bias_mean_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.Reg3RunB.lean ====
/-
  Region 3's body run symbolically in the case of a middle block (the block's biased row sums are added to the scratch row; the output row is not touched): the pieces its stores leave in the output row and in the
  scratch row, with the proof that on whole memrefs the body runs to its continuation with exactly those pieces written.
-/
import proofs.«165814_j17411797418191_1_alg».proof.Proof.K.Reg3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_B (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : ¬cond3_1 i)
    (x0 : Vec F S10000x10 .f32) (x1 : Vec F S1x10 .f32) (xs0 : Vec F S1x10 .f32) :
    Σ' (L2 : List (View.Piece (Elt F) S1x10 .f32)), { LS0 : List (View.Piece (Elt F) S1x10 .f32) //
      ∀ (xi2 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__bias_mean_kernel i arg1 harg1 arg2 harg2 arg3 harg3 arg4 harg4) K } := by
  refine ⟨[], ?_, fun xi2 E K => ?run⟩
  case run =>
    simp only [cc3__bias_mean_kernel_eq_skeleton]; unfold cc3__bias_mean_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.Reg3RunC.lean ====
/-
  Region 3's body run symbolically in the case of the last block (the block's biased row sums are added to the scratch row, and the scratch row scaled by the reciprocal of the node count is stored to the output row): the pieces its stores leave in the output row and in the
  scratch row, with the proof that on whole memrefs the body runs to its continuation with exactly those pieces written.
-/
import proofs.«165814_j17411797418191_1_alg».proof.Proof.K.Reg3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_C (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : cond3_1 i)
    (x0 : Vec F S10000x10 .f32) (x1 : Vec F S1x10 .f32) (xs0 : Vec F S1x10 .f32) :
    Σ' (L2 : List (View.Piece (Elt F) S1x10 .f32)), { LS0 : List (View.Piece (Elt F) S1x10 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc3__bias_mean_kernel i arg1 harg1 arg2 harg2 arg3 harg3 arg4 harg4) K } := by
  refine ⟨?_, ?_, fun E K => ?run⟩
  case run =>
    simp only [cc3__bias_mean_kernel_eq_skeleton]; unfold cc3__bias_mean_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact HS0

end Cert.Kernel.Hand

end
-- ==== Proof.K.Reg3.lean ====
/-
  Region 3 of the network's program (the read-out) assembled from its three control cases: what the output row and the
  scratch row hold after each of the ten blocks — the scratch row after block n is the case's store into it run over
  the block's inputs and what block n−1 left —, the region invariant that carries the scratch row's contents from one
  block to the next, the data the pipeline's launch theorem takes, and the body obligation.
-/
import proofs.«165814_j17411797418191_1_alg».proof.Proof.K.Reg3RunA
import proofs.«165814_j17411797418191_1_alg».proof.Proof.K.Reg3RunB
import proofs.«165814_j17411797418191_1_alg».proof.Proof.K.Reg3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The output row after a block of case A: its pieces read back (none: a placeholder nothing consults, the row being idle there). -/
def out3_A_2 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : cond3_0 i) (hc1 : ¬cond3_1 i)
    (x0 : Vec F S10000x10 .f32) (x1 : Vec F S1x10 .f32) : Vec F S1x10 .f32 :=
  VO3_2.read (Elt F) (VO3_2.writes (Elt F) VO3_2.junk (kernelRun3_A c i arg1 harg1 arg2 harg2 arg3 harg3 arg4 harg4 hc0 hc1 x0 x1).1)

/-- Case A's stores into the scratch row cover it. -/
theorem scover3_A_0 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : cond3_0 i) (hc1 : ¬cond3_1 i)
    (x0 : Vec F S10000x10 .f32) (x1 : Vec F S1x10 .f32) (y : S1x10.Idx) :
    ∃ pc ∈ (kernelRun3_A c i arg1 harg1 arg2 harg2 arg3 harg3 arg4 harg4 hc0 hc1 x0 x1).2.1, y ∈ pc.1.set :=
  View.cover_of_tiledL (kernelRun3_A c i arg1 harg1 arg2 harg2 arg3 harg3 arg4 harg4 hc0 hc1 x0 x1).2.1 S1x10.size (by sl_kernel_rfl) y

/-- The scratch row after a block of case A. -/
def sout3_A_0 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : cond3_0 i) (hc1 : ¬cond3_1 i)
    (x0 : Vec F S10000x10 .f32) (x1 : Vec F S1x10 .f32) : Vec F S1x10 .f32 :=
  VS3_0.read (Elt F) (VS3_0.writes (Elt F) VS3_0.junk (kernelRun3_A c i arg1 harg1 arg2 harg2 arg3 harg3 arg4 harg4 hc0 hc1 x0 x1).2.1)

/-- The output row after a block of case B: its pieces read back (none: a placeholder nothing consults, the row being idle there). -/
def out3_B_2 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : ¬cond3_1 i)
    (x0 : Vec F S10000x10 .f32) (x1 : Vec F S1x10 .f32) (xs0 : Vec F S1x10 .f32) : Vec F S1x10 .f32 :=
  VO3_2.read (Elt F) (VO3_2.writes (Elt F) VO3_2.junk (kernelRun3_B c i arg1 harg1 arg2 harg2 arg3 harg3 arg4 harg4 hc0 hc1 x0 x1 xs0).1)

/-- Case B's stores into the scratch row cover it. -/
theorem scover3_B_0 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : ¬cond3_1 i)
    (x0 : Vec F S10000x10 .f32) (x1 : Vec F S1x10 .f32) (xs0 : Vec F S1x10 .f32) (y : S1x10.Idx) :
    ∃ pc ∈ (kernelRun3_B c i arg1 harg1 arg2 harg2 arg3 harg3 arg4 harg4 hc0 hc1 x0 x1 xs0).2.1, y ∈ pc.1.set :=
  View.cover_of_tiledL (kernelRun3_B c i arg1 harg1 arg2 harg2 arg3 harg3 arg4 harg4 hc0 hc1 x0 x1 xs0).2.1 S1x10.size (by sl_kernel_rfl) y

/-- The scratch row after a block of case B. -/
def sout3_B_0 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : ¬cond3_1 i)
    (x0 : Vec F S10000x10 .f32) (x1 : Vec F S1x10 .f32) (xs0 : Vec F S1x10 .f32) : Vec F S1x10 .f32 :=
  VS3_0.read (Elt F) (VS3_0.writes (Elt F) VS3_0.junk (kernelRun3_B c i arg1 harg1 arg2 harg2 arg3 harg3 arg4 harg4 hc0 hc1 x0 x1 xs0).2.1)

/-- The last block's store into the output row covers it. -/
theorem cover3_C_2 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : cond3_1 i)
    (x0 : Vec F S10000x10 .f32) (x1 : Vec F S1x10 .f32) (xs0 : Vec F S1x10 .f32) (y : S1x10.Idx) :
    ∃ pc ∈ (kernelRun3_C c i arg1 harg1 arg2 harg2 arg3 harg3 arg4 harg4 hc0 hc1 x0 x1 xs0).1, y ∈ pc.1.set :=
  View.cover_of_tiledL (kernelRun3_C c i arg1 harg1 arg2 harg2 arg3 harg3 arg4 harg4 hc0 hc1 x0 x1 xs0).1 S1x10.size (by sl_kernel_rfl) y

/-- The output row after a block of case C: its pieces read back. -/
def out3_C_2 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : cond3_1 i)
    (x0 : Vec F S10000x10 .f32) (x1 : Vec F S1x10 .f32) (xs0 : Vec F S1x10 .f32) : Vec F S1x10 .f32 :=
  VO3_2.read (Elt F) (VO3_2.writes (Elt F) VO3_2.junk (kernelRun3_C c i arg1 harg1 arg2 harg2 arg3 harg3 arg4 harg4 hc0 hc1 x0 x1 xs0).1)

/-- Case C's stores into the scratch row cover it. -/
theorem scover3_C_0 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : cond3_1 i)
    (x0 : Vec F S10000x10 .f32) (x1 : Vec F S1x10 .f32) (xs0 : Vec F S1x10 .f32) (y : S1x10.Idx) :
    ∃ pc ∈ (kernelRun3_C c i arg1 harg1 arg2 harg2 arg3 harg3 arg4 harg4 hc0 hc1 x0 x1 xs0).2.1, y ∈ pc.1.set :=
  View.cover_of_tiledL (kernelRun3_C c i arg1 harg1 arg2 harg2 arg3 harg3 arg4 harg4 hc0 hc1 x0 x1 xs0).2.1 S1x10.size (by sl_kernel_rfl) y

/-- The scratch row after a block of case C. -/
def sout3_C_0 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : cond3_1 i)
    (x0 : Vec F S10000x10 .f32) (x1 : Vec F S1x10 .f32) (xs0 : Vec F S1x10 .f32) : Vec F S1x10 .f32 :=
  VS3_0.read (Elt F) (VS3_0.writes (Elt F) VS3_0.junk (kernelRun3_C c i arg1 harg1 arg2 harg2 arg3 harg3 arg4 harg4 hc0 hc1 x0 x1 xs0).2.1)

/-! ## The accumulation -/

/-- What the output row's staging buffer and the scratch row hold after the body at block `n`: block 0 is the first
    case; block 9 the last case, over what block 8 left in the scratch; the others the middle case, over what the
    block before left. -/
def outsAt3 (c : Dev nD) : (n : ℕ) → n < cfg3.N → Vec F S1x10 .f32 × Vec F S1x10 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h1 : (n + 1) % 10 = 9 then
      (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h => by (try dsimp only at h); have hN : n + 1 < 10 := lt_of_lt_of_eq hn (show cfg3.N = 10 from N_3); omega) ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h => by (try dsimp only at h); have hN : n + 1 < 10 := lt_of_lt_of_eq hn (show cfg3.N = 10 from N_3); omega) ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
    else
      (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h => by (try dsimp only at h); have hN : n + 1 < 10 := lt_of_lt_of_eq hn (show cfg3.N = 10 from N_3); omega) ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h => by (try dsimp only at h); have hN : n + 1 < 10 := lt_of_lt_of_eq hn (show cfg3.N = 10 from N_3); omega) ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 10 = 0) (h1 : ¬t.val % 10 = 9) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (by exfalso; (try dsimp only at h0); have hN : n + 1 < 10 := lt_of_lt_of_eq hn (show cfg3.N = 10 from N_3); omega)

theorem outsAt3_B (c : Dev nD) (t : Fin cfg3.N) (h0 : ¬t.val % 10 = 0) (h1 : ¬t.val % 10 = 9) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem outsAt3_C (c : Dev nD) (t : Fin cfg3.N) (h0 : ¬t.val % 10 = 0) (h1 : t.val % 10 = 9) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region invariant before block `n`: before the first block the class's (every scoped buffer at anything);
    afterwards the same with the scratch row at what the block before left in it. -/
def PhiS (c : Dev nD) : (n : ℕ) → n ≤ cfg3.N → sProp 𝕄
  | 0, _ => Pipeline.ΦA spec3 c
  | n + 1, hn => PhiBase c (owns (c : Thread nD τ) scM3_0 fullShare ((outsAt3 V c n hn).2))

theorem PhiS_zero (c : Dev nD) (n : ℕ) (h : n ≤ cfg3.N) (hz : n = 0) : PhiS V c n h = Pipeline.ΦA spec3 c := by
  subst hz; rfl
theorem PhiS_succ (c : Dev nD) (n : ℕ) (hn : n < cfg3.N) :
    PhiS V c (n + 1) hn = PhiBase c (owns (c : Thread nD τ) scM3_0 fullShare ((outsAt3 V c n hn).2)) := rfl
theorem PhiS_pos (c : Dev nD) (n : ℕ) (h : n ≤ cfg3.N) (hz : n ≠ 0) :
    PhiS V c n h = PhiBase c (owns (c : Thread nD τ) scM3_0 fullShare ((outsAt3 V c (n - 1) (by omega)).2)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS_castSucc (c : Dev nD) (t : Fin cfg3.N) :
    (dat3 V c).Φ t.castSucc = PhiS V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any block: the closed forms say which case the block is in; the inputs' memrefs hold their blocks; the
    invariant hands the body the scratch row at what the block before left (at anything at the first block) and takes
    it back at this block's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS V c (t.val + 1) t.isLt from rfl, PhiS_succ]
  have hN : t.val < 10 := lt_of_lt_of_eq t.isLt (show cfg3.N = 10 from N_3)
  by_cases h0 : t.val % 10 = 0
  · by_cases h1 : t.val % 10 = 9
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 t (fun h => h1 ((hcond3_1 t).mp h))) (noFlush3_2 t (fun h => h1 ((hcond3_1 t).mp h)))]
      rw [outsAt3_A V c t h0 h1]
      (try dsimp only)
      have hz : t.val = 0 := by omega
      rw [PhiS_castSucc V c t, PhiS_zero V c _ _ hz, PhiA3_eq]
      iintro ⟨HΦ, Ho, ⟨%d0, H0⟩, ⟨%d1, H1⟩, ⟨%d2, H2⟩⟩
      ihave HS := (PhiBase_swap c _ (owns (c : Thread nD τ) scM3_0 fullShare (sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)))) $$ HΦ
      icases HS with ⟨HS0, Hback⟩
      iapply ((kernelRun3_A c (grid3.coords t) _ _ _ _ _ _ _ _ ((hcond3_0 t).mpr h0) (fun h => h1 ((hcond3_1 t).mp h)) (iblk3 V c 0 t) (iblk3 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hback]
      · iapply Hback
        unfold owns; iexists _; isplitr
        swap; · iexact HS0
        ipureintro; unfold sout3_A_0; exact View.read_writes_of_cover _ _ _ _ _ (scover3_A_0 c _ _ _ _ _ _ _ _ _ _ _ _ _)
      isplitl [Ho]; · iexact Ho
      isplitl [H0]; · iexact H0
      isplitl [H1]; · iexact H1
      iexists _; iexact H2
  · by_cases h1 : t.val % 10 = 9
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      (try dsimp only)
      have hz : t.val ≠ 0 := by omega
      rw [PhiS_castSucc V c t, PhiS_pos V c _ _ hz]
      iintro ⟨HΦ, Ho, ⟨%d0, H0⟩, ⟨%d1, H1⟩, ⟨%d2, H2⟩⟩
      ihave HS := (PhiBase_swap c _ (owns (c : Thread nD τ) scM3_0 fullShare (sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2))) $$ HΦ
      icases HS with ⟨HS0, Hback⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hback]
      · iapply Hback
        unfold owns; iexists _; isplitr
        swap; · iexact HS0
        ipureintro; unfold sout3_C_0; exact View.read_writes_of_cover _ _ _ _ _ (scover3_C_0 c _ _ _ _ _ _ _ _ _ _ _ _ _ _)
      isplitl [Ho]; · iexact Ho
      isplitl [H0]; · iexact H0
      isplitl [H1]; · iexact H1
      unfold owns; iexists _; isplitr
      swap; · iexact H2
      ipureintro; unfold out3_C_2; exact View.read_writes_of_cover _ _ _ _ _ (cover3_C_2 c _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 t (fun h => h1 ((hcond3_1 t).mp h))) (noFlush3_2 t (fun h => h1 ((hcond3_1 t).mp h)))]
      rw [outsAt3_B V c t h0 h1]
      (try dsimp only)
      have hz : t.val ≠ 0 := by omega
      rw [PhiS_castSucc V c t, PhiS_pos V c _ _ hz]
      iintro ⟨HΦ, Ho, ⟨%d0, H0⟩, ⟨%d1, H1⟩, ⟨%d2, H2⟩⟩
      ihave HS := (PhiBase_swap c _ (owns (c : Thread nD τ) scM3_0 fullShare (sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2))) $$ HΦ
      icases HS with ⟨HS0, Hback⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hback]
      · iapply Hback
        unfold owns; iexists _; isplitr
        swap; · iexact HS0
        ipureintro; unfold sout3_B_0; exact View.read_writes_of_cover _ _ _ _ _ (scover3_B_0 c _ _ _ _ _ _ _ _ _ _ _ _ _ _)
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body3 V c t

/-- What the launch hands the region is the invariant before the first block. -/
theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After the last block the invariant gives the class's back: the scratch row's contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 10 := N_3; omega
  rw [show (dat3 V c).Φ (Fin.last cfg3.N) = PhiS V c (Fin.last cfg3.N).val (Nat.le_of_lt_succ (Fin.last cfg3.N).isLt) from rfl, PhiS_pos V c _ _ ht, PhiA3_eq]
  iintro H
  ihave HS := (PhiBase_swap c _ (iprop(∃ d, owns (c : Thread nD τ) scM3_0 fullShare d))) $$ H
  icases HS with ⟨HS0, Hback⟩
  iapply Hback
  iexists _; iexact HS0

end Cert.Kernel.Hand

end
-- ==== Proof.K.Run.lean ====
/-
  The network's whole program as a run: ten grid points of each of its four regions among seven stretches of host
  operations. The contents of every unscoped buffer at each of the twelve boundaries between these eleven items are
  named as a fold from the launch memory (a host stretch applies its operations; a region replaces its arrays by what
  its write-backs leave), each region is packaged as a segment entered at one boundary's contents and left at the
  next's, and the launch theorem for such a list of segments gives: every weakly fair execution terminates, nothing
  faults, and at the end every unscoped buffer holds the last boundary's contents.
-/
import proofs.«165814_j17411797418191_1_alg».proof.Proof.Gen.Kernel.Launch
import proofs.«165814_j17411797418191_1_alg».proof.Proof.Gen.Kernel.Skeleton
import proofs.«165814_j17411797418191_1_alg».proof.Proof.Gen.Kernel.Points
import proofs.«165814_j17411797418191_1_alg».proof.Proof.Gen.Kernel.Regions
import proofs.«165814_j17411797418191_1_alg».proof.Proof.K.Reg0
import proofs.«165814_j17411797418191_1_alg».proof.Proof.K.Reg1
import proofs.«165814_j17411797418191_1_alg».proof.Proof.K.Reg2
import proofs.«165814_j17411797418191_1_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the twelve boundaries -/

/-- Core `c`'s buffers at launch. -/
abbrev B0 : Dev nD → Valuation τ sig (Elt F) := fun c b => (s₀ m ρ).mem ((c : Dev nD), b)
/-- After the host stretch `hostOps0`. -/
abbrev B1 : Dev nD → Valuation τ sig (Elt F) := fun c => StableHlo.after hostOps0 (B0 m ρ c)
theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
/-- After the host stretch `hostOps0_1`. -/
abbrev B2 : Dev nD → Valuation τ sig (Elt F) := fun c => StableHlo.after hostOps0_1 (B1 m ρ c)
theorem B2_of (c : Dev nD) (r : Ref sig .tc) (h : r ∉ hostOps0_1_W) : B2 m ρ c (Proc.devRef .tc r) = B1 m ρ c (Proc.devRef .tc r) :=
  StableHlo.after_of_writes_sub hostOps0_1 _ hostOps0_1_writes h
/-- After the host stretch `hostOps0_2`. -/
abbrev B3 : Dev nD → Valuation τ sig (Elt F) := fun c => StableHlo.after hostOps0_2 (B2 m ρ c)
theorem B3_of (c : Dev nD) (r : Ref sig .tc) (h : r ∉ hostOps0_2_W) : B3 m ρ c (Proc.devRef .tc r) = B2 m ρ c (Proc.devRef .tc r) :=
  StableHlo.after_of_writes_sub hostOps0_2 _ hostOps0_2_writes h
/-- The entry contents of region 0, read at the TensorCore's references. -/
abbrev E3 : (c : Dev nD) → (b : Ref sig .tc) → Buf (Elt F) ((c : Thread nD τ).loc b) := fun c b => B3 m ρ c b
/-- At region 0's exit: its arrays at what the pipeline's write-backs leave, every other buffer as entered. -/
def B4 (c : Dev nD) : Valuation τ sig (Elt F) :=
  Pipeline.withArrays spec0 c (B3 m ρ c) fun w => (dat0 (E3 m ρ) c).arrAt w cfg0.N
theorem B4_arr (c : Dev nD) (w : Fin cfg0.W) :
    B4 m ρ c (Proc.devRef .tc (Pipeline.arrRef spec0 w)) = (dat0 (E3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
abbrev X4 : (c : Dev nD) → (b : Ref sig .tc) → Buf (Elt F) ((c : Thread nD τ).loc b) := fun c b => B4 m ρ c b
theorem hF0 (c : Dev nD) (w : Fin cfg0.W) : (dat0 (E3 m ρ) c).arrAt w cfg0.N = X4 m ρ c (Pipeline.arrRef spec0 w) :=
  (B4_arr m ρ c w).symm
theorem hrest0 (c : Dev nD) : ∀ b, b ∉ Finset.univ.image (Pipeline.arrRef spec0) → X4 m ρ c b = E3 m ρ c b :=
  fun b hb => B4_of_ne m ρ c b fun w e => hb (Finset.mem_image.mpr ⟨w, Finset.mem_univ _, e⟩)
/-- After the host stretch `hostOps1`. -/
abbrev B5 : Dev nD → Valuation τ sig (Elt F) := fun c => StableHlo.after hostOps1 (B4 m ρ c)
theorem B5_of (c : Dev nD) (r : Ref sig .tc) (h : r ∉ hostOps1_W) : B5 m ρ c (Proc.devRef .tc r) = B4 m ρ c (Proc.devRef .tc r) :=
  StableHlo.after_of_writes_sub hostOps1 _ hostOps1_writes h
/-- The entry contents of region 1, read at the TensorCore's references. -/
abbrev E5 : (c : Dev nD) → (b : Ref sig .tc) → Buf (Elt F) ((c : Thread nD τ).loc b) := fun c b => B5 m ρ c b
/-- At region 1's exit: its arrays at what the pipeline's write-backs leave, every other buffer as entered. -/
def B6 (c : Dev nD) : Valuation τ sig (Elt F) :=
  Pipeline.withArrays spec1 c (B5 m ρ c) fun w => (dat1 (E5 m ρ) c).arrAt w cfg1.N
theorem B6_arr (c : Dev nD) (w : Fin cfg1.W) :
    B6 m ρ c (Proc.devRef .tc (Pipeline.arrRef spec1 w)) = (dat1 (E5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
abbrev X6 : (c : Dev nD) → (b : Ref sig .tc) → Buf (Elt F) ((c : Thread nD τ).loc b) := fun c b => B6 m ρ c b
theorem hF1 (c : Dev nD) (w : Fin cfg1.W) : (dat1 (E5 m ρ) c).arrAt w cfg1.N = X6 m ρ c (Pipeline.arrRef spec1 w) :=
  (B6_arr m ρ c w).symm
theorem hrest1 (c : Dev nD) : ∀ b, b ∉ Finset.univ.image (Pipeline.arrRef spec1) → X6 m ρ c b = E5 m ρ c b :=
  fun b hb => B6_of_ne m ρ c b fun w e => hb (Finset.mem_image.mpr ⟨w, Finset.mem_univ _, e⟩)
/-- After the host stretch `hostOps2`. -/
abbrev B7 : Dev nD → Valuation τ sig (Elt F) := fun c => StableHlo.after hostOps2 (B6 m ρ c)
theorem B7_of (c : Dev nD) (r : Ref sig .tc) (h : r ∉ hostOps2_W) : B7 m ρ c (Proc.devRef .tc r) = B6 m ρ c (Proc.devRef .tc r) :=
  StableHlo.after_of_writes_sub hostOps2 _ hostOps2_writes h
/-- The entry contents of region 2, read at the TensorCore's references. -/
abbrev E7 : (c : Dev nD) → (b : Ref sig .tc) → Buf (Elt F) ((c : Thread nD τ).loc b) := fun c b => B7 m ρ c b
/-- At region 2's exit: its arrays at what the pipeline's write-backs leave, every other buffer as entered. -/
def B8 (c : Dev nD) : Valuation τ sig (Elt F) :=
  Pipeline.withArrays spec2 c (B7 m ρ c) fun w => (dat2 (E7 m ρ) c).arrAt w cfg2.N
theorem B8_arr (c : Dev nD) (w : Fin cfg2.W) :
    B8 m ρ c (Proc.devRef .tc (Pipeline.arrRef spec2 w)) = (dat2 (E7 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
abbrev X8 : (c : Dev nD) → (b : Ref sig .tc) → Buf (Elt F) ((c : Thread nD τ).loc b) := fun c b => B8 m ρ c b
theorem hF2 (c : Dev nD) (w : Fin cfg2.W) : (dat2 (E7 m ρ) c).arrAt w cfg2.N = X8 m ρ c (Pipeline.arrRef spec2 w) :=
  (B8_arr m ρ c w).symm
theorem hrest2 (c : Dev nD) : ∀ b, b ∉ Finset.univ.image (Pipeline.arrRef spec2) → X8 m ρ c b = E7 m ρ c b :=
  fun b hb => B8_of_ne m ρ c b fun w e => hb (Finset.mem_image.mpr ⟨w, Finset.mem_univ _, e⟩)
/-- After the host stretch `hostOps3`. -/
abbrev B9 : Dev nD → Valuation τ sig (Elt F) := fun c => StableHlo.after hostOps3 (B8 m ρ c)
theorem B9_of (c : Dev nD) (r : Ref sig .tc) (h : r ∉ hostOps3_W) : B9 m ρ c (Proc.devRef .tc r) = B8 m ρ c (Proc.devRef .tc r) :=
  StableHlo.after_of_writes_sub hostOps3 _ hostOps3_writes h
/-- The entry contents of region 3, read at the TensorCore's references. -/
abbrev E9 : (c : Dev nD) → (b : Ref sig .tc) → Buf (Elt F) ((c : Thread nD τ).loc b) := fun c b => B9 m ρ c b
/-- At region 3's exit: its arrays at what the pipeline's write-backs leave, every other buffer as entered. -/
def B10 (c : Dev nD) : Valuation τ sig (Elt F) :=
  Pipeline.withArrays spec3 c (B9 m ρ c) fun w => (dat3 (E9 m ρ) c).arrAt w cfg3.N
theorem B10_arr (c : Dev nD) (w : Fin cfg3.W) :
    B10 m ρ c (Proc.devRef .tc (Pipeline.arrRef spec3 w)) = (dat3 (E9 m ρ) c).arrAt w cfg3.N := by
  unfold B10; exact Pipeline.withArrays_arr spec3 launch3.win.arr_inj c _ _ w
theorem B10_of_ne (c : Dev nD) (b : Ref sig .tc) (hb : ∀ w, Pipeline.arrRef spec3 w ≠ b) :
    B10 m ρ c (Proc.devRef .tc b) = B9 m ρ c (Proc.devRef .tc b) := by
  unfold B10; exact Pipeline.withArrays_of_ne spec3 c _ _ b hb
abbrev X10 : (c : Dev nD) → (b : Ref sig .tc) → Buf (Elt F) ((c : Thread nD τ).loc b) := fun c b => B10 m ρ c b
theorem hF3 (c : Dev nD) (w : Fin cfg3.W) : (dat3 (E9 m ρ) c).arrAt w cfg3.N = X10 m ρ c (Pipeline.arrRef spec3 w) :=
  (B10_arr m ρ c w).symm
theorem hrest3 (c : Dev nD) : ∀ b, b ∉ Finset.univ.image (Pipeline.arrRef spec3) → X10 m ρ c b = E9 m ρ c b :=
  fun b hb => B10_of_ne m ρ c b fun w e => hb (Finset.mem_image.mpr ⟨w, Finset.mem_univ _, e⟩)
/-- After the host stretch `hostOps4`. -/
abbrev B11 : Dev nD → Valuation τ sig (Elt F) := fun c => StableHlo.after hostOps4 (B10 m ρ c)
theorem B11_of (c : Dev nD) (r : Ref sig .tc) (h : r ∉ hostOps4_W) : B11 m ρ c (Proc.devRef .tc r) = B10 m ρ c (Proc.devRef .tc r) :=
  StableHlo.after_of_writes_sub hostOps4 _ hostOps4_writes h

/-! ## The arguments end as launched: no host operation writes one, and a region only reads one through an input window -/

theorem B11_main_arg0 (c : Dev nD) : B11 m ρ c (Proc.devRef .tc main_arg0) = m ((c : Thread nD τ).loc main_arg0) :=
  calc B11 m ρ c (Proc.devRef .tc main_arg0)
    _ = B10 m ρ c (Proc.devRef .tc main_arg0) := B11_of m ρ c main_arg0 (by decide)
    _ = B9 m ρ c (Proc.devRef .tc main_arg0) := B10_of_ne m ρ c main_arg0 (by decide)
    _ = B8 m ρ c (Proc.devRef .tc main_arg0) := B9_of m ρ c main_arg0 (by decide)
    _ = B7 m ρ c (Proc.devRef .tc main_arg0) := B8_of_ne m ρ c main_arg0 (by decide)
    _ = B6 m ρ c (Proc.devRef .tc main_arg0) := B7_of m ρ c main_arg0 (by decide)
    _ = B5 m ρ c (Proc.devRef .tc main_arg0) := B6_of_ne m ρ c main_arg0 (by decide)
    _ = B4 m ρ c (Proc.devRef .tc main_arg0) := B5_of m ρ c main_arg0 (by decide)
    _ = B3 m ρ c (Proc.devRef .tc main_arg0) := (B4_arr m ρ c 0).trans (((dat0 (E3 m ρ) c).arrAt_in 0 rfl _).trans (A_eq0 (E3 m ρ) c 0))
    _ = B2 m ρ c (Proc.devRef .tc main_arg0) := B3_of m ρ c main_arg0 (by decide)
    _ = B1 m ρ c (Proc.devRef .tc main_arg0) := B2_of m ρ c main_arg0 (by decide)
    _ = B0 m ρ c (Proc.devRef .tc main_arg0) := B1_of m ρ c main_arg0 (by decide)
    _ = m ((c : Thread nD τ).loc main_arg0) := rfl

theorem B11_main_arg1 (c : Dev nD) : B11 m ρ c (Proc.devRef .tc main_arg1) = m ((c : Thread nD τ).loc main_arg1) :=
  calc B11 m ρ c (Proc.devRef .tc main_arg1)
    _ = B10 m ρ c (Proc.devRef .tc main_arg1) := B11_of m ρ c main_arg1 (by decide)
    _ = B9 m ρ c (Proc.devRef .tc main_arg1) := B10_of_ne m ρ c main_arg1 (by decide)
    _ = B8 m ρ c (Proc.devRef .tc main_arg1) := B9_of m ρ c main_arg1 (by decide)
    _ = B7 m ρ c (Proc.devRef .tc main_arg1) := B8_of_ne m ρ c main_arg1 (by decide)
    _ = B6 m ρ c (Proc.devRef .tc main_arg1) := B7_of m ρ c main_arg1 (by decide)
    _ = B5 m ρ c (Proc.devRef .tc main_arg1) := B6_of_ne m ρ c main_arg1 (by decide)
    _ = B4 m ρ c (Proc.devRef .tc main_arg1) := B5_of m ρ c main_arg1 (by decide)
    _ = B3 m ρ c (Proc.devRef .tc main_arg1) := B4_of_ne m ρ c main_arg1 (by decide)
    _ = B2 m ρ c (Proc.devRef .tc main_arg1) := B3_of m ρ c main_arg1 (by decide)
    _ = B1 m ρ c (Proc.devRef .tc main_arg1) := B2_of m ρ c main_arg1 (by decide)
    _ = B0 m ρ c (Proc.devRef .tc main_arg1) := B1_of m ρ c main_arg1 (by decide)
    _ = m ((c : Thread nD τ).loc main_arg1) := rfl

theorem B11_main_arg2 (c : Dev nD) : B11 m ρ c (Proc.devRef .tc main_arg2) = m ((c : Thread nD τ).loc main_arg2) :=
  calc B11 m ρ c (Proc.devRef .tc main_arg2)
    _ = B10 m ρ c (Proc.devRef .tc main_arg2) := B11_of m ρ c main_arg2 (by decide)
    _ = B9 m ρ c (Proc.devRef .tc main_arg2) := B10_of_ne m ρ c main_arg2 (by decide)
    _ = B8 m ρ c (Proc.devRef .tc main_arg2) := B9_of m ρ c main_arg2 (by decide)
    _ = B7 m ρ c (Proc.devRef .tc main_arg2) := B8_of_ne m ρ c main_arg2 (by decide)
    _ = B6 m ρ c (Proc.devRef .tc main_arg2) := B7_of m ρ c main_arg2 (by decide)
    _ = B5 m ρ c (Proc.devRef .tc main_arg2) := B6_of_ne m ρ c main_arg2 (by decide)
    _ = B4 m ρ c (Proc.devRef .tc main_arg2) := B5_of m ρ c main_arg2 (by decide)
    _ = B3 m ρ c (Proc.devRef .tc main_arg2) := (B4_arr m ρ c 1).trans (((dat0 (E3 m ρ) c).arrAt_in 1 rfl _).trans (A_eq0 (E3 m ρ) c 1))
    _ = B2 m ρ c (Proc.devRef .tc main_arg2) := B3_of m ρ c main_arg2 (by decide)
    _ = B1 m ρ c (Proc.devRef .tc main_arg2) := B2_of m ρ c main_arg2 (by decide)
    _ = B0 m ρ c (Proc.devRef .tc main_arg2) := B1_of m ρ c main_arg2 (by decide)
    _ = m ((c : Thread nD τ).loc main_arg2) := rfl

theorem B11_main_arg3 (c : Dev nD) : B11 m ρ c (Proc.devRef .tc main_arg3) = m ((c : Thread nD τ).loc main_arg3) :=
  calc B11 m ρ c (Proc.devRef .tc main_arg3)
    _ = B10 m ρ c (Proc.devRef .tc main_arg3) := B11_of m ρ c main_arg3 (by decide)
    _ = B9 m ρ c (Proc.devRef .tc main_arg3) := B10_of_ne m ρ c main_arg3 (by decide)
    _ = B8 m ρ c (Proc.devRef .tc main_arg3) := B9_of m ρ c main_arg3 (by decide)
    _ = B7 m ρ c (Proc.devRef .tc main_arg3) := B8_of_ne m ρ c main_arg3 (by decide)
    _ = B6 m ρ c (Proc.devRef .tc main_arg3) := B7_of m ρ c main_arg3 (by decide)
    _ = B5 m ρ c (Proc.devRef .tc main_arg3) := B6_of_ne m ρ c main_arg3 (by decide)
    _ = B4 m ρ c (Proc.devRef .tc main_arg3) := B5_of m ρ c main_arg3 (by decide)
    _ = B3 m ρ c (Proc.devRef .tc main_arg3) := B4_of_ne m ρ c main_arg3 (by decide)
    _ = B2 m ρ c (Proc.devRef .tc main_arg3) := B3_of m ρ c main_arg3 (by decide)
    _ = B1 m ρ c (Proc.devRef .tc main_arg3) := B2_of m ρ c main_arg3 (by decide)
    _ = B0 m ρ c (Proc.devRef .tc main_arg3) := B1_of m ρ c main_arg3 (by decide)
    _ = m ((c : Thread nD τ).loc main_arg3) := rfl

theorem B11_main_arg4 (c : Dev nD) : B11 m ρ c (Proc.devRef .tc main_arg4) = m ((c : Thread nD τ).loc main_arg4) :=
  calc B11 m ρ c (Proc.devRef .tc main_arg4)
    _ = B10 m ρ c (Proc.devRef .tc main_arg4) := B11_of m ρ c main_arg4 (by decide)
    _ = B9 m ρ c (Proc.devRef .tc main_arg4) := B10_of_ne m ρ c main_arg4 (by decide)
    _ = B8 m ρ c (Proc.devRef .tc main_arg4) := B9_of m ρ c main_arg4 (by decide)
    _ = B7 m ρ c (Proc.devRef .tc main_arg4) := B8_of_ne m ρ c main_arg4 (by decide)
    _ = B6 m ρ c (Proc.devRef .tc main_arg4) := B7_of m ρ c main_arg4 (by decide)
    _ = B5 m ρ c (Proc.devRef .tc main_arg4) := (B6_arr m ρ c 2).trans (((dat1 (E5 m ρ) c).arrAt_in 2 rfl _).trans (A_eq1 (E5 m ρ) c 2))
    _ = B4 m ρ c (Proc.devRef .tc main_arg4) := B5_of m ρ c main_arg4 (by decide)
    _ = B3 m ρ c (Proc.devRef .tc main_arg4) := B4_of_ne m ρ c main_arg4 (by decide)
    _ = B2 m ρ c (Proc.devRef .tc main_arg4) := B3_of m ρ c main_arg4 (by decide)
    _ = B1 m ρ c (Proc.devRef .tc main_arg4) := B2_of m ρ c main_arg4 (by decide)
    _ = B0 m ρ c (Proc.devRef .tc main_arg4) := B1_of m ρ c main_arg4 (by decide)
    _ = m ((c : Thread nD τ).loc main_arg4) := rfl

theorem B11_main_arg5 (c : Dev nD) : B11 m ρ c (Proc.devRef .tc main_arg5) = m ((c : Thread nD τ).loc main_arg5) :=
  calc B11 m ρ c (Proc.devRef .tc main_arg5)
    _ = B10 m ρ c (Proc.devRef .tc main_arg5) := B11_of m ρ c main_arg5 (by decide)
    _ = B9 m ρ c (Proc.devRef .tc main_arg5) := B10_of_ne m ρ c main_arg5 (by decide)
    _ = B8 m ρ c (Proc.devRef .tc main_arg5) := B9_of m ρ c main_arg5 (by decide)
    _ = B7 m ρ c (Proc.devRef .tc main_arg5) := B8_of_ne m ρ c main_arg5 (by decide)
    _ = B6 m ρ c (Proc.devRef .tc main_arg5) := B7_of m ρ c main_arg5 (by decide)
    _ = B5 m ρ c (Proc.devRef .tc main_arg5) := B6_of_ne m ρ c main_arg5 (by decide)
    _ = B4 m ρ c (Proc.devRef .tc main_arg5) := B5_of m ρ c main_arg5 (by decide)
    _ = B3 m ρ c (Proc.devRef .tc main_arg5) := B4_of_ne m ρ c main_arg5 (by decide)
    _ = B2 m ρ c (Proc.devRef .tc main_arg5) := B3_of m ρ c main_arg5 (by decide)
    _ = B1 m ρ c (Proc.devRef .tc main_arg5) := B2_of m ρ c main_arg5 (by decide)
    _ = B0 m ρ c (Proc.devRef .tc main_arg5) := B1_of m ρ c main_arg5 (by decide)
    _ = m ((c : Thread nD τ).loc main_arg5) := rfl

theorem B11_main_arg6 (c : Dev nD) : B11 m ρ c (Proc.devRef .tc main_arg6) = m ((c : Thread nD τ).loc main_arg6) :=
  calc B11 m ρ c (Proc.devRef .tc main_arg6)
    _ = B10 m ρ c (Proc.devRef .tc main_arg6) := B11_of m ρ c main_arg6 (by decide)
    _ = B9 m ρ c (Proc.devRef .tc main_arg6) := B10_of_ne m ρ c main_arg6 (by decide)
    _ = B8 m ρ c (Proc.devRef .tc main_arg6) := B9_of m ρ c main_arg6 (by decide)
    _ = B7 m ρ c (Proc.devRef .tc main_arg6) := (B8_arr m ρ c 2).trans (((dat2 (E7 m ρ) c).arrAt_in 2 rfl _).trans (A_eq2 (E7 m ρ) c 2))
    _ = B6 m ρ c (Proc.devRef .tc main_arg6) := B7_of m ρ c main_arg6 (by decide)
    _ = B5 m ρ c (Proc.devRef .tc main_arg6) := B6_of_ne m ρ c main_arg6 (by decide)
    _ = B4 m ρ c (Proc.devRef .tc main_arg6) := B5_of m ρ c main_arg6 (by decide)
    _ = B3 m ρ c (Proc.devRef .tc main_arg6) := B4_of_ne m ρ c main_arg6 (by decide)
    _ = B2 m ρ c (Proc.devRef .tc main_arg6) := B3_of m ρ c main_arg6 (by decide)
    _ = B1 m ρ c (Proc.devRef .tc main_arg6) := B2_of m ρ c main_arg6 (by decide)
    _ = B0 m ρ c (Proc.devRef .tc main_arg6) := B1_of m ρ c main_arg6 (by decide)
    _ = m ((c : Thread nD τ).loc main_arg6) := rfl

theorem B11_main_arg7 (c : Dev nD) : B11 m ρ c (Proc.devRef .tc main_arg7) = m ((c : Thread nD τ).loc main_arg7) :=
  calc B11 m ρ c (Proc.devRef .tc main_arg7)
    _ = B10 m ρ c (Proc.devRef .tc main_arg7) := B11_of m ρ c main_arg7 (by decide)
    _ = B9 m ρ c (Proc.devRef .tc main_arg7) := B10_of_ne m ρ c main_arg7 (by decide)
    _ = B8 m ρ c (Proc.devRef .tc main_arg7) := B9_of m ρ c main_arg7 (by decide)
    _ = B7 m ρ c (Proc.devRef .tc main_arg7) := B8_of_ne m ρ c main_arg7 (by decide)
    _ = B6 m ρ c (Proc.devRef .tc main_arg7) := B7_of m ρ c main_arg7 (by decide)
    _ = B5 m ρ c (Proc.devRef .tc main_arg7) := B6_of_ne m ρ c main_arg7 (by decide)
    _ = B4 m ρ c (Proc.devRef .tc main_arg7) := B5_of m ρ c main_arg7 (by decide)
    _ = B3 m ρ c (Proc.devRef .tc main_arg7) := B4_of_ne m ρ c main_arg7 (by decide)
    _ = B2 m ρ c (Proc.devRef .tc main_arg7) := B3_of m ρ c main_arg7 (by decide)
    _ = B1 m ρ c (Proc.devRef .tc main_arg7) := B2_of m ρ c main_arg7 (by decide)
    _ = B0 m ρ c (Proc.devRef .tc main_arg7) := B1_of m ρ c main_arg7 (by decide)
    _ = m ((c : Thread nD τ).loc main_arg7) := rfl

/-! ## The proof data family and the thread state -/

abbrev admH : (p : Fin 4) → (pcfgs (F := F) p).Adm := fun p => (cfgs p).toPCfg_adm
/-- Every pipeline's proof data, each at its region's entry contents. -/
def pdatsH : (p : Fin 4) → (c : Dev nD) → Dat τ (Elt F) Unit ℕ (UR sig nD τ) ℕ (Pipeline.pin (pcfgs (F := F)) admH p) c
  | ⟨0, _⟩ => fun c => dat0 (E3 m ρ) c
  | ⟨1, _⟩ => fun c => dat1 (E5 m ρ) c
  | ⟨2, _⟩ => fun c => dat2 (E7 m ρ) c
  | ⟨3, _⟩ => fun c => dat3 (E9 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (B11 m ρ c) ∗ ∃ r, prngReg c r)

/-! ## The regions as segments -/

set_option backward.isDefEq.respectTransparency.types false in
/-- Region 0 over the thread state: entered with every unscoped buffer at `B3`, left with them at `B4`; its arrays
    are split out of the unscoped buffers at entry and put back at the exit contents; the generator register goes into
    the region invariant and comes back; nothing is owed. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E3 m ρ) c).loose
  hwaits := Pipeline.hwaits_of_owed_zero _ _ _ _ LH lvH 0 fun _ _ => rfl
  pre c := iprop(StableHlo.held (c : Thread nD τ) (Pipeline.ucRefs τ sig) (B3 m ρ c) ∗ RH c)
  post c := iprop(StableHlo.held (c : Thread nD τ) (Pipeline.ucRefs τ sig) (B4 m ρ c) ∗ RH c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (E3 m ρ c) (X4 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B5`, left with them at `B6`; its arrays
    are split out of the unscoped buffers at entry and put back at the exit contents; the generator register goes into
    the region invariant and comes back; nothing is owed. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E5 m ρ) c).loose
  hwaits := Pipeline.hwaits_of_owed_zero _ _ _ _ LH lvH 1 fun _ _ => rfl
  pre c := iprop(StableHlo.held (c : Thread nD τ) (Pipeline.ucRefs τ sig) (B5 m ρ c) ∗ RH c)
  post c := iprop(StableHlo.held (c : Thread nD τ) (Pipeline.ucRefs τ sig) (B6 m ρ c) ∗ RH c)
  X c := iprop(∃ r, prngReg c r)
  Y c := iprop(∃ r, prngReg c r)
  Z c := Pipeline.unscopedRest (Ix := Unit) (Name := ℕ) (U := UR sig nD τ) (Lvl := ℕ) spec1 c (E5 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (E5 m ρ c) (X6 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B7`, left with them at `B8`; its arrays
    are split out of the unscoped buffers at entry and put back at the exit contents; the generator register goes into
    the region invariant and comes back; nothing is owed. -/
def regH2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E7 m ρ) c).loose
  hwaits := Pipeline.hwaits_of_owed_zero _ _ _ _ LH lvH 2 fun _ _ => rfl
  pre c := iprop(StableHlo.held (c : Thread nD τ) (Pipeline.ucRefs τ sig) (B7 m ρ c) ∗ RH c)
  post c := iprop(StableHlo.held (c : Thread nD τ) (Pipeline.ucRefs τ sig) (B8 m ρ c) ∗ RH c)
  X c := iprop(∃ r, prngReg c r)
  Y c := iprop(∃ r, prngReg c r)
  Z c := Pipeline.unscopedRest (Ix := Unit) (Name := ℕ) (U := UR sig nD τ) (Lvl := ℕ) spec2 c (E7 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (E7 m ρ c) (X8 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `B9`, left with them at `B10`; its arrays
    are split out of the unscoped buffers at entry and put back at the exit contents; the generator register goes into
    the region invariant and comes back; nothing is owed. -/
def regH3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (E9 m ρ) c).loose
  hwaits := Pipeline.hwaits_of_owed_zero _ _ _ _ LH lvH 3 fun _ _ => rfl
  pre c := iprop(StableHlo.held (c : Thread nD τ) (Pipeline.ucRefs τ sig) (B9 m ρ c) ∗ RH c)
  post c := iprop(StableHlo.held (c : Thread nD τ) (Pipeline.ucRefs τ sig) (B10 m ρ c) ∗ RH c)
  X c := iprop(∃ r, prngReg c r)
  Y c := iprop(∃ r, prngReg c r)
  Z c := Pipeline.unscopedRest (Ix := Unit) (Name := ℕ) (U := UR sig nD τ) (Lvl := ℕ) spec3 c (E9 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E9 m ρ) c)
    unfold Pipeline.ΦA
    iintro ⟨Hp, -, Hr⟩
    isplitl [Hr]; · iexact Hr
    iexact Hp
  hout c := by
    refine BIBase.Entails.trans (hout3 (E9 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (E9 m ρ c) (X10 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub hostOps0_fresh (B0 m ρ)),
    .host (hsegH hostOps0_1 hostOps0_1_sub hostOps0_1_fresh (B1 m ρ)),
    .host (hsegH hostOps0_2 hostOps0_2_sub hostOps0_2_fresh (B2 m ρ)),
    .region (regH0 m ρ),
    .host (hsegH hostOps1 hostOps1_sub hostOps1_fresh (B4 m ρ)),
    .region (regH1 m ρ),
    .host (hsegH hostOps2 hostOps2_sub hostOps2_fresh (B6 m ρ)),
    .region (regH2 m ρ),
    .host (hsegH hostOps3 hostOps3_sub hostOps3_fresh (B8 m ρ)),
    .region (regH3 m ρ),
    .host (hsegH hostOps4 hostOps4_sub hostOps4_fresh (B10 m ρ)) ]

/-- @main is the run of the segments. -/
theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting, and
    every unscoped TensorCore buffer ends at the last boundary's contents `B11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B11 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TnH m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B11 m ρ c) ∗ RH c) ⊢ iprop(TnH m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m ρ c b)
    (hfin := fun c s' => by
      iintro ⟨⟨Hh, -⟩, HSI⟩
      unfold StableHlo.held
      imodintro
      iapply (pointsTo_read_all (Pipeline.ucRefs τ sig) (fun b => (((c : Thread nD τ)).1, b)) (B11 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (B11_main_arg0 m ρ c),
     (h c _ (mem_uc main_arg1 (by decide))).trans (B11_main_arg1 m ρ c),
     (h c _ (mem_uc main_arg2 (by decide))).trans (B11_main_arg2 m ρ c),
     (h c _ (mem_uc main_arg3 (by decide))).trans (B11_main_arg3 m ρ c),
     (h c _ (mem_uc main_arg4 (by decide))).trans (B11_main_arg4 m ρ c),
     (h c _ (mem_uc main_arg5 (by decide))).trans (B11_main_arg5 m ρ c),
     (h c _ (mem_uc main_arg6 (by decide))).trans (B11_main_arg6 m ρ c),
     (h c _ (mem_uc main_arg7 (by decide))).trans (B11_main_arg7 m ρ c)⟩) (run_all m ρ)

end Cert.Kernel.Hand

end
-- ==== Proof.KI.Reg0.lean ====
/-
  Region 0 of the network's program (one dense layer, tiled over the nodes in ten blocks of 10000 rows), at any
  contents `V` of the buffers when the region is entered: each window's block at a grid point, what the layer's body
  leaves in the output block as a function of the input blocks (its one covering store of the layer's payload), the
  body's triple, and the data the pipeline's launch theorem takes — after the body every input block is untouched and
  the output block holds the payload of the input blocks.
-/
import proofs.«165814_j17411797418191_1_alg».proof.Proof.Gen.KernelIdeal.Launch
import proofs.«165814_j17411797418191_1_alg».proof.Proof.Gen.KernelIdeal.Skeleton
import proofs.«165814_j17411797418191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or carried over from the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or carried over from the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x1 := Rect.unit (s := S10000x1) ![0, 0] S10000x1.size inb_S10000x1_S10000x1_0_0
abbrev r0_1 : Rect S1x64 := Rect.unit (s := S1x64) ![0, 0] S1x64.size inb_S1x64_S1x64_0_0
abbrev r0_2 : Rect S10000x64 := Rect.unit (s := S10000x64) ![0, 0] S10000x64.size inb_S10000x64_S10000x64_0_0

/-- The output block after the body: its one store, of the layer's payload of the loaded input blocks. -/
def out0_2 (x0 : Vec F S10000x1 .f32) (x1 : Vec F S1x64 .f32) : Vec F S10000x64 .f32 :=
  View.canon [⟨r0_2, k0_pay1 (View.ld x0 r0_0) (View.ld x1 r0_1)⟩]

/-- The store is of the whole block, so it covers it. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 4000000 in
/-- The body on whole staging memrefs — the inputs' at contents `x·`, the output's at anything — runs to the
    continuation with the inputs as they were and the output at `out0_2` of them. -/
theorem sound_kernel0 (c : Dev nD) (E : Set ℕ) (i : grid0.Coords) (arg1 : Memref sig .tc .vmem S10000x1 .f32) (harg1 : arg1.IsWhole) (arg2 : Memref sig .tc .vmem S1x64 .f32) (harg2 : arg2.IsWhole) (arg3 : Memref sig .tc .vmem S10000x64 .f32) (harg3 : arg3.IsWhole)
    (x0 : Vec F S10000x1 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data: the arrays as the region finds them; after the body each input's buffer at its block and
    the output's at the payload of the input blocks; the class invariant (scoped rest and generator register untouched);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the network's program (one dense layer, tiled over the nodes in ten blocks of 10000 rows), at any
  contents `V` of the buffers when the region is entered: each window's block at a grid point, what the layer's body
  leaves in the output block as a function of the input blocks (its one covering store of the layer's payload), the
  body's triple, and the data the pipeline's launch theorem takes — after the body every input block is untouched and
  the output block holds the payload of the input blocks.
-/
import proofs.«165814_j17411797418191_1_alg».proof.Proof.Gen.KernelIdeal.Launch
import proofs.«165814_j17411797418191_1_alg».proof.Proof.Gen.KernelIdeal.Skeleton
import proofs.«165814_j17411797418191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or carried over from the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or carried over from the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or carried over from the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S64x32 := Rect.unit (s := S64x32) ![0, 0] S64x32.size inb_S64x32_S64x32_0_0
abbrev r1_3 : Rect S10000x32 := Rect.unit (s := S10000x32) ![0, 0] S10000x32.size inb_S10000x32_S10000x32_0_0

/-- The output block after the body: its one store, of the layer's payload of the loaded input blocks. -/
def out1_3 (x0 : Vec F S10000x64 .f32) (x1 : Vec F S1x64 .f32) (x2 : Vec F S64x32 .f32) : Vec F S10000x32 .f32 :=
  View.canon [⟨r1_3, k1_pay1 (View.ld x0 r1_0) (View.ld x1 r1_1) (View.ld x2 r1_2)⟩]

/-- The store is of the whole block, so it covers it. -/
theorem cover1_3 (p0 : Vec F S10000x32 .f32) (y : S10000x32.Idx) :
    ∃ pc ∈ ([⟨r1_3, p0⟩] : List (View.Piece (Elt F) S10000x32 .f32)), y ∈ pc.1.set :=
  View.cover_of_tiled [⟨r1_3, p0⟩] S10000x32.size (by rfl) y

set_option maxHeartbeats 4000000 in
/-- The body on whole staging memrefs — the inputs' at contents `x·`, the output's at anything — runs to the
    continuation with the inputs as they were and the output at `out1_3` of them. -/
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S64x32 .f32) (harg3 : arg3.IsWhole) (arg4 : Memref sig .tc .vmem S10000x32 .f32) (harg4 : arg4.IsWhole)
    (x0 : Vec F S10000x64 .f32) (x1 : Vec F S1x64 .f32) (x2 : Vec F S64x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_act_matmul_kernel i arg1 harg1 arg2 harg2 arg3 harg3 arg4 harg4) K := by
  simp only [cc1__bias_act_matmul_kernel_eq_skeleton]; unfold cc1__bias_act_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data: the arrays as the region finds them; after the body each input's buffer at its block and
    the output's at the payload of the input blocks; the class invariant (scoped rest and generator register untouched);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the network's program (one dense layer, tiled over the nodes in ten blocks of 10000 rows), at any
  contents `V` of the buffers when the region is entered: each window's block at a grid point, what the layer's body
  leaves in the output block as a function of the input blocks (its one covering store of the layer's payload), the
  body's triple, and the data the pipeline's launch theorem takes — after the body every input block is untouched and
  the output block holds the payload of the input blocks.
-/
import proofs.«165814_j17411797418191_1_alg».proof.Proof.Gen.KernelIdeal.Launch
import proofs.«165814_j17411797418191_1_alg».proof.Proof.Gen.KernelIdeal.Skeleton
import proofs.«165814_j17411797418191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or carried over from the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or carried over from the fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or carried over from the fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x32 := Rect.unit (s := S10000x32) ![0, 0] S10000x32.size inb_S10000x32_S10000x32_0_0
abbrev r2_1 : Rect S1x32 := Rect.unit (s := S1x32) ![0, 0] S1x32.size inb_S1x32_S1x32_0_0
abbrev r2_2 : Rect S32x10 := Rect.unit (s := S32x10) ![0, 0] S32x10.size inb_S32x10_S32x10_0_0
abbrev r2_3 : Rect S10000x10 := Rect.unit (s := S10000x10) ![0, 0] S10000x10.size inb_S10000x10_S10000x10_0_0

/-- The output block after the body: its one store, of the layer's payload of the loaded input blocks. -/
def out2_3 (x0 : Vec F S10000x32 .f32) (x1 : Vec F S1x32 .f32) (x2 : Vec F S32x10 .f32) : Vec F S10000x10 .f32 :=
  View.canon [⟨r2_3, k2_pay1 (View.ld x0 r2_0) (View.ld x1 r2_1) (View.ld x2 r2_2)⟩]

/-- The store is of the whole block, so it covers it. -/
theorem cover2_3 (p0 : Vec F S10000x10 .f32) (y : S10000x10.Idx) :
    ∃ pc ∈ ([⟨r2_3, p0⟩] : List (View.Piece (Elt F) S10000x10 .f32)), y ∈ pc.1.set :=
  View.cover_of_tiled [⟨r2_3, p0⟩] S10000x10.size (by rfl) y

set_option maxHeartbeats 4000000 in
/-- The body on whole staging memrefs — the inputs' at contents `x·`, the output's at anything — runs to the
    continuation with the inputs as they were and the output at `out2_3` of them. -/
theorem sound_kernel2 (c : Dev nD) (E : Set ℕ) (i : grid2.Coords) (arg1 : Memref sig .tc .vmem S10000x32 .f32) (harg1 : arg1.IsWhole) (arg2 : Memref sig .tc .vmem S1x32 .f32) (harg2 : arg2.IsWhole) (arg3 : Memref sig .tc .vmem S32x10 .f32) (harg3 : arg3.IsWhole) (arg4 : Memref sig .tc .vmem S10000x10 .f32) (harg4 : arg4.IsWhole)
    (x0 : Vec F S10000x32 .f32) (x1 : Vec F S1x32 .f32) (x2 : Vec F S32x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__bias_act_matmul_kernel i arg1 harg1 arg2 harg2 arg3 harg3 arg4 harg4) K := by
  simp only [cc2__bias_act_matmul_kernel_eq_skeleton]; unfold cc2__bias_act_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data: the arrays as the region finds them; after the body each input's buffer at its block and
    the output's at the payload of the input blocks; the class invariant (scoped rest and generator register untouched);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3Base.lean ====
/-
  Region 3 of the network's program — the read-out: per block of 10000 nodes add the bias row, sum the block's rows,
  and accumulate the sums in a one-row scratch that is zeroed at the first block and, at the last block, scaled by the
  reciprocal of the node count into the output row. This module holds what the three control cases of the body share:
  the two branch conditions in closed form over the ten grid points, where the output row is idle, the memrefs the
  body is called with, the region invariant with the scratch row singled out, and the input blocks.
-/
import proofs.«165814_j17411797418191_1_alg».proof.Proof.Gen.KernelIdeal.Launch
import proofs.«165814_j17411797418191_1_alg».proof.Proof.Gen.KernelIdeal.Skeleton
import proofs.«165814_j17411797418191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or carried over from the fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions -/

/-- "This is the first block": the scratch row is zeroed. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)
/-- "This is the last block": the scaled sums are stored to the output row. -/
abbrev cond3_1 (i : grid3.Coords) : Prop := k3_cond2 i = 1#1
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- Away from the last block the output row is idle and is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

/-! ## The memrefs the body is called with -/

/-- One staging buffer of the output row, through which its contents are stated. -/
abbrev VO3_2 : View sig .tc .vmem S1x10 .f32 := (Memref.whole cc3_stg2_0 : Memref sig .tc .vmem S1x10 .f32).view
abbrev ms3_0 (t : Fin cfg3.N) : Memref sig .tc .vmem S10000x10 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x10 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x10 .f32 := win3_2.stage (cfg3.slots t 2)
abbrev hs3_2 (t : Fin cfg3.N) : (ms3_2 t).IsWhole := hstage3_2 ((cfg3.slots t 2).cast nbuf3_2)
/-- The scratch row carried between blocks. -/
abbrev scM3_0 : Memref sig .tc .vmem S1x10 .f32 := Memref.whole cc3_scratch0
abbrev VS3_0 : View sig .tc .vmem S1x10 .f32 := scM3_0.view

/-! ## The region invariant with the scratch row singled out -/

/-- The core's scoped buffers other than region 3's staging buffers — every other region's staging buffers at any
    contents, then the scratch row as `X` says — and the generator register at some state. -/
def PhiBase (c : Dev nD) (X : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ X) ∗ (∃ r, prngReg c r))

/-- The class invariant is `PhiBase` with the scratch row at anything. -/
theorem PhiA3_eq (c : Dev nD) :
    (Pipeline.ΦA spec3 c : sProp 𝕄) = PhiBase c (iprop(∃ d, owns (c : Thread nD τ) scM3_0 fullShare d)) := by
  unfold Pipeline.ΦA PhiBase; rw [scopedRest3_eq]; simp only [scM3_0, owns_whole]; try rfl

/-- The scratch row's clause can be taken out of `PhiBase` and another put back in its place. -/
theorem PhiBase_swap (c : Dev nD) (X Y : sProp 𝕄) : PhiBase c X ⊢ iprop(X ∗ (Y -∗ PhiBase c Y)) := by
  unfold PhiBase
  iintro ⟨⟨HR0, HR1, HR2, HR3, HR4, HR5, HR6, HR7, HR8, HR9, HR10, HR11, HR12, HR13, HR14, HR15, HR16, HX⟩, Hg⟩
  isplitl [HX]; · iexact HX
  iintro HY
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    iexact HY
  iexact Hg

end Cert.KernelIdeal.Hand

end
-- ==== Proof.KI.Reg3RunA.lean ====
/-
  Region 3's body run symbolically in the case of the first block (the scratch row is zeroed, then the block's biased row sums are added; the output row is not touched): the pieces its stores leave in the output row and in the
  scratch row, with the proof that on whole memrefs the body runs to its continuation with exactly those pieces written.
-/
import proofs.«165814_j17411797418191_1_alg».proof.Proof.KI.Reg3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun3_A (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : cond3_0 i) (hc1 : ¬cond3_1 i)
    (x0 : Vec F S10000x10 .f32) (x1 : Vec F S1x10 .f32) :
    Σ' (L2 : List (View.Piece (Elt F) S1x10 .f32)), { LS0 : List (View.Piece (Elt F) S1x10 .f32) //
      ∀ (xi2 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__bias_mean_kernel i arg1 harg1 arg2 harg2 arg3 harg3 arg4 harg4) K } := by
  refine ⟨[], ?_, fun xi2 E K => ?run⟩
  case run =>
    simp only [cc3__bias_mean_kernel_eq_skeleton]; unfold cc3__bias_mean_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.Reg3RunB.lean ====
/-
  Region 3's body run symbolically in the case of a middle block (the block's biased row sums are added to the scratch row; the output row is not touched): the pieces its stores leave in the output row and in the
  scratch row, with the proof that on whole memrefs the body runs to its continuation with exactly those pieces written.
-/
import proofs.«165814_j17411797418191_1_alg».proof.Proof.KI.Reg3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun3_B (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : ¬cond3_1 i)
    (x0 : Vec F S10000x10 .f32) (x1 : Vec F S1x10 .f32) (xs0 : Vec F S1x10 .f32) :
    Σ' (L2 : List (View.Piece (Elt F) S1x10 .f32)), { LS0 : List (View.Piece (Elt F) S1x10 .f32) //
      ∀ (xi2 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__bias_mean_kernel i arg1 harg1 arg2 harg2 arg3 harg3 arg4 harg4) K } := by
  refine ⟨[], ?_, fun xi2 E K => ?run⟩
  case run =>
    simp only [cc3__bias_mean_kernel_eq_skeleton]; unfold cc3__bias_mean_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.Reg3RunC.lean ====
/-
  Region 3's body run symbolically in the case of the last block (the block's biased row sums are added to the scratch row, and the scratch row scaled by the reciprocal of the node count is stored to the output row): the pieces its stores leave in the output row and in the
  scratch row, with the proof that on whole memrefs the body runs to its continuation with exactly those pieces written.
-/
import proofs.«165814_j17411797418191_1_alg».proof.Proof.KI.Reg3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun3_C (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : cond3_1 i)
    (x0 : Vec F S10000x10 .f32) (x1 : Vec F S1x10 .f32) (xs0 : Vec F S1x10 .f32) :
    Σ' (L2 : List (View.Piece (Elt F) S1x10 .f32)), { LS0 : List (View.Piece (Elt F) S1x10 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc3__bias_mean_kernel i arg1 harg1 arg2 harg2 arg3 harg3 arg4 harg4) K } := by
  refine ⟨?_, ?_, fun E K => ?run⟩
  case run =>
    simp only [cc3__bias_mean_kernel_eq_skeleton]; unfold cc3__bias_mean_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact HS0

end Cert.KernelIdeal.Hand

end
-- ==== Proof.KI.Reg3.lean ====
/-
  Region 3 of the network's program (the read-out) assembled from its three control cases: what the output row and the
  scratch row hold after each of the ten blocks — the scratch row after block n is the case's store into it run over
  the block's inputs and what block n−1 left —, the region invariant that carries the scratch row's contents from one
  block to the next, the data the pipeline's launch theorem takes, and the body obligation.
-/
import proofs.«165814_j17411797418191_1_alg».proof.Proof.KI.Reg3RunA
import proofs.«165814_j17411797418191_1_alg».proof.Proof.KI.Reg3RunB
import proofs.«165814_j17411797418191_1_alg».proof.Proof.KI.Reg3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What each case leaves -/

/-- The output row after a block of case A: its pieces read back (none: a placeholder nothing consults, the row being idle there). -/
def out3_A_2 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : cond3_0 i) (hc1 : ¬cond3_1 i)
    (x0 : Vec F S10000x10 .f32) (x1 : Vec F S1x10 .f32) : Vec F S1x10 .f32 :=
  VO3_2.read (Elt F) (VO3_2.writes (Elt F) VO3_2.junk (kernelRun3_A c i arg1 harg1 arg2 harg2 arg3 harg3 arg4 harg4 hc0 hc1 x0 x1).1)

/-- Case A's stores into the scratch row cover it. -/
theorem scover3_A_0 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : cond3_0 i) (hc1 : ¬cond3_1 i)
    (x0 : Vec F S10000x10 .f32) (x1 : Vec F S1x10 .f32) (y : S1x10.Idx) :
    ∃ pc ∈ (kernelRun3_A c i arg1 harg1 arg2 harg2 arg3 harg3 arg4 harg4 hc0 hc1 x0 x1).2.1, y ∈ pc.1.set :=
  View.cover_of_tiledL (kernelRun3_A c i arg1 harg1 arg2 harg2 arg3 harg3 arg4 harg4 hc0 hc1 x0 x1).2.1 S1x10.size (by sl_kernel_rfl) y

/-- The scratch row after a block of case A. -/
def sout3_A_0 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : cond3_0 i) (hc1 : ¬cond3_1 i)
    (x0 : Vec F S10000x10 .f32) (x1 : Vec F S1x10 .f32) : Vec F S1x10 .f32 :=
  VS3_0.read (Elt F) (VS3_0.writes (Elt F) VS3_0.junk (kernelRun3_A c i arg1 harg1 arg2 harg2 arg3 harg3 arg4 harg4 hc0 hc1 x0 x1).2.1)

/-- The output row after a block of case B: its pieces read back (none: a placeholder nothing consults, the row being idle there). -/
def out3_B_2 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : ¬cond3_1 i)
    (x0 : Vec F S10000x10 .f32) (x1 : Vec F S1x10 .f32) (xs0 : Vec F S1x10 .f32) : Vec F S1x10 .f32 :=
  VO3_2.read (Elt F) (VO3_2.writes (Elt F) VO3_2.junk (kernelRun3_B c i arg1 harg1 arg2 harg2 arg3 harg3 arg4 harg4 hc0 hc1 x0 x1 xs0).1)

/-- Case B's stores into the scratch row cover it. -/
theorem scover3_B_0 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : ¬cond3_1 i)
    (x0 : Vec F S10000x10 .f32) (x1 : Vec F S1x10 .f32) (xs0 : Vec F S1x10 .f32) (y : S1x10.Idx) :
    ∃ pc ∈ (kernelRun3_B c i arg1 harg1 arg2 harg2 arg3 harg3 arg4 harg4 hc0 hc1 x0 x1 xs0).2.1, y ∈ pc.1.set :=
  View.cover_of_tiledL (kernelRun3_B c i arg1 harg1 arg2 harg2 arg3 harg3 arg4 harg4 hc0 hc1 x0 x1 xs0).2.1 S1x10.size (by sl_kernel_rfl) y

/-- The scratch row after a block of case B. -/
def sout3_B_0 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : ¬cond3_1 i)
    (x0 : Vec F S10000x10 .f32) (x1 : Vec F S1x10 .f32) (xs0 : Vec F S1x10 .f32) : Vec F S1x10 .f32 :=
  VS3_0.read (Elt F) (VS3_0.writes (Elt F) VS3_0.junk (kernelRun3_B c i arg1 harg1 arg2 harg2 arg3 harg3 arg4 harg4 hc0 hc1 x0 x1 xs0).2.1)

/-- The last block's store into the output row covers it. -/
theorem cover3_C_2 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : cond3_1 i)
    (x0 : Vec F S10000x10 .f32) (x1 : Vec F S1x10 .f32) (xs0 : Vec F S1x10 .f32) (y : S1x10.Idx) :
    ∃ pc ∈ (kernelRun3_C c i arg1 harg1 arg2 harg2 arg3 harg3 arg4 harg4 hc0 hc1 x0 x1 xs0).1, y ∈ pc.1.set :=
  View.cover_of_tiledL (kernelRun3_C c i arg1 harg1 arg2 harg2 arg3 harg3 arg4 harg4 hc0 hc1 x0 x1 xs0).1 S1x10.size (by sl_kernel_rfl) y

/-- The output row after a block of case C: its pieces read back. -/
def out3_C_2 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : cond3_1 i)
    (x0 : Vec F S10000x10 .f32) (x1 : Vec F S1x10 .f32) (xs0 : Vec F S1x10 .f32) : Vec F S1x10 .f32 :=
  VO3_2.read (Elt F) (VO3_2.writes (Elt F) VO3_2.junk (kernelRun3_C c i arg1 harg1 arg2 harg2 arg3 harg3 arg4 harg4 hc0 hc1 x0 x1 xs0).1)

/-- Case C's stores into the scratch row cover it. -/
theorem scover3_C_0 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : cond3_1 i)
    (x0 : Vec F S10000x10 .f32) (x1 : Vec F S1x10 .f32) (xs0 : Vec F S1x10 .f32) (y : S1x10.Idx) :
    ∃ pc ∈ (kernelRun3_C c i arg1 harg1 arg2 harg2 arg3 harg3 arg4 harg4 hc0 hc1 x0 x1 xs0).2.1, y ∈ pc.1.set :=
  View.cover_of_tiledL (kernelRun3_C c i arg1 harg1 arg2 harg2 arg3 harg3 arg4 harg4 hc0 hc1 x0 x1 xs0).2.1 S1x10.size (by sl_kernel_rfl) y

/-- The scratch row after a block of case C. -/
def sout3_C_0 (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : cond3_1 i)
    (x0 : Vec F S10000x10 .f32) (x1 : Vec F S1x10 .f32) (xs0 : Vec F S1x10 .f32) : Vec F S1x10 .f32 :=
  VS3_0.read (Elt F) (VS3_0.writes (Elt F) VS3_0.junk (kernelRun3_C c i arg1 harg1 arg2 harg2 arg3 harg3 arg4 harg4 hc0 hc1 x0 x1 xs0).2.1)

/-! ## The accumulation -/

/-- What the output row's staging buffer and the scratch row hold after the body at block `n`: block 0 is the first
    case; block 9 the last case, over what block 8 left in the scratch; the others the middle case, over what the
    block before left. -/
def outsAt3 (c : Dev nD) : (n : ℕ) → n < cfg3.N → Vec F S1x10 .f32 × Vec F S1x10 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h1 : (n + 1) % 10 = 9 then
      (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h => by (try dsimp only at h); have hN : n + 1 < 10 := lt_of_lt_of_eq hn (show cfg3.N = 10 from N_3); omega) ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h => by (try dsimp only at h); have hN : n + 1 < 10 := lt_of_lt_of_eq hn (show cfg3.N = 10 from N_3); omega) ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
    else
      (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h => by (try dsimp only at h); have hN : n + 1 < 10 := lt_of_lt_of_eq hn (show cfg3.N = 10 from N_3); omega) ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h => by (try dsimp only at h); have hN : n + 1 < 10 := lt_of_lt_of_eq hn (show cfg3.N = 10 from N_3); omega) ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 10 = 0) (h1 : ¬t.val % 10 = 9) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (by exfalso; (try dsimp only at h0); have hN : n + 1 < 10 := lt_of_lt_of_eq hn (show cfg3.N = 10 from N_3); omega)

theorem outsAt3_B (c : Dev nD) (t : Fin cfg3.N) (h0 : ¬t.val % 10 = 0) (h1 : ¬t.val % 10 = 9) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem outsAt3_C (c : Dev nD) (t : Fin cfg3.N) (h0 : ¬t.val % 10 = 0) (h1 : t.val % 10 = 9) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region invariant before block `n`: before the first block the class's (every scoped buffer at anything);
    afterwards the same with the scratch row at what the block before left in it. -/
def PhiS (c : Dev nD) : (n : ℕ) → n ≤ cfg3.N → sProp 𝕄
  | 0, _ => Pipeline.ΦA spec3 c
  | n + 1, hn => PhiBase c (owns (c : Thread nD τ) scM3_0 fullShare ((outsAt3 V c n hn).2))

theorem PhiS_zero (c : Dev nD) (n : ℕ) (h : n ≤ cfg3.N) (hz : n = 0) : PhiS V c n h = Pipeline.ΦA spec3 c := by
  subst hz; rfl
theorem PhiS_succ (c : Dev nD) (n : ℕ) (hn : n < cfg3.N) :
    PhiS V c (n + 1) hn = PhiBase c (owns (c : Thread nD τ) scM3_0 fullShare ((outsAt3 V c n hn).2)) := rfl
theorem PhiS_pos (c : Dev nD) (n : ℕ) (h : n ≤ cfg3.N) (hz : n ≠ 0) :
    PhiS V c n h = PhiBase c (owns (c : Thread nD τ) scM3_0 fullShare ((outsAt3 V c (n - 1) (by omega)).2)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS_castSucc (c : Dev nD) (t : Fin cfg3.N) :
    (dat3 V c).Φ t.castSucc = PhiS V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any block: the closed forms say which case the block is in; the inputs' memrefs hold their blocks; the
    invariant hands the body the scratch row at what the block before left (at anything at the first block) and takes
    it back at this block's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS V c (t.val + 1) t.isLt from rfl, PhiS_succ]
  have hN : t.val < 10 := lt_of_lt_of_eq t.isLt (show cfg3.N = 10 from N_3)
  by_cases h0 : t.val % 10 = 0
  · by_cases h1 : t.val % 10 = 9
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 t (fun h => h1 ((hcond3_1 t).mp h))) (noFlush3_2 t (fun h => h1 ((hcond3_1 t).mp h)))]
      rw [outsAt3_A V c t h0 h1]
      (try dsimp only)
      have hz : t.val = 0 := by omega
      rw [PhiS_castSucc V c t, PhiS_zero V c _ _ hz, PhiA3_eq]
      iintro ⟨HΦ, Ho, ⟨%d0, H0⟩, ⟨%d1, H1⟩, ⟨%d2, H2⟩⟩
      ihave HS := (PhiBase_swap c _ (owns (c : Thread nD τ) scM3_0 fullShare (sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)))) $$ HΦ
      icases HS with ⟨HS0, Hback⟩
      iapply ((kernelRun3_A c (grid3.coords t) _ _ _ _ _ _ _ _ ((hcond3_0 t).mpr h0) (fun h => h1 ((hcond3_1 t).mp h)) (iblk3 V c 0 t) (iblk3 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hback]
      · iapply Hback
        unfold owns; iexists _; isplitr
        swap; · iexact HS0
        ipureintro; unfold sout3_A_0; exact View.read_writes_of_cover _ _ _ _ _ (scover3_A_0 c _ _ _ _ _ _ _ _ _ _ _ _ _)
      isplitl [Ho]; · iexact Ho
      isplitl [H0]; · iexact H0
      isplitl [H1]; · iexact H1
      iexists _; iexact H2
  · by_cases h1 : t.val % 10 = 9
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      (try dsimp only)
      have hz : t.val ≠ 0 := by omega
      rw [PhiS_castSucc V c t, PhiS_pos V c _ _ hz]
      iintro ⟨HΦ, Ho, ⟨%d0, H0⟩, ⟨%d1, H1⟩, ⟨%d2, H2⟩⟩
      ihave HS := (PhiBase_swap c _ (owns (c : Thread nD τ) scM3_0 fullShare (sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2))) $$ HΦ
      icases HS with ⟨HS0, Hback⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hback]
      · iapply Hback
        unfold owns; iexists _; isplitr
        swap; · iexact HS0
        ipureintro; unfold sout3_C_0; exact View.read_writes_of_cover _ _ _ _ _ (scover3_C_0 c _ _ _ _ _ _ _ _ _ _ _ _ _ _)
      isplitl [Ho]; · iexact Ho
      isplitl [H0]; · iexact H0
      isplitl [H1]; · iexact H1
      unfold owns; iexists _; isplitr
      swap; · iexact H2
      ipureintro; unfold out3_C_2; exact View.read_writes_of_cover _ _ _ _ _ (cover3_C_2 c _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 t (fun h => h1 ((hcond3_1 t).mp h))) (noFlush3_2 t (fun h => h1 ((hcond3_1 t).mp h)))]
      rw [outsAt3_B V c t h0 h1]
      (try dsimp only)
      have hz : t.val ≠ 0 := by omega
      rw [PhiS_castSucc V c t, PhiS_pos V c _ _ hz]
      iintro ⟨HΦ, Ho, ⟨%d0, H0⟩, ⟨%d1, H1⟩, ⟨%d2, H2⟩⟩
      ihave HS := (PhiBase_swap c _ (owns (c : Thread nD τ) scM3_0 fullShare (sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2))) $$ HΦ
      icases HS with ⟨HS0, Hback⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hback]
      · iapply Hback
        unfold owns; iexists _; isplitr
        swap; · iexact HS0
        ipureintro; unfold sout3_B_0; exact View.read_writes_of_cover _ _ _ _ _ (scover3_B_0 c _ _ _ _ _ _ _ _ _ _ _ _ _ _)
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body3 V c t

/-- What the launch hands the region is the invariant before the first block. -/
theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After the last block the invariant gives the class's back: the scratch row's contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 10 := N_3; omega
  rw [show (dat3 V c).Φ (Fin.last cfg3.N) = PhiS V c (Fin.last cfg3.N).val (Nat.le_of_lt_succ (Fin.last cfg3.N).isLt) from rfl, PhiS_pos V c _ _ ht, PhiA3_eq]
  iintro H
  ihave HS := (PhiBase_swap c _ (iprop(∃ d, owns (c : Thread nD τ) scM3_0 fullShare d))) $$ H
  icases HS with ⟨HS0, Hback⟩
  iapply Hback
  iexists _; iexact HS0

end Cert.KernelIdeal.Hand

end
-- ==== Proof.KI.Run.lean ====
/-
  The network's whole program as a run: ten grid points of each of its four regions among seven stretches of host
  operations. The contents of every unscoped buffer at each of the twelve boundaries between these eleven items are
  named as a fold from the launch memory (a host stretch applies its operations; a region replaces its arrays by what
  its write-backs leave), each region is packaged as a segment entered at one boundary's contents and left at the
  next's, and the launch theorem for such a list of segments gives: every weakly fair execution terminates, nothing
  faults, and at the end every unscoped buffer holds the last boundary's contents.
-/
import proofs.«165814_j17411797418191_1_alg».proof.Proof.Gen.KernelIdeal.Launch
import proofs.«165814_j17411797418191_1_alg».proof.Proof.Gen.KernelIdeal.Skeleton
import proofs.«165814_j17411797418191_1_alg».proof.Proof.Gen.KernelIdeal.Points
import proofs.«165814_j17411797418191_1_alg».proof.Proof.Gen.KernelIdeal.Regions
import proofs.«165814_j17411797418191_1_alg».proof.Proof.KI.Reg0
import proofs.«165814_j17411797418191_1_alg».proof.Proof.KI.Reg1
import proofs.«165814_j17411797418191_1_alg».proof.Proof.KI.Reg2
import proofs.«165814_j17411797418191_1_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at the twelve boundaries -/

/-- Core `c`'s buffers at launch. -/
abbrev B0 : Dev nD → Valuation τ sig (Elt F) := fun c b => (s₀ m ρ).mem ((c : Dev nD), b)
/-- After the host stretch `hostOps0`. -/
abbrev B1 : Dev nD → Valuation τ sig (Elt F) := fun c => StableHlo.after hostOps0 (B0 m ρ c)
theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
/-- After the host stretch `hostOps0_1`. -/
abbrev B2 : Dev nD → Valuation τ sig (Elt F) := fun c => StableHlo.after hostOps0_1 (B1 m ρ c)
theorem B2_of (c : Dev nD) (r : Ref sig .tc) (h : r ∉ hostOps0_1_W) : B2 m ρ c (Proc.devRef .tc r) = B1 m ρ c (Proc.devRef .tc r) :=
  StableHlo.after_of_writes_sub hostOps0_1 _ hostOps0_1_writes h
/-- After the host stretch `hostOps0_2`. -/
abbrev B3 : Dev nD → Valuation τ sig (Elt F) := fun c => StableHlo.after hostOps0_2 (B2 m ρ c)
theorem B3_of (c : Dev nD) (r : Ref sig .tc) (h : r ∉ hostOps0_2_W) : B3 m ρ c (Proc.devRef .tc r) = B2 m ρ c (Proc.devRef .tc r) :=
  StableHlo.after_of_writes_sub hostOps0_2 _ hostOps0_2_writes h
/-- The entry contents of region 0, read at the TensorCore's references. -/
abbrev E3 : (c : Dev nD) → (b : Ref sig .tc) → Buf (Elt F) ((c : Thread nD τ).loc b) := fun c b => B3 m ρ c b
/-- At region 0's exit: its arrays at what the pipeline's write-backs leave, every other buffer as entered. -/
def B4 (c : Dev nD) : Valuation τ sig (Elt F) :=
  Pipeline.withArrays spec0 c (B3 m ρ c) fun w => (dat0 (E3 m ρ) c).arrAt w cfg0.N
theorem B4_arr (c : Dev nD) (w : Fin cfg0.W) :
    B4 m ρ c (Proc.devRef .tc (Pipeline.arrRef spec0 w)) = (dat0 (E3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
abbrev X4 : (c : Dev nD) → (b : Ref sig .tc) → Buf (Elt F) ((c : Thread nD τ).loc b) := fun c b => B4 m ρ c b
theorem hF0 (c : Dev nD) (w : Fin cfg0.W) : (dat0 (E3 m ρ) c).arrAt w cfg0.N = X4 m ρ c (Pipeline.arrRef spec0 w) :=
  (B4_arr m ρ c w).symm
theorem hrest0 (c : Dev nD) : ∀ b, b ∉ Finset.univ.image (Pipeline.arrRef spec0) → X4 m ρ c b = E3 m ρ c b :=
  fun b hb => B4_of_ne m ρ c b fun w e => hb (Finset.mem_image.mpr ⟨w, Finset.mem_univ _, e⟩)
/-- After the host stretch `hostOps1`. -/
abbrev B5 : Dev nD → Valuation τ sig (Elt F) := fun c => StableHlo.after hostOps1 (B4 m ρ c)
theorem B5_of (c : Dev nD) (r : Ref sig .tc) (h : r ∉ hostOps1_W) : B5 m ρ c (Proc.devRef .tc r) = B4 m ρ c (Proc.devRef .tc r) :=
  StableHlo.after_of_writes_sub hostOps1 _ hostOps1_writes h
/-- The entry contents of region 1, read at the TensorCore's references. -/
abbrev E5 : (c : Dev nD) → (b : Ref sig .tc) → Buf (Elt F) ((c : Thread nD τ).loc b) := fun c b => B5 m ρ c b
/-- At region 1's exit: its arrays at what the pipeline's write-backs leave, every other buffer as entered. -/
def B6 (c : Dev nD) : Valuation τ sig (Elt F) :=
  Pipeline.withArrays spec1 c (B5 m ρ c) fun w => (dat1 (E5 m ρ) c).arrAt w cfg1.N
theorem B6_arr (c : Dev nD) (w : Fin cfg1.W) :
    B6 m ρ c (Proc.devRef .tc (Pipeline.arrRef spec1 w)) = (dat1 (E5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
abbrev X6 : (c : Dev nD) → (b : Ref sig .tc) → Buf (Elt F) ((c : Thread nD τ).loc b) := fun c b => B6 m ρ c b
theorem hF1 (c : Dev nD) (w : Fin cfg1.W) : (dat1 (E5 m ρ) c).arrAt w cfg1.N = X6 m ρ c (Pipeline.arrRef spec1 w) :=
  (B6_arr m ρ c w).symm
theorem hrest1 (c : Dev nD) : ∀ b, b ∉ Finset.univ.image (Pipeline.arrRef spec1) → X6 m ρ c b = E5 m ρ c b :=
  fun b hb => B6_of_ne m ρ c b fun w e => hb (Finset.mem_image.mpr ⟨w, Finset.mem_univ _, e⟩)
/-- After the host stretch `hostOps2`. -/
abbrev B7 : Dev nD → Valuation τ sig (Elt F) := fun c => StableHlo.after hostOps2 (B6 m ρ c)
theorem B7_of (c : Dev nD) (r : Ref sig .tc) (h : r ∉ hostOps2_W) : B7 m ρ c (Proc.devRef .tc r) = B6 m ρ c (Proc.devRef .tc r) :=
  StableHlo.after_of_writes_sub hostOps2 _ hostOps2_writes h
/-- The entry contents of region 2, read at the TensorCore's references. -/
abbrev E7 : (c : Dev nD) → (b : Ref sig .tc) → Buf (Elt F) ((c : Thread nD τ).loc b) := fun c b => B7 m ρ c b
/-- At region 2's exit: its arrays at what the pipeline's write-backs leave, every other buffer as entered. -/
def B8 (c : Dev nD) : Valuation τ sig (Elt F) :=
  Pipeline.withArrays spec2 c (B7 m ρ c) fun w => (dat2 (E7 m ρ) c).arrAt w cfg2.N
theorem B8_arr (c : Dev nD) (w : Fin cfg2.W) :
    B8 m ρ c (Proc.devRef .tc (Pipeline.arrRef spec2 w)) = (dat2 (E7 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
abbrev X8 : (c : Dev nD) → (b : Ref sig .tc) → Buf (Elt F) ((c : Thread nD τ).loc b) := fun c b => B8 m ρ c b
theorem hF2 (c : Dev nD) (w : Fin cfg2.W) : (dat2 (E7 m ρ) c).arrAt w cfg2.N = X8 m ρ c (Pipeline.arrRef spec2 w) :=
  (B8_arr m ρ c w).symm
theorem hrest2 (c : Dev nD) : ∀ b, b ∉ Finset.univ.image (Pipeline.arrRef spec2) → X8 m ρ c b = E7 m ρ c b :=
  fun b hb => B8_of_ne m ρ c b fun w e => hb (Finset.mem_image.mpr ⟨w, Finset.mem_univ _, e⟩)
/-- After the host stretch `hostOps3`. -/
abbrev B9 : Dev nD → Valuation τ sig (Elt F) := fun c => StableHlo.after hostOps3 (B8 m ρ c)
theorem B9_of (c : Dev nD) (r : Ref sig .tc) (h : r ∉ hostOps3_W) : B9 m ρ c (Proc.devRef .tc r) = B8 m ρ c (Proc.devRef .tc r) :=
  StableHlo.after_of_writes_sub hostOps3 _ hostOps3_writes h
/-- The entry contents of region 3, read at the TensorCore's references. -/
abbrev E9 : (c : Dev nD) → (b : Ref sig .tc) → Buf (Elt F) ((c : Thread nD τ).loc b) := fun c b => B9 m ρ c b
/-- At region 3's exit: its arrays at what the pipeline's write-backs leave, every other buffer as entered. -/
def B10 (c : Dev nD) : Valuation τ sig (Elt F) :=
  Pipeline.withArrays spec3 c (B9 m ρ c) fun w => (dat3 (E9 m ρ) c).arrAt w cfg3.N
theorem B10_arr (c : Dev nD) (w : Fin cfg3.W) :
    B10 m ρ c (Proc.devRef .tc (Pipeline.arrRef spec3 w)) = (dat3 (E9 m ρ) c).arrAt w cfg3.N := by
  unfold B10; exact Pipeline.withArrays_arr spec3 launch3.win.arr_inj c _ _ w
theorem B10_of_ne (c : Dev nD) (b : Ref sig .tc) (hb : ∀ w, Pipeline.arrRef spec3 w ≠ b) :
    B10 m ρ c (Proc.devRef .tc b) = B9 m ρ c (Proc.devRef .tc b) := by
  unfold B10; exact Pipeline.withArrays_of_ne spec3 c _ _ b hb
abbrev X10 : (c : Dev nD) → (b : Ref sig .tc) → Buf (Elt F) ((c : Thread nD τ).loc b) := fun c b => B10 m ρ c b
theorem hF3 (c : Dev nD) (w : Fin cfg3.W) : (dat3 (E9 m ρ) c).arrAt w cfg3.N = X10 m ρ c (Pipeline.arrRef spec3 w) :=
  (B10_arr m ρ c w).symm
theorem hrest3 (c : Dev nD) : ∀ b, b ∉ Finset.univ.image (Pipeline.arrRef spec3) → X10 m ρ c b = E9 m ρ c b :=
  fun b hb => B10_of_ne m ρ c b fun w e => hb (Finset.mem_image.mpr ⟨w, Finset.mem_univ _, e⟩)
/-- After the host stretch `hostOps4`. -/
abbrev B11 : Dev nD → Valuation τ sig (Elt F) := fun c => StableHlo.after hostOps4 (B10 m ρ c)
theorem B11_of (c : Dev nD) (r : Ref sig .tc) (h : r ∉ hostOps4_W) : B11 m ρ c (Proc.devRef .tc r) = B10 m ρ c (Proc.devRef .tc r) :=
  StableHlo.after_of_writes_sub hostOps4 _ hostOps4_writes h

/-! ## The arguments end as launched: no host operation writes one, and a region only reads one through an input window -/

theorem B11_main_arg0 (c : Dev nD) : B11 m ρ c (Proc.devRef .tc main_arg0) = m ((c : Thread nD τ).loc main_arg0) :=
  calc B11 m ρ c (Proc.devRef .tc main_arg0)
    _ = B10 m ρ c (Proc.devRef .tc main_arg0) := B11_of m ρ c main_arg0 (by decide)
    _ = B9 m ρ c (Proc.devRef .tc main_arg0) := B10_of_ne m ρ c main_arg0 (by decide)
    _ = B8 m ρ c (Proc.devRef .tc main_arg0) := B9_of m ρ c main_arg0 (by decide)
    _ = B7 m ρ c (Proc.devRef .tc main_arg0) := B8_of_ne m ρ c main_arg0 (by decide)
    _ = B6 m ρ c (Proc.devRef .tc main_arg0) := B7_of m ρ c main_arg0 (by decide)
    _ = B5 m ρ c (Proc.devRef .tc main_arg0) := B6_of_ne m ρ c main_arg0 (by decide)
    _ = B4 m ρ c (Proc.devRef .tc main_arg0) := B5_of m ρ c main_arg0 (by decide)
    _ = B3 m ρ c (Proc.devRef .tc main_arg0) := (B4_arr m ρ c 0).trans (((dat0 (E3 m ρ) c).arrAt_in 0 rfl _).trans (A_eq0 (E3 m ρ) c 0))
    _ = B2 m ρ c (Proc.devRef .tc main_arg0) := B3_of m ρ c main_arg0 (by decide)
    _ = B1 m ρ c (Proc.devRef .tc main_arg0) := B2_of m ρ c main_arg0 (by decide)
    _ = B0 m ρ c (Proc.devRef .tc main_arg0) := B1_of m ρ c main_arg0 (by decide)
    _ = m ((c : Thread nD τ).loc main_arg0) := rfl

theorem B11_main_arg1 (c : Dev nD) : B11 m ρ c (Proc.devRef .tc main_arg1) = m ((c : Thread nD τ).loc main_arg1) :=
  calc B11 m ρ c (Proc.devRef .tc main_arg1)
    _ = B10 m ρ c (Proc.devRef .tc main_arg1) := B11_of m ρ c main_arg1 (by decide)
    _ = B9 m ρ c (Proc.devRef .tc main_arg1) := B10_of_ne m ρ c main_arg1 (by decide)
    _ = B8 m ρ c (Proc.devRef .tc main_arg1) := B9_of m ρ c main_arg1 (by decide)
    _ = B7 m ρ c (Proc.devRef .tc main_arg1) := B8_of_ne m ρ c main_arg1 (by decide)
    _ = B6 m ρ c (Proc.devRef .tc main_arg1) := B7_of m ρ c main_arg1 (by decide)
    _ = B5 m ρ c (Proc.devRef .tc main_arg1) := B6_of_ne m ρ c main_arg1 (by decide)
    _ = B4 m ρ c (Proc.devRef .tc main_arg1) := B5_of m ρ c main_arg1 (by decide)
    _ = B3 m ρ c (Proc.devRef .tc main_arg1) := B4_of_ne m ρ c main_arg1 (by decide)
    _ = B2 m ρ c (Proc.devRef .tc main_arg1) := B3_of m ρ c main_arg1 (by decide)
    _ = B1 m ρ c (Proc.devRef .tc main_arg1) := B2_of m ρ c main_arg1 (by decide)
    _ = B0 m ρ c (Proc.devRef .tc main_arg1) := B1_of m ρ c main_arg1 (by decide)
    _ = m ((c : Thread nD τ).loc main_arg1) := rfl

theorem B11_main_arg2 (c : Dev nD) : B11 m ρ c (Proc.devRef .tc main_arg2) = m ((c : Thread nD τ).loc main_arg2) :=
  calc B11 m ρ c (Proc.devRef .tc main_arg2)
    _ = B10 m ρ c (Proc.devRef .tc main_arg2) := B11_of m ρ c main_arg2 (by decide)
    _ = B9 m ρ c (Proc.devRef .tc main_arg2) := B10_of_ne m ρ c main_arg2 (by decide)
    _ = B8 m ρ c (Proc.devRef .tc main_arg2) := B9_of m ρ c main_arg2 (by decide)
    _ = B7 m ρ c (Proc.devRef .tc main_arg2) := B8_of_ne m ρ c main_arg2 (by decide)
    _ = B6 m ρ c (Proc.devRef .tc main_arg2) := B7_of m ρ c main_arg2 (by decide)
    _ = B5 m ρ c (Proc.devRef .tc main_arg2) := B6_of_ne m ρ c main_arg2 (by decide)
    _ = B4 m ρ c (Proc.devRef .tc main_arg2) := B5_of m ρ c main_arg2 (by decide)
    _ = B3 m ρ c (Proc.devRef .tc main_arg2) := (B4_arr m ρ c 1).trans (((dat0 (E3 m ρ) c).arrAt_in 1 rfl _).trans (A_eq0 (E3 m ρ) c 1))
    _ = B2 m ρ c (Proc.devRef .tc main_arg2) := B3_of m ρ c main_arg2 (by decide)
    _ = B1 m ρ c (Proc.devRef .tc main_arg2) := B2_of m ρ c main_arg2 (by decide)
    _ = B0 m ρ c (Proc.devRef .tc main_arg2) := B1_of m ρ c main_arg2 (by decide)
    _ = m ((c : Thread nD τ).loc main_arg2) := rfl

theorem B11_main_arg3 (c : Dev nD) : B11 m ρ c (Proc.devRef .tc main_arg3) = m ((c : Thread nD τ).loc main_arg3) :=
  calc B11 m ρ c (Proc.devRef .tc main_arg3)
    _ = B10 m ρ c (Proc.devRef .tc main_arg3) := B11_of m ρ c main_arg3 (by decide)
    _ = B9 m ρ c (Proc.devRef .tc main_arg3) := B10_of_ne m ρ c main_arg3 (by decide)
    _ = B8 m ρ c (Proc.devRef .tc main_arg3) := B9_of m ρ c main_arg3 (by decide)
    _ = B7 m ρ c (Proc.devRef .tc main_arg3) := B8_of_ne m ρ c main_arg3 (by decide)
    _ = B6 m ρ c (Proc.devRef .tc main_arg3) := B7_of m ρ c main_arg3 (by decide)
    _ = B5 m ρ c (Proc.devRef .tc main_arg3) := B6_of_ne m ρ c main_arg3 (by decide)
    _ = B4 m ρ c (Proc.devRef .tc main_arg3) := B5_of m ρ c main_arg3 (by decide)
    _ = B3 m ρ c (Proc.devRef .tc main_arg3) := B4_of_ne m ρ c main_arg3 (by decide)
    _ = B2 m ρ c (Proc.devRef .tc main_arg3) := B3_of m ρ c main_arg3 (by decide)
    _ = B1 m ρ c (Proc.devRef .tc main_arg3) := B2_of m ρ c main_arg3 (by decide)
    _ = B0 m ρ c (Proc.devRef .tc main_arg3) := B1_of m ρ c main_arg3 (by decide)
    _ = m ((c : Thread nD τ).loc main_arg3) := rfl

theorem B11_main_arg4 (c : Dev nD) : B11 m ρ c (Proc.devRef .tc main_arg4) = m ((c : Thread nD τ).loc main_arg4) :=
  calc B11 m ρ c (Proc.devRef .tc main_arg4)
    _ = B10 m ρ c (Proc.devRef .tc main_arg4) := B11_of m ρ c main_arg4 (by decide)
    _ = B9 m ρ c (Proc.devRef .tc main_arg4) := B10_of_ne m ρ c main_arg4 (by decide)
    _ = B8 m ρ c (Proc.devRef .tc main_arg4) := B9_of m ρ c main_arg4 (by decide)
    _ = B7 m ρ c (Proc.devRef .tc main_arg4) := B8_of_ne m ρ c main_arg4 (by decide)
    _ = B6 m ρ c (Proc.devRef .tc main_arg4) := B7_of m ρ c main_arg4 (by decide)
    _ = B5 m ρ c (Proc.devRef .tc main_arg4) := (B6_arr m ρ c 2).trans (((dat1 (E5 m ρ) c).arrAt_in 2 rfl _).trans (A_eq1 (E5 m ρ) c 2))
    _ = B4 m ρ c (Proc.devRef .tc main_arg4) := B5_of m ρ c main_arg4 (by decide)
    _ = B3 m ρ c (Proc.devRef .tc main_arg4) := B4_of_ne m ρ c main_arg4 (by decide)
    _ = B2 m ρ c (Proc.devRef .tc main_arg4) := B3_of m ρ c main_arg4 (by decide)
    _ = B1 m ρ c (Proc.devRef .tc main_arg4) := B2_of m ρ c main_arg4 (by decide)
    _ = B0 m ρ c (Proc.devRef .tc main_arg4) := B1_of m ρ c main_arg4 (by decide)
    _ = m ((c : Thread nD τ).loc main_arg4) := rfl

theorem B11_main_arg5 (c : Dev nD) : B11 m ρ c (Proc.devRef .tc main_arg5) = m ((c : Thread nD τ).loc main_arg5) :=
  calc B11 m ρ c (Proc.devRef .tc main_arg5)
    _ = B10 m ρ c (Proc.devRef .tc main_arg5) := B11_of m ρ c main_arg5 (by decide)
    _ = B9 m ρ c (Proc.devRef .tc main_arg5) := B10_of_ne m ρ c main_arg5 (by decide)
    _ = B8 m ρ c (Proc.devRef .tc main_arg5) := B9_of m ρ c main_arg5 (by decide)
    _ = B7 m ρ c (Proc.devRef .tc main_arg5) := B8_of_ne m ρ c main_arg5 (by decide)
    _ = B6 m ρ c (Proc.devRef .tc main_arg5) := B7_of m ρ c main_arg5 (by decide)
    _ = B5 m ρ c (Proc.devRef .tc main_arg5) := B6_of_ne m ρ c main_arg5 (by decide)
    _ = B4 m ρ c (Proc.devRef .tc main_arg5) := B5_of m ρ c main_arg5 (by decide)
    _ = B3 m ρ c (Proc.devRef .tc main_arg5) := B4_of_ne m ρ c main_arg5 (by decide)
    _ = B2 m ρ c (Proc.devRef .tc main_arg5) := B3_of m ρ c main_arg5 (by decide)
    _ = B1 m ρ c (Proc.devRef .tc main_arg5) := B2_of m ρ c main_arg5 (by decide)
    _ = B0 m ρ c (Proc.devRef .tc main_arg5) := B1_of m ρ c main_arg5 (by decide)
    _ = m ((c : Thread nD τ).loc main_arg5) := rfl

theorem B11_main_arg6 (c : Dev nD) : B11 m ρ c (Proc.devRef .tc main_arg6) = m ((c : Thread nD τ).loc main_arg6) :=
  calc B11 m ρ c (Proc.devRef .tc main_arg6)
    _ = B10 m ρ c (Proc.devRef .tc main_arg6) := B11_of m ρ c main_arg6 (by decide)
    _ = B9 m ρ c (Proc.devRef .tc main_arg6) := B10_of_ne m ρ c main_arg6 (by decide)
    _ = B8 m ρ c (Proc.devRef .tc main_arg6) := B9_of m ρ c main_arg6 (by decide)
    _ = B7 m ρ c (Proc.devRef .tc main_arg6) := (B8_arr m ρ c 2).trans (((dat2 (E7 m ρ) c).arrAt_in 2 rfl _).trans (A_eq2 (E7 m ρ) c 2))
    _ = B6 m ρ c (Proc.devRef .tc main_arg6) := B7_of m ρ c main_arg6 (by decide)
    _ = B5 m ρ c (Proc.devRef .tc main_arg6) := B6_of_ne m ρ c main_arg6 (by decide)
    _ = B4 m ρ c (Proc.devRef .tc main_arg6) := B5_of m ρ c main_arg6 (by decide)
    _ = B3 m ρ c (Proc.devRef .tc main_arg6) := B4_of_ne m ρ c main_arg6 (by decide)
    _ = B2 m ρ c (Proc.devRef .tc main_arg6) := B3_of m ρ c main_arg6 (by decide)
    _ = B1 m ρ c (Proc.devRef .tc main_arg6) := B2_of m ρ c main_arg6 (by decide)
    _ = B0 m ρ c (Proc.devRef .tc main_arg6) := B1_of m ρ c main_arg6 (by decide)
    _ = m ((c : Thread nD τ).loc main_arg6) := rfl

theorem B11_main_arg7 (c : Dev nD) : B11 m ρ c (Proc.devRef .tc main_arg7) = m ((c : Thread nD τ).loc main_arg7) :=
  calc B11 m ρ c (Proc.devRef .tc main_arg7)
    _ = B10 m ρ c (Proc.devRef .tc main_arg7) := B11_of m ρ c main_arg7 (by decide)
    _ = B9 m ρ c (Proc.devRef .tc main_arg7) := B10_of_ne m ρ c main_arg7 (by decide)
    _ = B8 m ρ c (Proc.devRef .tc main_arg7) := B9_of m ρ c main_arg7 (by decide)
    _ = B7 m ρ c (Proc.devRef .tc main_arg7) := B8_of_ne m ρ c main_arg7 (by decide)
    _ = B6 m ρ c (Proc.devRef .tc main_arg7) := B7_of m ρ c main_arg7 (by decide)
    _ = B5 m ρ c (Proc.devRef .tc main_arg7) := B6_of_ne m ρ c main_arg7 (by decide)
    _ = B4 m ρ c (Proc.devRef .tc main_arg7) := B5_of m ρ c main_arg7 (by decide)
    _ = B3 m ρ c (Proc.devRef .tc main_arg7) := B4_of_ne m ρ c main_arg7 (by decide)
    _ = B2 m ρ c (Proc.devRef .tc main_arg7) := B3_of m ρ c main_arg7 (by decide)
    _ = B1 m ρ c (Proc.devRef .tc main_arg7) := B2_of m ρ c main_arg7 (by decide)
    _ = B0 m ρ c (Proc.devRef .tc main_arg7) := B1_of m ρ c main_arg7 (by decide)
    _ = m ((c : Thread nD τ).loc main_arg7) := rfl

/-! ## The proof data family and the thread state -/

abbrev admH : (p : Fin 4) → (pcfgs (F := F) p).Adm := fun p => (cfgs p).toPCfg_adm
/-- Every pipeline's proof data, each at its region's entry contents. -/
def pdatsH : (p : Fin 4) → (c : Dev nD) → Dat τ (Elt F) Unit ℕ (UR sig nD τ) ℕ (Pipeline.pin (pcfgs (F := F)) admH p) c
  | ⟨0, _⟩ => fun c => dat0 (E3 m ρ) c
  | ⟨1, _⟩ => fun c => dat1 (E5 m ρ) c
  | ⟨2, _⟩ => fun c => dat2 (E7 m ρ) c
  | ⟨3, _⟩ => fun c => dat3 (E9 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (B11 m ρ c) ∗ ∃ r, prngReg c r)

/-! ## The regions as segments -/

set_option backward.isDefEq.respectTransparency.types false in
/-- Region 0 over the thread state: entered with every unscoped buffer at `B3`, left with them at `B4`; its arrays
    are split out of the unscoped buffers at entry and put back at the exit contents; the generator register goes into
    the region invariant and comes back; nothing is owed. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E3 m ρ) c).loose
  hwaits := Pipeline.hwaits_of_owed_zero _ _ _ _ LH lvH 0 fun _ _ => rfl
  pre c := iprop(StableHlo.held (c : Thread nD τ) (Pipeline.ucRefs τ sig) (B3 m ρ c) ∗ RH c)
  post c := iprop(StableHlo.held (c : Thread nD τ) (Pipeline.ucRefs τ sig) (B4 m ρ c) ∗ RH c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (E3 m ρ c) (X4 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B5`, left with them at `B6`; its arrays
    are split out of the unscoped buffers at entry and put back at the exit contents; the generator register goes into
    the region invariant and comes back; nothing is owed. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E5 m ρ) c).loose
  hwaits := Pipeline.hwaits_of_owed_zero _ _ _ _ LH lvH 1 fun _ _ => rfl
  pre c := iprop(StableHlo.held (c : Thread nD τ) (Pipeline.ucRefs τ sig) (B5 m ρ c) ∗ RH c)
  post c := iprop(StableHlo.held (c : Thread nD τ) (Pipeline.ucRefs τ sig) (B6 m ρ c) ∗ RH c)
  X c := iprop(∃ r, prngReg c r)
  Y c := iprop(∃ r, prngReg c r)
  Z c := Pipeline.unscopedRest (Ix := Unit) (Name := ℕ) (U := UR sig nD τ) (Lvl := ℕ) spec1 c (E5 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (E5 m ρ c) (X6 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B7`, left with them at `B8`; its arrays
    are split out of the unscoped buffers at entry and put back at the exit contents; the generator register goes into
    the region invariant and comes back; nothing is owed. -/
def regH2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E7 m ρ) c).loose
  hwaits := Pipeline.hwaits_of_owed_zero _ _ _ _ LH lvH 2 fun _ _ => rfl
  pre c := iprop(StableHlo.held (c : Thread nD τ) (Pipeline.ucRefs τ sig) (B7 m ρ c) ∗ RH c)
  post c := iprop(StableHlo.held (c : Thread nD τ) (Pipeline.ucRefs τ sig) (B8 m ρ c) ∗ RH c)
  X c := iprop(∃ r, prngReg c r)
  Y c := iprop(∃ r, prngReg c r)
  Z c := Pipeline.unscopedRest (Ix := Unit) (Name := ℕ) (U := UR sig nD τ) (Lvl := ℕ) spec2 c (E7 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (E7 m ρ c) (X8 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `B9`, left with them at `B10`; its arrays
    are split out of the unscoped buffers at entry and put back at the exit contents; the generator register goes into
    the region invariant and comes back; nothing is owed. -/
def regH3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (E9 m ρ) c).loose
  hwaits := Pipeline.hwaits_of_owed_zero _ _ _ _ LH lvH 3 fun _ _ => rfl
  pre c := iprop(StableHlo.held (c : Thread nD τ) (Pipeline.ucRefs τ sig) (B9 m ρ c) ∗ RH c)
  post c := iprop(StableHlo.held (c : Thread nD τ) (Pipeline.ucRefs τ sig) (B10 m ρ c) ∗ RH c)
  X c := iprop(∃ r, prngReg c r)
  Y c := iprop(∃ r, prngReg c r)
  Z c := Pipeline.unscopedRest (Ix := Unit) (Name := ℕ) (U := UR sig nD τ) (Lvl := ℕ) spec3 c (E9 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E9 m ρ) c)
    unfold Pipeline.ΦA
    iintro ⟨Hp, -, Hr⟩
    isplitl [Hr]; · iexact Hr
    iexact Hp
  hout c := by
    refine BIBase.Entails.trans (hout3 (E9 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (E9 m ρ c) (X10 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub hostOps0_fresh (B0 m ρ)),
    .host (hsegH hostOps0_1 hostOps0_1_sub hostOps0_1_fresh (B1 m ρ)),
    .host (hsegH hostOps0_2 hostOps0_2_sub hostOps0_2_fresh (B2 m ρ)),
    .region (regH0 m ρ),
    .host (hsegH hostOps1 hostOps1_sub hostOps1_fresh (B4 m ρ)),
    .region (regH1 m ρ),
    .host (hsegH hostOps2 hostOps2_sub hostOps2_fresh (B6 m ρ)),
    .region (regH2 m ρ),
    .host (hsegH hostOps3 hostOps3_sub hostOps3_fresh (B8 m ρ)),
    .region (regH3 m ρ),
    .host (hsegH hostOps4 hostOps4_sub hostOps4_fresh (B10 m ρ)) ]

/-- @main is the run of the segments. -/
theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting, and
    every unscoped TensorCore buffer ends at the last boundary's contents `B11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B11 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TnH m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B11 m ρ c) ∗ RH c) ⊢ iprop(TnH m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m ρ c b)
    (hfin := fun c s' => by
      iintro ⟨⟨Hh, -⟩, HSI⟩
      unfold StableHlo.held
      imodintro
      iapply (pointsTo_read_all (Pipeline.ucRefs τ sig) (fun b => (((c : Thread nD τ)).1, b)) (B11 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (B11_main_arg0 m ρ c),
     (h c _ (mem_uc main_arg1 (by decide))).trans (B11_main_arg1 m ρ c),
     (h c _ (mem_uc main_arg2 (by decide))).trans (B11_main_arg2 m ρ c),
     (h c _ (mem_uc main_arg3 (by decide))).trans (B11_main_arg3 m ρ c),
     (h c _ (mem_uc main_arg4 (by decide))).trans (B11_main_arg4 m ρ c),
     (h c _ (mem_uc main_arg5 (by decide))).trans (B11_main_arg5 m ρ c),
     (h c _ (mem_uc main_arg6 (by decide))).trans (B11_main_arg6 m ρ c),
     (h c _ (mem_uc main_arg7 (by decide))).trans (B11_main_arg7 m ρ c)⟩) (run_all m ρ)

end Cert.KernelIdeal.Hand

end
-- ==== Proof.RefRun.lean ====
/-
  The run of the reference program's @main, read as ONE straight line of its operations.

  The printed @main is two windows run in order (`main_part0`, `main_part1`) and calls three module-local
  functions: `@_where` (the scalar operand converted to its own type, broadcast, the select), `@leaky_relu` and
  `@leaky_relu_1` (the scalar zero and its broadcast, the comparison `x ≥ 0`, the slope converted and broadcast,
  the product `slope * x`, and the select of `@_where_0` / `@_where_2`). A call means its callee's body on the
  operands, each value of the body in the buffer the call's record names. So @main is the list `ops` below:
  its own statements in program order, with the three bodies (3, 7 and 7 operations) written out at their call
  sites over the records `main_call0`, `main_call1`, `main_call2` — 121 operations.

  `main_eq`: both sides are one chain of `hlo` steps once the windows and the functions' definitions are
  unfolded and the sequencing is re-associated. `ops_sub`: every operation touches TensorCore references only.
  `run_main`: hence every weakly fair execution terminates and each TensorCore buffer ends at the fold of the
  operations' results over the launch contents (`StableHlo.after ops`). No operation writes an argument buffer, so
  the fold at an argument is the launch contents there (`arg0_eq` … `arg7_eq`), which is the frame (`frame`).
  Everything is stated for any float values `F`.
-/
import proofs.«165814_j17411797418191_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of shape `S` and element type `e` at the float values `F`. -/
local notation:max "𝒞[" S ", " e "]" => BufTy.Contents (Elt F) (BufTy.mk S e)

/-- @main's 121 operations in program order: its own statements, and at each of its three calls the callee's body
    over that call's record of buffers. -/
abbrev ops : List (HloOp τ sig (Elt F)) :=
  [
    -- %0 … %6: the two rows of %arg1, each flattened and followed by the iota
    StableHlo.nullary main_v0 (iotaInDim S100000 32 0),
    StableHlo.unary main_arg1 main_v1 ((extractStridedSlice S1x3200000 ![0, 0] · slices_S2x3200000_S1x3200000_0_0) : 𝒞[S2x3200000, .i32] → 𝒞[S1x3200000, .i32]),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : 𝒞[S3200000, .i32] → 𝒞[S100000, .i32] → 𝒞[S3300000, .i32]),
    StableHlo.unary main_arg1 main_v4 ((extractStridedSlice S1x3200000 ![1, 0] · slices_S2x3200000_S1x3200000_1_0) : 𝒞[S2x3200000, .i32] → 𝒞[S1x3200000, .i32]),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : 𝒞[S3200000, .i32] → 𝒞[S100000, .i32] → 𝒞[S3300000, .i32]),
    -- %cst … %13: ones scattered and added at %6, compared with zero, and its reciprocal square root
    StableHlo.nullary main_cst (constant S_ .f32 0x3F800000#32),
    StableHlo.unary main_cst main_v7 (broadcastInDim S3300000 ![] bcast_S_S3300000 : 𝒞[S_, .f32] → 𝒞[S3300000, .f32]),
    StableHlo.nullary main_cst_0 (constant S_ .f32 0x00000000#32),
    StableHlo.unary main_cst_0 main_v8 (broadcastInDim S100000 ![] bcast_S_S100000 : 𝒞[S_, .f32] → 𝒞[S100000, .f32]),
    StableHlo.unary main_v6 main_v9 (broadcastInDim S3300000x1 ![0] bcast_S3300000_S3300000x1_0 : 𝒞[S3300000, .i32] → 𝒞[S3300000x1, .i32]),
    StableHlo.ternary main_v8 main_v9 main_v7 main_v10 ((fun x i u => Host.scatterAdd scatter_S100000_S3300000x1_S3300000_n_0_0_1 x i u) : 𝒞[S100000, .f32] → 𝒞[S3300000x1, .i32] → 𝒞[S3300000, .f32] → 𝒞[S100000, .f32]),
    StableHlo.nullary main_cst_1 (constant S_ .f32 0x00000000#32),
    StableHlo.unary main_cst_1 main_v11 (broadcastInDim S100000 ![] bcast_S_S100000 : 𝒞[S_, .f32] → 𝒞[S100000, .f32]),
    StableHlo.binary main_v10 main_v11 main_v12 (cmpf .ogt : 𝒞[S100000, .f32] → 𝒞[S100000, .f32] → 𝒞[S100000, .i1]),
    StableHlo.unary main_v10 main_v13 (Host.rsqrt : 𝒞[S100000, .f32] → 𝒞[S100000, .f32]),
    StableHlo.nullary main_cst_2 (constant S_ .f32 0x00000000#32),
    -- %14 = @_where(%12, %13, %cst_2): its body over main_call0
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select,
    -- %c … %21: %14 gathered at %3 (a negative index moved up by the row count)
    StableHlo.nullary main_c (constantI S_ 32 0#32),
    StableHlo.unary main_c main_v15 (broadcastInDim S3300000 ![] bcast_S_S3300000 : 𝒞[S_, .i32] → 𝒞[S3300000, .i32]),
    StableHlo.binary main_v3 main_v15 main_v16 (cmpi .slt : 𝒞[S3300000, .i32] → 𝒞[S3300000, .i32] → 𝒞[S3300000, .i1]),
    StableHlo.nullary main_c_3 (constantI S_ 32 100000#32),
    StableHlo.unary main_c_3 main_v17 (broadcastInDim S3300000 ![] bcast_S_S3300000 : 𝒞[S_, .i32] → 𝒞[S3300000, .i32]),
    StableHlo.binary main_v3 main_v17 main_v18 (addi : 𝒞[S3300000, .i32] → 𝒞[S3300000, .i32] → 𝒞[S3300000, .i32]),
    StableHlo.ternary main_v16 main_v18 main_v3 main_v19 (select : 𝒞[S3300000, .i1] → 𝒞[S3300000, .i32] → 𝒞[S3300000, .i32] → 𝒞[S3300000, .i32]),
    StableHlo.unary main_v19 main_v20 (broadcastInDim S3300000x1 ![0] bcast_S3300000_S3300000x1_0 : 𝒞[S3300000, .i32] → 𝒞[S3300000x1, .i32]),
    StableHlo.binary main_v14 main_v20 main_v21 ((fun x i => Host.gather gather_S100000_S3300000x1_S3300000_n_0_n_n_0_1_1 x i) : 𝒞[S100000, .f32] → 𝒞[S3300000x1, .i32] → 𝒞[S3300000, .f32]),
    -- %c_4 … %29: %14 gathered at %6, and the product of the two gathers
    StableHlo.nullary main_c_4 (constantI S_ 32 0#32),
    StableHlo.unary main_c_4 main_v22 (broadcastInDim S3300000 ![] bcast_S_S3300000 : 𝒞[S_, .i32] → 𝒞[S3300000, .i32]),
    StableHlo.binary main_v6 main_v22 main_v23 (cmpi .slt : 𝒞[S3300000, .i32] → 𝒞[S3300000, .i32] → 𝒞[S3300000, .i1]),
    StableHlo.nullary main_c_5 (constantI S_ 32 100000#32),
    StableHlo.unary main_c_5 main_v24 (broadcastInDim S3300000 ![] bcast_S_S3300000 : 𝒞[S_, .i32] → 𝒞[S3300000, .i32]),
    StableHlo.binary main_v6 main_v24 main_v25 (addi : 𝒞[S3300000, .i32] → 𝒞[S3300000, .i32] → 𝒞[S3300000, .i32]),
    StableHlo.ternary main_v23 main_v25 main_v6 main_v26 (select : 𝒞[S3300000, .i1] → 𝒞[S3300000, .i32] → 𝒞[S3300000, .i32] → 𝒞[S3300000, .i32]),
    StableHlo.unary main_v26 main_v27 (broadcastInDim S3300000x1 ![0] bcast_S3300000_S3300000x1_0 : 𝒞[S3300000, .i32] → 𝒞[S3300000x1, .i32]),
    StableHlo.binary main_v14 main_v27 main_v28 ((fun x i => Host.gather gather_S100000_S3300000x1_S3300000_n_0_n_n_0_1_1 x i) : 𝒞[S100000, .f32] → 𝒞[S3300000x1, .i32] → 𝒞[S3300000, .f32]),
    StableHlo.binary main_v21 main_v28 main_v29 (mulf : 𝒞[S3300000, .f32] → 𝒞[S3300000, .f32] → 𝒞[S3300000, .f32]),
    -- %30 … %46: %arg0 times %arg2, gathered at %3, scaled by %29, scattered and added at %6, plus %arg3
    StableHlo.binary main_arg0 main_arg2 main_v30 ((fun l r => Host.dotGeneral dot_S100000x1_S1x64_S100000x64_1_0_0_1_n_n none l r) : 𝒞[S100000x1, .f32] → 𝒞[S1x64, .f32] → 𝒞[S100000x64, .f32]),
    StableHlo.nullary main_c_6 (constantI S_ 32 0#32),
    StableHlo.unary main_c_6 main_v31 (broadcastInDim S3300000 ![] bcast_S_S3300000 : 𝒞[S_, .i32] → 𝒞[S3300000, .i32]),
    StableHlo.binary main_v3 main_v31 main_v32 (cmpi .slt : 𝒞[S3300000, .i32] → 𝒞[S3300000, .i32] → 𝒞[S3300000, .i1]),
    StableHlo.nullary main_c_7 (constantI S_ 32 100000#32),
    StableHlo.unary main_c_7 main_v33 (broadcastInDim S3300000 ![] bcast_S_S3300000 : 𝒞[S_, .i32] → 𝒞[S3300000, .i32]),
    StableHlo.binary main_v3 main_v33 main_v34 (addi : 𝒞[S3300000, .i32] → 𝒞[S3300000, .i32] → 𝒞[S3300000, .i32]),
    StableHlo.ternary main_v32 main_v34 main_v3 main_v35 (select : 𝒞[S3300000, .i1] → 𝒞[S3300000, .i32] → 𝒞[S3300000, .i32] → 𝒞[S3300000, .i32]),
    StableHlo.unary main_v35 main_v36 (broadcastInDim S3300000x1 ![0] bcast_S3300000_S3300000x1_0 : 𝒞[S3300000, .i32] → 𝒞[S3300000x1, .i32]),
    StableHlo.binary main_v30 main_v36 main_v37 ((fun x i => Host.gather gather_S100000x64_S3300000x1_S3300000x64_1_0_n_n_0_1_164 x i) : 𝒞[S100000x64, .f32] → 𝒞[S3300000x1, .i32] → 𝒞[S3300000x64, .f32]),
    StableHlo.unary main_v29 main_v38 (broadcastInDim S3300000x1 ![0] bcast_S3300000_S3300000x1_0 : 𝒞[S3300000, .f32] → 𝒞[S3300000x1, .f32]),
    StableHlo.unary main_v38 main_v39 (broadcastInDim S3300000x64 ![0, 1] bcast_S3300000x1_S3300000x64_0_1 : 𝒞[S3300000x1, .f32] → 𝒞[S3300000x64, .f32]),
    StableHlo.binary main_v37 main_v39 main_v40 (mulf : 𝒞[S3300000x64, .f32] → 𝒞[S3300000x64, .f32] → 𝒞[S3300000x64, .f32]),
    StableHlo.nullary main_cst_8 (constant S_ .f32 0x00000000#32),
    StableHlo.unary main_cst_8 main_v41 (broadcastInDim S100000x64 ![] bcast_S_S100000x64 : 𝒞[S_, .f32] → 𝒞[S100000x64, .f32]),
    StableHlo.unary main_v6 main_v42 (broadcastInDim S3300000x1 ![0] bcast_S3300000_S3300000x1_0 : 𝒞[S3300000, .i32] → 𝒞[S3300000x1, .i32]),
    StableHlo.ternary main_v41 main_v42 main_v40 main_v43 ((fun x i u => Host.scatterAdd scatter_S100000x64_S3300000x1_S3300000x64_1_0_0_1 x i u) : 𝒞[S100000x64, .f32] → 𝒞[S3300000x1, .i32] → 𝒞[S3300000x64, .f32] → 𝒞[S100000x64, .f32]),
    StableHlo.unary main_arg3 main_v44 (broadcastInDim S1x64 ![1] bcast_S64_S1x64_1 : 𝒞[S64, .f32] → 𝒞[S1x64, .f32]),
    StableHlo.unary main_v44 main_v45 (broadcastInDim S100000x64 ![0, 1] bcast_S1x64_S100000x64_0_1 : 𝒞[S1x64, .f32] → 𝒞[S100000x64, .f32]),
    StableHlo.binary main_v43 main_v45 main_v46 (addf : 𝒞[S100000x64, .f32] → 𝒞[S100000x64, .f32] → 𝒞[S100000x64, .f32]),
    StableHlo.nullary main_cst_9 (constant S_ .f32 0x3DCCCCCD#32),
    -- %47 = @leaky_relu(%46, %cst_9): its body over main_call1 (the select is @_where_0's, over main_call1.call0)
    StableHlo.TRef.nullary main_call1.cst (constant S_ .f32 0x00000000#32),
    StableHlo.TRef.unary main_call1.cst main_call1.v0 (broadcastInDim S100000x64 ![] bcast_S_S100000x64),
    StableHlo.TRef.binary (.of main_v46 : StableHlo.TRef sig ⟨S100000x64, .f32⟩) main_call1.v0 main_call1.v1 (cmpf .oge),
    StableHlo.TRef.unary (.of main_cst_9 : StableHlo.TRef sig ⟨S_, .f32⟩) main_call1.v2 id,
    StableHlo.TRef.unary main_call1.v2 main_call1.v3 (broadcastInDim S100000x64 ![] bcast_S_S100000x64),
    StableHlo.TRef.binary main_call1.v3 (.of main_v46 : StableHlo.TRef sig ⟨S100000x64, .f32⟩) main_call1.v4 mulf,
    StableHlo.TRef.ternary main_call1.v1 (.of main_v46 : StableHlo.TRef sig ⟨S100000x64, .f32⟩) main_call1.v4 main_call1.call0.v0 select,
    -- %48 … %64: %47 times %arg4, gathered at %3, scaled by %29, scattered and added at %6, plus %arg5
    StableHlo.binary main_v47 main_arg4 main_v48 ((fun l r => Host.dotGeneral dot_S100000x64_S64x32_S100000x32_1_0_0_1_n_n none l r) : 𝒞[S100000x64, .f32] → 𝒞[S64x32, .f32] → 𝒞[S100000x32, .f32]),
    StableHlo.nullary main_c_10 (constantI S_ 32 0#32),
    StableHlo.unary main_c_10 main_v49 (broadcastInDim S3300000 ![] bcast_S_S3300000 : 𝒞[S_, .i32] → 𝒞[S3300000, .i32]),
    StableHlo.binary main_v3 main_v49 main_v50 (cmpi .slt : 𝒞[S3300000, .i32] → 𝒞[S3300000, .i32] → 𝒞[S3300000, .i1]),
    StableHlo.nullary main_c_11 (constantI S_ 32 100000#32),
    StableHlo.unary main_c_11 main_v51 (broadcastInDim S3300000 ![] bcast_S_S3300000 : 𝒞[S_, .i32] → 𝒞[S3300000, .i32]),
    StableHlo.binary main_v3 main_v51 main_v52 (addi : 𝒞[S3300000, .i32] → 𝒞[S3300000, .i32] → 𝒞[S3300000, .i32]),
    StableHlo.ternary main_v50 main_v52 main_v3 main_v53 (select : 𝒞[S3300000, .i1] → 𝒞[S3300000, .i32] → 𝒞[S3300000, .i32] → 𝒞[S3300000, .i32]),
    StableHlo.unary main_v53 main_v54 (broadcastInDim S3300000x1 ![0] bcast_S3300000_S3300000x1_0 : 𝒞[S3300000, .i32] → 𝒞[S3300000x1, .i32]),
    StableHlo.binary main_v48 main_v54 main_v55 ((fun x i => Host.gather gather_S100000x32_S3300000x1_S3300000x32_1_0_n_n_0_1_132 x i) : 𝒞[S100000x32, .f32] → 𝒞[S3300000x1, .i32] → 𝒞[S3300000x32, .f32]),
    StableHlo.unary main_v29 main_v56 (broadcastInDim S3300000x1 ![0] bcast_S3300000_S3300000x1_0 : 𝒞[S3300000, .f32] → 𝒞[S3300000x1, .f32]),
    StableHlo.unary main_v56 main_v57 (broadcastInDim S3300000x32 ![0, 1] bcast_S3300000x1_S3300000x32_0_1 : 𝒞[S3300000x1, .f32] → 𝒞[S3300000x32, .f32]),
    StableHlo.binary main_v55 main_v57 main_v58 (mulf : 𝒞[S3300000x32, .f32] → 𝒞[S3300000x32, .f32] → 𝒞[S3300000x32, .f32]),
    StableHlo.nullary main_cst_12 (constant S_ .f32 0x00000000#32),
    StableHlo.unary main_cst_12 main_v59 (broadcastInDim S100000x32 ![] bcast_S_S100000x32 : 𝒞[S_, .f32] → 𝒞[S100000x32, .f32]),
    StableHlo.unary main_v6 main_v60 (broadcastInDim S3300000x1 ![0] bcast_S3300000_S3300000x1_0 : 𝒞[S3300000, .i32] → 𝒞[S3300000x1, .i32]),
    StableHlo.ternary main_v59 main_v60 main_v58 main_v61 ((fun x i u => Host.scatterAdd scatter_S100000x32_S3300000x1_S3300000x32_1_0_0_1 x i u) : 𝒞[S100000x32, .f32] → 𝒞[S3300000x1, .i32] → 𝒞[S3300000x32, .f32] → 𝒞[S100000x32, .f32]),
    StableHlo.unary main_arg5 main_v62 (broadcastInDim S1x32 ![1] bcast_S32_S1x32_1 : 𝒞[S32, .f32] → 𝒞[S1x32, .f32]),
    StableHlo.unary main_v62 main_v63 (broadcastInDim S100000x32 ![0, 1] bcast_S1x32_S100000x32_0_1 : 𝒞[S1x32, .f32] → 𝒞[S100000x32, .f32]),
    StableHlo.binary main_v61 main_v63 main_v64 (addf : 𝒞[S100000x32, .f32] → 𝒞[S100000x32, .f32] → 𝒞[S100000x32, .f32]),
    StableHlo.nullary main_cst_13 (constant S_ .f32 0x3DCCCCCD#32),
    -- %65 = @leaky_relu_1(%64, %cst_13): its body over main_call2 (the select is @_where_2's, over main_call2.call0)
    StableHlo.TRef.nullary main_call2.cst (constant S_ .f32 0x00000000#32),
    StableHlo.TRef.unary main_call2.cst main_call2.v0 (broadcastInDim S100000x32 ![] bcast_S_S100000x32),
    StableHlo.TRef.binary (.of main_v64 : StableHlo.TRef sig ⟨S100000x32, .f32⟩) main_call2.v0 main_call2.v1 (cmpf .oge),
    StableHlo.TRef.unary (.of main_cst_13 : StableHlo.TRef sig ⟨S_, .f32⟩) main_call2.v2 id,
    StableHlo.TRef.unary main_call2.v2 main_call2.v3 (broadcastInDim S100000x32 ![] bcast_S_S100000x32),
    StableHlo.TRef.binary main_call2.v3 (.of main_v64 : StableHlo.TRef sig ⟨S100000x32, .f32⟩) main_call2.v4 mulf,
    StableHlo.TRef.ternary main_call2.v1 (.of main_v64 : StableHlo.TRef sig ⟨S100000x32, .f32⟩) main_call2.v4 main_call2.call0.v0 select,
    -- %66 … %82: %65 times %arg6, gathered at %3, scaled by %29, scattered and added at %6, plus %arg7
    StableHlo.binary main_v65 main_arg6 main_v66 ((fun l r => Host.dotGeneral dot_S100000x32_S32x10_S100000x10_1_0_0_1_n_n none l r) : 𝒞[S100000x32, .f32] → 𝒞[S32x10, .f32] → 𝒞[S100000x10, .f32]),
    StableHlo.nullary main_c_14 (constantI S_ 32 0#32),
    StableHlo.unary main_c_14 main_v67 (broadcastInDim S3300000 ![] bcast_S_S3300000 : 𝒞[S_, .i32] → 𝒞[S3300000, .i32]),
    StableHlo.binary main_v3 main_v67 main_v68 (cmpi .slt : 𝒞[S3300000, .i32] → 𝒞[S3300000, .i32] → 𝒞[S3300000, .i1]),
    StableHlo.nullary main_c_15 (constantI S_ 32 100000#32),
    StableHlo.unary main_c_15 main_v69 (broadcastInDim S3300000 ![] bcast_S_S3300000 : 𝒞[S_, .i32] → 𝒞[S3300000, .i32]),
    StableHlo.binary main_v3 main_v69 main_v70 (addi : 𝒞[S3300000, .i32] → 𝒞[S3300000, .i32] → 𝒞[S3300000, .i32]),
    StableHlo.ternary main_v68 main_v70 main_v3 main_v71 (select : 𝒞[S3300000, .i1] → 𝒞[S3300000, .i32] → 𝒞[S3300000, .i32] → 𝒞[S3300000, .i32]),
    StableHlo.unary main_v71 main_v72 (broadcastInDim S3300000x1 ![0] bcast_S3300000_S3300000x1_0 : 𝒞[S3300000, .i32] → 𝒞[S3300000x1, .i32]),
    StableHlo.binary main_v66 main_v72 main_v73 ((fun x i => Host.gather gather_S100000x10_S3300000x1_S3300000x10_1_0_n_n_0_1_110 x i) : 𝒞[S100000x10, .f32] → 𝒞[S3300000x1, .i32] → 𝒞[S3300000x10, .f32]),
    StableHlo.unary main_v29 main_v74 (broadcastInDim S3300000x1 ![0] bcast_S3300000_S3300000x1_0 : 𝒞[S3300000, .f32] → 𝒞[S3300000x1, .f32]),
    StableHlo.unary main_v74 main_v75 (broadcastInDim S3300000x10 ![0, 1] bcast_S3300000x1_S3300000x10_0_1 : 𝒞[S3300000x1, .f32] → 𝒞[S3300000x10, .f32]),
    StableHlo.binary main_v73 main_v75 main_v76 (mulf : 𝒞[S3300000x10, .f32] → 𝒞[S3300000x10, .f32] → 𝒞[S3300000x10, .f32]),
    StableHlo.nullary main_cst_16 (constant S_ .f32 0x00000000#32),
    StableHlo.unary main_cst_16 main_v77 (broadcastInDim S100000x10 ![] bcast_S_S100000x10 : 𝒞[S_, .f32] → 𝒞[S100000x10, .f32]),
    StableHlo.unary main_v6 main_v78 (broadcastInDim S3300000x1 ![0] bcast_S3300000_S3300000x1_0 : 𝒞[S3300000, .i32] → 𝒞[S3300000x1, .i32]),
    StableHlo.ternary main_v77 main_v78 main_v76 main_v79 ((fun x i u => Host.scatterAdd scatter_S100000x10_S3300000x1_S3300000x10_1_0_0_1 x i u) : 𝒞[S100000x10, .f32] → 𝒞[S3300000x1, .i32] → 𝒞[S3300000x10, .f32] → 𝒞[S100000x10, .f32]),
    StableHlo.unary main_arg7 main_v80 (broadcastInDim S1x10 ![1] bcast_S10_S1x10_1 : 𝒞[S10, .f32] → 𝒞[S1x10, .f32]),
    StableHlo.unary main_v80 main_v81 (broadcastInDim S100000x10 ![0, 1] bcast_S1x10_S100000x10_0_1 : 𝒞[S1x10, .f32] → 𝒞[S100000x10, .f32]),
    StableHlo.binary main_v79 main_v81 main_v82 (addf : 𝒞[S100000x10, .f32] → 𝒞[S100000x10, .f32] → 𝒞[S100000x10, .f32]),
    -- %cst_17 … %85: the sum over the rows, divided by the row count
    StableHlo.nullary main_cst_17 (constant S_ .f32 0x00000000#32),
    StableHlo.binary main_v82 main_cst_17 main_v83 ((fun x v => Host.reduceAdd x v reducesTo_S100000x10_S10_d0 h_S_) : 𝒞[S100000x10, .f32] → 𝒞[S_, .f32] → 𝒞[S10, .f32]),
    StableHlo.nullary main_cst_18 (constant S_ .f32 0x47C35000#32),
    StableHlo.unary main_cst_18 main_v84 (broadcastInDim S10 ![] bcast_S_S10 : 𝒞[S_, .f32] → 𝒞[S10, .f32]),
    StableHlo.binary main_v83 main_v84 main_v85 (Host.divf : 𝒞[S10, .f32] → 𝒞[S10, .f32] → 𝒞[S10, .f32]) ]

-- 121 binds re-associated: the rewrite under the chain recurses once per statement
set_option maxRecDepth 16384 in
set_option maxHeartbeats 4000000 in
/-- @main is that straight line: the two windows and the functions' definitions unfolded at their calls, both sides
    are one chain of `hlo` steps once sequencing is re-associated (`bind_assoc`, `pure_bind`). -/
theorem main_eq (c : Dev nD) : main (F := F) c = StableHlo.seq ops := by
  simp only [main, main_part0, main_part1, fn_where.body, fn_where_0.body, fn_leaky_relu.body, fn_where_2.body,
    fn_leaky_relu_1.body, seq, bind_assoc, pure_bind]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore references only: each builder's own fact, in the list's order. -/
theorem ops_sub : (ops : List (HloOp τ sig (Elt F))).Forall fun op => op.bufs ⊆ StableHlo.tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    -- @_where
    unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub ..,
    -- @leaky_relu
    nullary_bufs_sub .., unary_bufs_sub .., binary_bufs_sub .., unary_bufs_sub .., unary_bufs_sub .., binary_bufs_sub ..,
    ternary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub ..,
    -- @leaky_relu_1
    nullary_bufs_sub .., unary_bufs_sub .., binary_bufs_sub .., unary_bufs_sub .., unary_bufs_sub .., binary_bufs_sub ..,
    ternary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..,
    nullary_bufs_sub .., binary_bufs_sub .., nullary_bufs_sub .., unary_bufs_sub .., binary_bufs_sub ..⟩

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ

/-! No operation writes an argument buffer: the fold there is what was there, one `*_result_ne` step per operation
    (the references' inequalities by computation). -/

set_option maxRecDepth 16384 in
theorem arg0_eq (V : Valuation τ sig (Elt F)) :
    StableHlo.after ops V (main_arg0 : DevRef τ sig) = V (main_arg0 : DevRef τ sig) := by
  after_results_simp

set_option maxRecDepth 16384 in
theorem arg1_eq (V : Valuation τ sig (Elt F)) :
    StableHlo.after ops V (main_arg1 : DevRef τ sig) = V (main_arg1 : DevRef τ sig) := by
  after_results_simp

set_option maxRecDepth 16384 in
theorem arg2_eq (V : Valuation τ sig (Elt F)) :
    StableHlo.after ops V (main_arg2 : DevRef τ sig) = V (main_arg2 : DevRef τ sig) := by
  after_results_simp

set_option maxRecDepth 16384 in
theorem arg3_eq (V : Valuation τ sig (Elt F)) :
    StableHlo.after ops V (main_arg3 : DevRef τ sig) = V (main_arg3 : DevRef τ sig) := by
  after_results_simp

set_option maxRecDepth 16384 in
theorem arg4_eq (V : Valuation τ sig (Elt F)) :
    StableHlo.after ops V (main_arg4 : DevRef τ sig) = V (main_arg4 : DevRef τ sig) := by
  after_results_simp

set_option maxRecDepth 16384 in
theorem arg5_eq (V : Valuation τ sig (Elt F)) :
    StableHlo.after ops V (main_arg5 : DevRef τ sig) = V (main_arg5 : DevRef τ sig) := by
  after_results_simp

set_option maxRecDepth 16384 in
theorem arg6_eq (V : Valuation τ sig (Elt F)) :
    StableHlo.after ops V (main_arg6 : DevRef τ sig) = V (main_arg6 : DevRef τ sig) := by
  after_results_simp

set_option maxRecDepth 16384 in
theorem arg7_eq (V : Valuation τ sig (Elt F)) :
    StableHlo.after ops V (main_arg7 : DevRef τ sig) = V (main_arg7 : DevRef τ sig) := by
  after_results_simp

/-- The frame: for any float values, from any memory with zero counters, every weakly fair execution of @main on the
    TensorCores terminates and the eight argument arrays end as they were at launch — each is the fold at a buffer
    no operation writes. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_arg0).trans (arg0_eq _), (h c main_arg1).trans (arg1_eq _), (h c main_arg2).trans (arg2_eq _),
        (h c main_arg3).trans (arg3_eq _), (h c main_arg4).trans (arg4_eq _), (h c main_arg5).trans (arg5_eq _),
        (h c main_arg6).trans (arg6_eq _), (h c main_arg7).trans (arg7_eq _)⟩)
    (run_main m ρ)

end Cert.ReferenceIdeal.RefRun

end
-- ==== Proof.Spec.lean ====
/-
  The reference network's layers as pure functions of whole arrays, spelled with the reference program's own
  host operations: a layer is "add the bias row to every node's aggregated features, apply the leaky rectifier
  with slope 1/10, multiply by the weight matrix"; the last layer adds the bias and averages over the nodes.
-/
import proofs.«165814_j17411797418191_1_alg».proof.Proof.Gen.ReferenceIdeal

noncomputable section

namespace Cert.Spec

open Idealize.ShloMosaic Cert.ReferenceIdeal Cert.ReferenceIdeal.Facts₀

variable {F : FTy → Type} [FloatOps F]

/-- Contents of a float buffer of shape `S`. -/
abbrev FArr (S : Shape) : Type := (⟨S, .f32⟩ : BufTy).Contents (Elt F)

/-- A length-64 bias as a row, repeated for every node. -/
def bias64 (b : FArr (F := F) S64) : FArr (F := F) S100000x64 :=
  broadcastInDim S100000x64 ![0, 1] bcast_S1x64_S100000x64_0_1 (broadcastInDim S1x64 ![1] bcast_S64_S1x64_1 b)
def bias32 (b : FArr (F := F) S32) : FArr (F := F) S100000x32 :=
  broadcastInDim S100000x32 ![0, 1] bcast_S1x32_S100000x32_0_1 (broadcastInDim S1x32 ![1] bcast_S32_S1x32_1 b)
def bias10 (b : FArr (F := F) S10) : FArr (F := F) S100000x10 :=
  broadcastInDim S100000x10 ![0, 1] bcast_S1x10_S100000x10_0_1 (broadcastInDim S1x10 ![1] bcast_S10_S1x10_1 b)

/-- The leaky rectifier with slope 1/10 (as a float literal), entry by entry: `h` where `h ≥ 0`, else `0.1 · h`. -/
def leaky64 (h : FArr (F := F) S100000x64) : FArr (F := F) S100000x64 :=
  select (cmpf .oge h (broadcastInDim S100000x64 ![] bcast_S_S100000x64 (constant (F := F) S_ .f32 0x00000000#32))) h
    (mulf (broadcastInDim S100000x64 ![] bcast_S_S100000x64 (id (constant (F := F) S_ .f32 0x3DCCCCCD#32))) h)
def leaky32 (h : FArr (F := F) S100000x32) : FArr (F := F) S100000x32 :=
  select (cmpf .oge h (broadcastInDim S100000x32 ![] bcast_S_S100000x32 (constant (F := F) S_ .f32 0x00000000#32))) h
    (mulf (broadcastInDim S100000x32 ![] bcast_S_S100000x32 (id (constant (F := F) S_ .f32 0x3DCCCCCD#32))) h)

/-- First layer's linear map: every node's single feature times the 1×64 weight row. -/
def layer1 (X : FArr (F := F) S100000x1) (W : FArr (F := F) S1x64) : FArr (F := F) S100000x64 :=
  Host.dotGeneral dot_S100000x1_S1x64_S100000x64_1_0_0_1_n_n none X W
/-- Second layer: bias, rectifier, then the 64×32 weights. -/
def layer2 (A : FArr (F := F) S100000x64) (b : FArr (F := F) S64) (W : FArr (F := F) S64x32) : FArr (F := F) S100000x32 :=
  Host.dotGeneral dot_S100000x64_S64x32_S100000x32_1_0_0_1_n_n none (leaky64 (addf A (bias64 b))) W
/-- Third layer: bias, rectifier, then the 32×10 weights. -/
def layer3 (A : FArr (F := F) S100000x32) (b : FArr (F := F) S32) (W : FArr (F := F) S32x10) : FArr (F := F) S100000x10 :=
  Host.dotGeneral dot_S100000x32_S32x10_S100000x10_1_0_0_1_n_n none (leaky32 (addf A (bias32 b))) W
/-- The read-out: bias, then the mean over the 100000 nodes (sum from zero, divided by 100000). -/
def mean10 (A : FArr (F := F) S100000x10) (b : FArr (F := F) S10) : FArr (F := F) S10 :=
  Host.divf (Host.reduceAdd (addf A (bias10 b)) (constant (F := F) S_ .f32 0x00000000#32) reducesTo_S100000x10_S10_d0 h_S_)
    (broadcastInDim S10 ![] bcast_S_S10 (constant (F := F) S_ .f32 0x47C35000#32))

end Cert.Spec

end
-- ==== Proof.LibBlockRows.lean ====
/-
  Rows of a 100000-row array taken in 10 consecutive blocks of 10000: block `t` holds rows
  `10000·t … 10000·t + 9999`. `row t p` is the array row of local row `p` of block `t`; every array row is
  `row t p` for exactly one pair (`blockRows`: quotient and remainder by 10000), so a sum over the 100000 rows,
  in any commutative monoid, is the sum over the blocks of the sums over each block's rows (`sum_blockRows`).
-/
import Mathlib.Algebra.BigOperators.Fin
import Mathlib.Algebra.BigOperators.Group.Finset.Sigma

open scoped BigOperators

namespace Cert.Bridge

/-- The array row of local row `p` of block `t`. -/
abbrev row (t : Fin 10) (p : Fin 10000) : Fin 100000 := ⟨10000 * t.val + p.val, by omega⟩

/-- Its value, for arithmetic. -/
theorem row_val (t : Fin 10) (p : Fin 10000) : (row t p).val = 10000 * t.val + p.val := rfl

/-- A row is a block and a local row: quotient and remainder by 10000. -/
def blockRows : Fin 10 × Fin 10000 ≃ Fin 100000 where
  toFun x := row x.1 x.2
  invFun k := (⟨k.val / 10000, by omega⟩, ⟨k.val % 10000, by omega⟩)
  left_inv x := by
    obtain ⟨t, p⟩ := x
    refine Prod.ext (Fin.ext ?_) (Fin.ext ?_)
    · show (10000 * t.val + p.val) / 10000 = t.val
      omega
    · show (10000 * t.val + p.val) % 10000 = p.val
      omega
  right_inv k := Fin.ext (by
    show 10000 * (k.val / 10000) + k.val % 10000 = k.val
    omega)

/-- A sum over all rows is the sum over the blocks of the sums over each block's rows. -/
theorem sum_blockRows {M : Type*} [AddCommMonoid M] (f : Fin 100000 → M) :
    ∑ k : Fin 100000, f k = ∑ t : Fin 10, ∑ p : Fin 10000, f (row t p) := by
  rw [← Equiv.sum_comp blockRows f, Fintype.sum_prod_type]
  rfl

end Cert.Bridge
-- ==== Proof.MathL1.lean ====
/-
  The first layer, read entry by entry on the extended reals: every node has one input feature, so both the block
  program's payload and the whole-array layer are, at (row, q), the sum over the single inner coordinate of the row's
  feature times `w[0, q]`. A block of 10000 rows whose entries are the array's rows `10000·t + p` therefore gives
  the layer's rows `10000·t + p`. On the extended reals a change of number format is the identity, and a product
  accumulated into zero rows and a plain contraction are the same sum.
-/
import proofs.«165814_j17411797418191_1_alg».proof.Proof.Gen.KernelIdeal.Skeleton
import proofs.«165814_j17411797418191_1_alg».proof.Proof.Spec
import proofs.«165814_j17411797418191_1_alg».proof.Proof.LibBlockRows
import Idealize.ShloMosaic.Lib.ValueIdx
import Idealize.ShloMosaic.PureOps.Ideal.Laws

noncomputable section

open Idealize.ShloMosaic Idealize.ShloMosaic.ValueIdx
open scoped BigOperators

namespace Cert.Bridge

namespace L1

/-! ### The two contractions' operand indices -/

/-- The block product's dimension numbers: rows × 1 times 1 × 64, one contracted axis. -/
abbrev dotK1 := Cert.KernelIdeal.dot_S10000x1_S1x64_S10000x64_1_0_0_1_n_n
/-- The whole-array product's dimension numbers. -/
abbrev dotR1 := Cert.ReferenceIdeal.dot_S100000x1_S1x64_S100000x64_1_0_0_1_n_n

/-- In the block product, entry (p, q) at inner coordinate k reads the left operand at (p, k) … -/
theorem k1_lhs (p : Fin 10000) (q : Fin 64) (k : Fin 1) :
    dotK1.lhsIdx (ix2 p q) ((contrEquiv1 dotK1 1 rfl rfl).symm k) = ix2 p k := by
  funext a
  refine Fin.ext ?_
  match a with
  | ⟨0, _⟩ =>
    show (dotK1.lhsIdx (ix2 p q) _ 0).val = p.val
    unfold DotDims.lhsIdx
    rw [dif_neg (show ¬(0 : Fin Cert.KernelIdeal.S10000x1.rank) ∈ dotK1.lhsBatch by decide),
      dif_pos (show (0 : Fin Cert.KernelIdeal.S10000x1.rank) ∈ dotK1.lhsNonContracting by decide)]
    rfl
  | ⟨1, _⟩ => exact (dotK1.lhsIdx_val_of_single rfl _ _).trans (contrEquiv1_symm_val dotK1 1 rfl rfl k)

/-- … and the right operand at (k, q). -/
theorem k1_rhs (p : Fin 10000) (q : Fin 64) (k : Fin 1) :
    dotK1.rhsIdx (ix2 p q) ((contrEquiv1 dotK1 1 rfl rfl).symm k) = ix2 k q := by
  funext a
  refine Fin.ext ?_
  match a with
  | ⟨0, _⟩ => exact (dotK1.rhsIdx_val_of_single rfl _ _).trans (contrEquiv1_symm_val dotK1 1 rfl rfl k)
  | ⟨1, _⟩ =>
    show (dotK1.rhsIdx (ix2 p q) _ 1).val = q.val
    unfold DotDims.rhsIdx
    rw [dif_neg (show ¬(1 : Fin Cert.KernelIdeal.S1x64.rank) ∈ dotK1.rhsBatch by decide),
      dif_pos (show (1 : Fin Cert.KernelIdeal.S1x64.rank) ∈ dotK1.rhsNonContracting by decide)]
    rfl

/-- The same for the whole-array product: entry (r, q) at k reads (r, k) … -/
theorem r1_lhs (r : Fin 100000) (q : Fin 64) (k : Fin 1) :
    dotR1.lhsIdx (ix2 r q) ((contrEquiv1 dotR1 1 rfl rfl).symm k) = ix2 r k := by
  funext a
  refine Fin.ext ?_
  match a with
  | ⟨0, _⟩ =>
    show (dotR1.lhsIdx (ix2 r q) _ 0).val = r.val
    unfold DotDims.lhsIdx
    rw [dif_neg (show ¬(0 : Fin Cert.ReferenceIdeal.S100000x1.rank) ∈ dotR1.lhsBatch by decide),
      dif_pos (show (0 : Fin Cert.ReferenceIdeal.S100000x1.rank) ∈ dotR1.lhsNonContracting by decide)]
    rfl
  | ⟨1, _⟩ => exact (dotR1.lhsIdx_val_of_single rfl _ _).trans (contrEquiv1_symm_val dotR1 1 rfl rfl k)

/-- … and (k, q). -/
theorem r1_rhs (r : Fin 100000) (q : Fin 64) (k : Fin 1) :
    dotR1.rhsIdx (ix2 r q) ((contrEquiv1 dotR1 1 rfl rfl).symm k) = ix2 k q := by
  funext a
  refine Fin.ext ?_
  match a with
  | ⟨0, _⟩ => exact (dotR1.rhsIdx_val_of_single rfl _ _).trans (contrEquiv1_symm_val dotR1 1 rfl rfl k)
  | ⟨1, _⟩ =>
    show (dotR1.rhsIdx (ix2 r q) _ 1).val = q.val
    unfold DotDims.rhsIdx
    rw [dif_neg (show ¬(1 : Fin Cert.ReferenceIdeal.S1x64.rank) ∈ dotR1.rhsBatch by decide),
      dif_pos (show (1 : Fin Cert.ReferenceIdeal.S1x64.rank) ∈ dotR1.rhsNonContracting by decide)]
    rfl

/-! ### Both sides as the same sum -/

/-- The block program's entry (p, q): the sum over the one inner coordinate of `x[p, k] · w[k, q]`. -/
theorem k0_pay1_apply (xb : Vec Ideal Cert.KernelIdeal.S10000x1 .f32) (W : Vec Ideal Cert.KernelIdeal.S1x64 .f32)
    (p : Fin 10000) (q : Fin 64) :
    Cert.KernelIdeal.Gen.k0_pay1 (F := Ideal) xb W (ix2 p q) = ∑ k : Fin 1, xb (ix2 p k) * W (ix2 k q) := by
  unfold Cert.KernelIdeal.Gen.k0_pay1
  refine (Ideal.matmul_constant_zero_apply dotK1 none _ _ (ix2 p q)).trans ?_
  rw [← Equiv.sum_comp (contrEquiv1 dotK1 1 rfl rfl).symm]
  refine Finset.sum_congr rfl fun k _ => ?_
  rw [k1_lhs, k1_rhs]
  rfl

/-- The whole-array layer's entry (r, q): the same sum, of row r. -/
theorem layer1_apply (X : Cert.Spec.FArr (F := Ideal) Cert.ReferenceIdeal.S100000x1)
    (W : Cert.Spec.FArr (F := Ideal) Cert.ReferenceIdeal.S1x64) (r : Fin 100000) (q : Fin 64) :
    Cert.Spec.layer1 X W (ix2 r q) = ∑ k : Fin 1, X (ix2 r k) * W (ix2 k q) := by
  unfold Cert.Spec.layer1
  refine (Ideal.dotGeneral_apply dotR1 none .single _ _ (ix2 r q)).trans ?_
  rw [← Equiv.sum_comp (contrEquiv1 dotR1 1 rfl rfl).symm]
  refine Finset.sum_congr rfl fun k _ => ?_
  rw [r1_lhs, r1_rhs]

end L1

/-- A block whose rows are the array's rows `10000·t + p`, with the same weights, gives the layer's rows
    `10000·t + p`. -/
theorem layer1_block (X : Cert.Spec.FArr (F := Ideal) Cert.ReferenceIdeal.S100000x1)
    (W : Cert.Spec.FArr (F := Ideal) Cert.ReferenceIdeal.S1x64) (t : Fin 10)
    (xb : Vec Ideal Cert.KernelIdeal.S10000x1 .f32)
    (hx : ∀ p : Fin 10000, xb (ix2 p 0) = X (ix2 (row t p) 0)) (p : Fin 10000) (q : Fin 64) :
    Cert.KernelIdeal.Gen.k0_pay1 (F := Ideal) xb W (ix2 p q) = Cert.Spec.layer1 X W (ix2 (row t p) q) := by
  rw [L1.k0_pay1_apply, L1.layer1_apply]
  refine Finset.sum_congr rfl fun k _ => ?_
  obtain rfl : k = 0 := Subsingleton.elim _ _
  rw [hx p]

end Cert.Bridge

end
-- ==== Proof.KI.Final0.lean ====
/-
  Region 0's output array at the exact reals: every block the pipeline writes back is the first layer's payload of the
  block's rows of the node features and the weight row, which is block `t` of the first layer applied to the whole feature
  column; the ten blocks cover the output array, so it ends holding the first layer of the arrays the region was entered
  with.
-/
import proofs.«165814_j17411797418191_1_alg».proof.Proof.KI.Reg0
import proofs.«165814_j17411797418191_1_alg».proof.Proof.MathL1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Dat)
open Idealize.ShloMosaic.ValueIdx Cert.Bridge

variable (V : (c : Dev nD) → (b : Ref sig .tc) → Buf (Elt Ideal) ((c : Thread nD τ).loc b))

theorem hz2_0 : (![0, 0] : Fin 2 → Nat) = fun _ => 0 := funext fun a => by fin_cases a <;> rfl

/-- The printed index maps over the grid: the row-blocked windows sit at block (t, 0), the weight row at (0, 0). -/
theorem idx_facts0 : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

theorem in_rows0 (c : Dev nD) (X : Buf (Elt Ideal) ((c : Thread nD τ).loc main_arg0)) (t : Fin cfg0.N) (x : S10000x1.Idx) (j : S100000x1.Idx)
    (h0 : (j 0).val = 10000 * t.val + (x 0).val) (h1 : (j 1).val = (x 1).val) :
    (((cfg0.win 0).blk t).view.read (Elt Ideal) X : S10000x1.Idx → EReal) x = (X : S100000x1.Idx → EReal) j := by
  obtain ⟨e0, e1, -⟩ := idx_facts0 t
  rw [View.read_apply]
  show X _ = X _
  congr 1
  funext a
  apply Fin.ext
  match a with
  | ⟨0, _⟩ => show win0_0.index t 0 * 10000 + 1 * (x 0).val = (j 0).val; rw [e0, h0]; omega
  | ⟨1, _⟩ => show win0_0.index t 1 * 1 + 1 * (x 1).val = (j 1).val; rw [e1, h1]; omega

theorem out_rows0 (c : Dev nD) (X : Buf (Elt Ideal) ((c : Thread nD τ).loc main_v33)) (t : Fin cfg0.N) (x : S10000x64.Idx) (j : S100000x64.Idx)
    (h0 : (j 0).val = 10000 * t.val + (x 0).val) (h1 : (j 1).val = (x 1).val) :
    (((cfg0.win 2).blk t).view.read (Elt Ideal) X : S10000x64.Idx → EReal) x = (X : S100000x64.Idx → EReal) j := by
  obtain ⟨-, -, -, -, e0, e1⟩ := idx_facts0 t
  rw [View.read_apply]
  show X _ = X _
  congr 1
  funext a
  apply Fin.ext
  match a with
  | ⟨0, _⟩ => show win0_2.index t 0 * 10000 + 1 * (x 0).val = (j 0).val; rw [e0, h0]; omega
  | ⟨1, _⟩ => show win0_2.index t 1 * 64 + 1 * (x 1).val = (j 1).val; rw [e1, h1]; omega

theorem weights_whole0 (c : Dev nD) (X : Buf (Elt Ideal) ((c : Thread nD τ).loc main_arg2)) (t : Fin cfg0.N) :
    (((cfg0.win 1).blk t).view.read (Elt Ideal) X : S1x64.Idx → EReal) = (X : S1x64.Idx → EReal) := by
  obtain ⟨-, -, e0, e1, -⟩ := idx_facts0 t
  funext x
  rw [View.read_apply]
  show X _ = X _
  congr 1
  funext a
  apply Fin.ext
  match a with
  | ⟨0, _⟩ => show win0_1.index t 0 * 1 + 1 * (x 0).val = (x 0).val; rw [e0]; omega
  | ⟨1, _⟩ => show win0_1.index t 1 * 64 + 1 * (x 1).val = (x 1).val; rw [e1]; omega

theorem flushed_eq0 (c : Dev nD) (t : Fin cfg0.N) :
    (dat0 V c).flushed 2 t = ((cfg0.win 2).blk t).view.read (Elt Ideal) (Cert.Spec.layer1 (V c main_arg0) (V c main_arg2)) := by
  have hN : t.val < 10 := lt_of_lt_of_eq t.isLt (show cfg0.N = 10 from N_0)
  show (cfg0.win 2).cut (grid0.coords t) ((dat0 V c).after 2 t) = _
  rw [after0_2]
  unfold out0_2
  rw [View.canon_unit_zero hz2_0]
  simp only [View.ld_unit_zero (S := S10000x1) hz2_0, View.ld_unit_zero (S := S1x64) hz2_0]
  funext y
  obtain ⟨p, q, rfl⟩ : ∃ (p : Fin 10000) (q : Fin 64), y = ix2 p q := ⟨y 0, y 1, eq_ix2 y⟩
  have hW : (iblk0 V c 1 t : S1x64.Idx → EReal) = (V c main_arg2 : S1x64.Idx → EReal) := weights_whole0 c (V c main_arg2) t
  rw [show iblk0 V c 1 t = (V c main_arg2 : S1x64.Idx → EReal) from hW]
  refine (layer1_block (V c main_arg0) (V c main_arg2) ⟨t.val, hN⟩ (iblk0 V c 0 t)
    (fun p => in_rows0 c (V c main_arg0) t (ix2 p 0) (ix2 (row ⟨t.val, hN⟩ p) 0) rfl rfl) p q).trans ?_
  exact (out_rows0 c _ t (ix2 p q) (ix2 (row ⟨t.val, hN⟩ p) q) rfl rfl).symm

theorem final0 (c : Dev nD) :
    (dat0 V c).arrAt 2 cfg0.N = Cert.Spec.layer1 (V c main_arg0) (V c main_arg2) :=
  (dat0 V c).arrAt_eq_of_cover 2 _ (fun t _ => flushed_eq0 V c t) fun i => by
    have hi0 : (i 0).val < 100000 := (i 0).isLt
    have hi1 : (i 1).val < 64 := (i 1).isLt
    have hN : cfg0.N = 10 := N_0
    have ht0 : (i 0).val / 10000 < cfg0.N := by omega
    refine ⟨⟨(i 0).val / 10000, ht0⟩, flush0_2 _, ?_⟩
    obtain ⟨-, -, -, -, e0, e1⟩ := idx_facts0 ⟨(i 0).val / 10000, ht0⟩
    show i ∈ ((View.whole main_v33).slice (win0_2.rect ⟨(i 0).val / 10000, ht0⟩)).set
    rw [View.set_slice_whole, Rect.mem_set_unit]
    intro a
    match a with
    | ⟨0, _⟩ => show win0_2.index ⟨(i 0).val / 10000, ht0⟩ 0 * 10000 ≤ (i 0).val ∧ (i 0).val < win0_2.index ⟨(i 0).val / 10000, ht0⟩ 0 * 10000 + 10000; rw [e0]; dsimp only; omega
    | ⟨1, _⟩ => show win0_2.index ⟨(i 0).val / 10000, ht0⟩ 1 * 64 ≤ (i 1).val ∧ (i 1).val < win0_2.index ⟨(i 0).val / 10000, ht0⟩ 1 * 64 + 64; rw [e1]; omega

end Cert.KernelIdeal.Hand

end
-- ==== Proof.MathL2.lean ====
/-
  The second layer, read entry by entry on the extended reals: both the block program's payload and the whole-array
  layer are "add the bias to the row, apply the leaky rectifier, take the inner product with a column of the
  64×32 weights". A block of 10000 rows whose entries are the array's rows `10000·t + p` therefore gives the
  layer's rows `10000·t + p`. On the extended reals a change of number format is the identity, and a product
  accumulated into zero rows and a plain contraction are the same sum over the 64 inner coordinates.
-/
import proofs.«165814_j17411797418191_1_alg».proof.Proof.Gen.KernelIdeal.Skeleton
import proofs.«165814_j17411797418191_1_alg».proof.Proof.Spec
import proofs.«165814_j17411797418191_1_alg».proof.Proof.LibBlockRows
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.Bridge

namespace L2

/-! ### The two contractions' operand indices -/

/-- The block product's dimension numbers: rows × 64 times 64 × 32, one contracted axis. -/
abbrev dotK2 := Cert.KernelIdeal.dot_S10000x64_S64x32_S10000x32_1_0_0_1_n_n
/-- The whole-array product's dimension numbers. -/
abbrev dotR2 := Cert.ReferenceIdeal.dot_S100000x64_S64x32_S100000x32_1_0_0_1_n_n

/-- In the block product, entry (p, q) at inner coordinate k reads the left operand at (p, k) … -/
theorem k2_lhs (p : Fin 10000) (q : Fin 32) (k : Fin 64) :
    dotK2.lhsIdx (ix2 p q) ((contrEquiv1 dotK2 64 rfl rfl).symm k) = ix2 p k := by
  funext a
  refine Fin.ext ?_
  match a with
  | ⟨0, _⟩ =>
    show (dotK2.lhsIdx (ix2 p q) _ 0).val = p.val
    unfold DotDims.lhsIdx
    rw [dif_neg (show ¬(0 : Fin Cert.KernelIdeal.S10000x64.rank) ∈ dotK2.lhsBatch by decide),
      dif_pos (show (0 : Fin Cert.KernelIdeal.S10000x64.rank) ∈ dotK2.lhsNonContracting by decide)]
    rfl
  | ⟨1, _⟩ => exact (dotK2.lhsIdx_val_of_single rfl _ _).trans (contrEquiv1_symm_val dotK2 64 rfl rfl k)

/-- … and the right operand at (k, q). -/
theorem k2_rhs (p : Fin 10000) (q : Fin 32) (k : Fin 64) :
    dotK2.rhsIdx (ix2 p q) ((contrEquiv1 dotK2 64 rfl rfl).symm k) = ix2 k q := by
  funext a
  refine Fin.ext ?_
  match a with
  | ⟨0, _⟩ => exact (dotK2.rhsIdx_val_of_single rfl _ _).trans (contrEquiv1_symm_val dotK2 64 rfl rfl k)
  | ⟨1, _⟩ =>
    show (dotK2.rhsIdx (ix2 p q) _ 1).val = q.val
    unfold DotDims.rhsIdx
    rw [dif_neg (show ¬(1 : Fin Cert.KernelIdeal.S64x32.rank) ∈ dotK2.rhsBatch by decide),
      dif_pos (show (1 : Fin Cert.KernelIdeal.S64x32.rank) ∈ dotK2.rhsNonContracting by decide)]
    rfl

/-- The same for the whole-array product: entry (r, q) at k reads (r, k) … -/
theorem r2_lhs (r : Fin 100000) (q : Fin 32) (k : Fin 64) :
    dotR2.lhsIdx (ix2 r q) ((contrEquiv1 dotR2 64 rfl rfl).symm k) = ix2 r k := by
  funext a
  refine Fin.ext ?_
  match a with
  | ⟨0, _⟩ =>
    show (dotR2.lhsIdx (ix2 r q) _ 0).val = r.val
    unfold DotDims.lhsIdx
    rw [dif_neg (show ¬(0 : Fin Cert.ReferenceIdeal.S100000x64.rank) ∈ dotR2.lhsBatch by decide),
      dif_pos (show (0 : Fin Cert.ReferenceIdeal.S100000x64.rank) ∈ dotR2.lhsNonContracting by decide)]
    rfl
  | ⟨1, _⟩ => exact (dotR2.lhsIdx_val_of_single rfl _ _).trans (contrEquiv1_symm_val dotR2 64 rfl rfl k)

/-- … and (k, q). -/
theorem r2_rhs (r : Fin 100000) (q : Fin 32) (k : Fin 64) :
    dotR2.rhsIdx (ix2 r q) ((contrEquiv1 dotR2 64 rfl rfl).symm k) = ix2 k q := by
  funext a
  refine Fin.ext ?_
  match a with
  | ⟨0, _⟩ => exact (dotR2.rhsIdx_val_of_single rfl _ _).trans (contrEquiv1_symm_val dotR2 64 rfl rfl k)
  | ⟨1, _⟩ =>
    show (dotR2.rhsIdx (ix2 r q) _ 1).val = q.val
    unfold DotDims.rhsIdx
    rw [dif_neg (show ¬(1 : Fin Cert.ReferenceIdeal.S64x32.rank) ∈ dotR2.rhsBatch by decide),
      dif_pos (show (1 : Fin Cert.ReferenceIdeal.S64x32.rank) ∈ dotR2.rhsNonContracting by decide)]
    rfl

/-! ### Both sides as the same sum -/

/- The leaky rectifier at one value: `v` where `v ≥ 0`, else the slope constant times `v`. The two constants stay
   the words both programs write (zero, and the float nearest 1/10); they are the same on both sides and are
   never evaluated. -/
set_option quotPrecheck false in
local notation "leak(" v ")" =>
  Scalar.select (FloatOps.cmpf (F := Ideal) (φ := FTy.f32) CmpFPredicate.oge v (Ideal.ofBits FTy.f32 0x00000000#32)) v
    (Ideal.ofBits FTy.f32 0x3DCCCCCD#32 * v)

/-- The block program's entry (p, q): the sum over k of the rectified `x[p, k] + bias[k]` times `w[k, q]`. -/
theorem k1_pay1_apply (xb : Vec Ideal Cert.KernelIdeal.S10000x64 .f32) (bk : Vec Ideal Cert.KernelIdeal.S1x64 .f32)
    (W : Vec Ideal Cert.KernelIdeal.S64x32 .f32) (p : Fin 10000) (q : Fin 32) :
    Cert.KernelIdeal.Gen.k1_pay1 (F := Ideal) xb bk W (ix2 p q)
      = ∑ k : Fin 64, leak(xb (ix2 p k) + bk (ix2 0 k)) * W (ix2 k q) := by
  unfold Cert.KernelIdeal.Gen.k1_pay1
  simp only [shapeCast_self]
  refine (Ideal.matmul_constant_zero_apply dotK2 none _ _ (ix2 p q)).trans ?_
  rw [← Equiv.sum_comp (contrEquiv1 dotK2 64 rfl rfl).symm]
  refine Finset.sum_congr rfl fun k _ => ?_
  rw [k2_lhs, k2_rhs]
  -- the bias row repeated down the block reads the row's entry k
  have hbc : broadcastTo Cert.KernelIdeal.S10000x64 bk Cert.KernelIdeal.Facts₀.broadcasts_S1x64_S10000x64 (ix2 p k) = bk (ix2 0 k) :=
    broadcastTo_apply bk _ (ix2 p k) (ix2 0 k) (fun a => by match a with | ⟨0, _⟩ => rfl | ⟨1, _⟩ => rfl)
  simp only [truncf_apply, select_apply, cmpf_apply, addf_apply, mulf_apply, broadcast_apply, hbc]
  rfl

/-- The length-64 bias repeated for every row reads its entry k. -/
theorem bias64_apply (b : Cert.Spec.FArr (F := Ideal) Cert.ReferenceIdeal.S64) (r : Fin 100000) (k : Fin 64) :
    Cert.Spec.bias64 b (ix2 r k) = b (ix1 k) := by
  unfold Cert.Spec.bias64
  refine (broadcastInDim_apply _ _ _ (ix2 r k) (ix2 0 k) (fun a => by match a with | ⟨0, _⟩ => rfl | ⟨1, _⟩ => rfl)).trans ?_
  exact broadcastInDim_apply _ _ b (ix2 0 k) (ix1 k) (fun a => by match a with | ⟨0, _⟩ => rfl)

/-- The whole-array layer's entry (r, q): the same sum over k, of row r. -/
theorem layer2_apply (A : Cert.Spec.FArr (F := Ideal) Cert.ReferenceIdeal.S100000x64)
    (b : Cert.Spec.FArr (F := Ideal) Cert.ReferenceIdeal.S64) (W : Cert.Spec.FArr (F := Ideal) Cert.ReferenceIdeal.S64x32)
    (r : Fin 100000) (q : Fin 32) :
    Cert.Spec.layer2 A b W (ix2 r q) = ∑ k : Fin 64, leak(A (ix2 r k) + b (ix1 k)) * W (ix2 k q) := by
  unfold Cert.Spec.layer2
  refine (Ideal.dotGeneral_apply dotR2 none .single _ _ (ix2 r q)).trans ?_
  rw [← Equiv.sum_comp (contrEquiv1 dotR2 64 rfl rfl).symm]
  refine Finset.sum_congr rfl fun k _ => ?_
  rw [r2_lhs, r2_rhs]
  unfold Cert.Spec.leaky64
  simp only [select_apply, cmpf_apply, addf_apply, mulf_apply, bias64_apply]
  rfl

end L2

/-- A block whose rows are the array's rows `10000·t + p`, with the same bias and weights, gives the layer's rows
    `10000·t + p`. -/
theorem layer2_block (A : Cert.Spec.FArr (F := Ideal) Cert.ReferenceIdeal.S100000x64)
    (b : Cert.Spec.FArr (F := Ideal) Cert.ReferenceIdeal.S64) (W : Cert.Spec.FArr (F := Ideal) Cert.ReferenceIdeal.S64x32)
    (bk : Vec Ideal Cert.KernelIdeal.S1x64 .f32) (hb : ∀ q : Fin 64, bk (ix2 0 q) = b (ix1 q)) (t : Fin 10)
    (xb : Vec Ideal Cert.KernelIdeal.S10000x64 .f32)
    (hx : ∀ (p : Fin 10000) (k : Fin 64), xb (ix2 p k) = A (ix2 (row t p) k)) (p : Fin 10000) (q : Fin 32) :
    Cert.KernelIdeal.Gen.k1_pay1 (F := Ideal) xb bk W (ix2 p q) = Cert.Spec.layer2 A b W (ix2 (row t p) q) := by
  rw [L2.k1_pay1_apply, L2.layer2_apply]
  exact Finset.sum_congr rfl fun k _ => by rw [hx p k, hb k]

end Cert.Bridge

end
-- ==== Proof.KI.Final1.lean ====
/-
  Region 1's output array at the exact reals: every block the pipeline writes back is the layer's payload of the
  region's input blocks, which is block `t` of the layer applied to the whole input array (rows 10000·t … 10000·t + 9999),
  the bias row and the weights; the ten blocks cover the output array, so it ends holding the layer of the arrays the
  region was entered with.
-/
import proofs.«165814_j17411797418191_1_alg».proof.Proof.KI.Reg1
import proofs.«165814_j17411797418191_1_alg».proof.Proof.MathL2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Dat)
open Idealize.ShloMosaic.ValueIdx Cert.Bridge

variable (V : (c : Dev nD) → (b : Ref sig .tc) → Buf (Elt Ideal) ((c : Thread nD τ).loc b))

theorem hz2_1 : (![0, 0] : Fin 2 → Nat) = fun _ => 0 := funext fun a => by fin_cases a <;> rfl

/-- The printed index maps over the grid: the row-blocked windows sit at block (t, 0), the bias and the weights at (0, 0). -/
theorem idx_facts1 : ∀ t : Fin cfg1.N, win1_0.index t 0 = t.val ∧ win1_0.index t 1 = 0 ∧ win1_1.index t 0 = 0 ∧ win1_1.index t 1 = 0
    ∧ win1_2.index t 0 = 0 ∧ win1_2.index t 1 = 0 ∧ win1_3.index t 0 = t.val ∧ win1_3.index t 1 = 0 :=
  (by decide +kernel : ∀ t : Fin grid1.N, _)

/-- A row-blocked read of the input array: local row `p` of block `t` is row `10000·t + p`. -/
theorem in_rows1 (c : Dev nD) (X : Buf (Elt Ideal) ((c : Thread nD τ).loc main_v46)) (t : Fin cfg1.N) (x : S10000x64.Idx) (j : S100000x64.Idx)
    (h0 : (j 0).val = 10000 * t.val + (x 0).val) (h1 : (j 1).val = (x 1).val) :
    (((cfg1.win 0).blk t).view.read (Elt Ideal) X : S10000x64.Idx → EReal) x = (X : S100000x64.Idx → EReal) j := by
  obtain ⟨e0, e1, -⟩ := idx_facts1 t
  rw [View.read_apply]
  show X _ = X _
  congr 1
  funext a
  apply Fin.ext
  match a with
  | ⟨0, _⟩ => show win1_0.index t 0 * 10000 + 1 * (x 0).val = (j 0).val; rw [e0, h0]; omega
  | ⟨1, _⟩ => show win1_0.index t 1 * 64 + 1 * (x 1).val = (j 1).val; rw [e1, h1]; omega

/-- The same for the output array. -/
theorem out_rows1 (c : Dev nD) (X : Buf (Elt Ideal) ((c : Thread nD τ).loc main_v47)) (t : Fin cfg1.N) (x : S10000x32.Idx) (j : S100000x32.Idx)
    (h0 : (j 0).val = 10000 * t.val + (x 0).val) (h1 : (j 1).val = (x 1).val) :
    (((cfg1.win 3).blk t).view.read (Elt Ideal) X : S10000x32.Idx → EReal) x = (X : S100000x32.Idx → EReal) j := by
  obtain ⟨-, -, -, -, -, -, e0, e1⟩ := idx_facts1 t
  rw [View.read_apply]
  show X _ = X _
  congr 1
  funext a
  apply Fin.ext
  match a with
  | ⟨0, _⟩ => show win1_3.index t 0 * 10000 + 1 * (x 0).val = (j 0).val; rw [e0, h0]; omega
  | ⟨1, _⟩ => show win1_3.index t 1 * 32 + 1 * (x 1).val = (j 1).val; rw [e1, h1]; omega

/-- The bias row's block is the whole row at every point. -/
theorem bias_whole1 (c : Dev nD) (X : Buf (Elt Ideal) ((c : Thread nD τ).loc main_v30)) (t : Fin cfg1.N) (x : S1x64.Idx) :
    (((cfg1.win 1).blk t).view.read (Elt Ideal) X : S1x64.Idx → EReal) x = (X : S1x64.Idx → EReal) x := by
  obtain ⟨-, -, e0, e1, -⟩ := idx_facts1 t
  rw [View.read_apply]
  show X _ = X _
  congr 1
  funext a
  apply Fin.ext
  match a with
  | ⟨0, _⟩ => show win1_1.index t 0 * 1 + 1 * (x 0).val = (x 0).val; rw [e0]; omega
  | ⟨1, _⟩ => show win1_1.index t 1 * 64 + 1 * (x 1).val = (x 1).val; rw [e1]; omega

/-- The weights' block is the whole matrix at every point. -/
theorem weights_whole1 (c : Dev nD) (X : Buf (Elt Ideal) ((c : Thread nD τ).loc main_arg4)) (t : Fin cfg1.N) :
    (((cfg1.win 2).blk t).view.read (Elt Ideal) X : S64x32.Idx → EReal) = (X : S64x32.Idx → EReal) := by
  obtain ⟨-, -, -, -, e0, e1, -⟩ := idx_facts1 t
  funext x
  rw [View.read_apply]
  show X _ = X _
  congr 1
  funext a
  apply Fin.ext
  match a with
  | ⟨0, _⟩ => show win1_2.index t 0 * 64 + 1 * (x 0).val = (x 0).val; rw [e0]; omega
  | ⟨1, _⟩ => show win1_2.index t 1 * 32 + 1 * (x 1).val = (x 1).val; rw [e1]; omega

/-- What point `t` writes back is block `t` of the layer of the entry arrays. -/
theorem flushed_eq1 (c : Dev nD) (b : Cert.Spec.FArr (F := Ideal) Cert.ReferenceIdeal.S64)
    (hb : ∀ q : Fin 64, (V c main_v30 : S1x64.Idx → EReal) (ix2 0 q) = b (ix1 q)) (t : Fin cfg1.N) :
    (dat1 V c).flushed 3 t = ((cfg1.win 3).blk t).view.read (Elt Ideal) (Cert.Spec.layer2 (V c main_v46) b (V c main_arg4)) := by
  have hN : t.val < 10 := lt_of_lt_of_eq t.isLt (show cfg1.N = 10 from N_1)
  show (cfg1.win 3).cut (grid1.coords t) ((dat1 V c).after 3 t) = _
  rw [after1_3]
  unfold out1_3
  rw [View.canon_unit_zero hz2_1]
  simp only [View.ld_unit_zero (S := S10000x64) hz2_1, View.ld_unit_zero (S := S1x64) hz2_1, View.ld_unit_zero (S := S64x32) hz2_1]
  funext y
  obtain ⟨p, q, rfl⟩ : ∃ (p : Fin 10000) (q : Fin 32), y = ix2 p q := ⟨y 0, y 1, eq_ix2 y⟩
  have hW : (iblk1 V c 2 t : S64x32.Idx → EReal) = (V c main_arg4 : S64x32.Idx → EReal) := weights_whole1 c (V c main_arg4) t
  rw [show iblk1 V c 2 t = (V c main_arg4 : S64x32.Idx → EReal) from hW]
  refine (layer2_block (V c main_v46) b (V c main_arg4) (iblk1 V c 1 t) (fun q => (bias_whole1 c (V c main_v30) t (ix2 0 q)).trans (hb q)) ⟨t.val, hN⟩ (iblk1 V c 0 t)
    (fun p k => in_rows1 c (V c main_v46) t (ix2 p k) (ix2 (row ⟨t.val, hN⟩ p) k) rfl rfl) p q).trans ?_
  exact (out_rows1 c _ t (ix2 p q) (ix2 (row ⟨t.val, hN⟩ p) q) rfl rfl).symm

/-- The region's output array ends holding the layer of the arrays the region was entered with. -/
theorem final1 (c : Dev nD) (b : Cert.Spec.FArr (F := Ideal) Cert.ReferenceIdeal.S64)
    (hb : ∀ q : Fin 64, (V c main_v30 : S1x64.Idx → EReal) (ix2 0 q) = b (ix1 q)) :
    (dat1 V c).arrAt 3 cfg1.N = Cert.Spec.layer2 (V c main_v46) b (V c main_arg4) :=
  (dat1 V c).arrAt_eq_of_cover 3 _ (fun t _ => flushed_eq1 V c b hb t) fun i => by
    have hi0 : (i 0).val < 100000 := (i 0).isLt
    have hi1 : (i 1).val < 32 := (i 1).isLt
    have hN : cfg1.N = 10 := N_1
    have ht0 : (i 0).val / 10000 < cfg1.N := by omega
    refine ⟨⟨(i 0).val / 10000, ht0⟩, flush1_3 _, ?_⟩
    obtain ⟨-, -, -, -, -, -, e0, e1⟩ := idx_facts1 ⟨(i 0).val / 10000, ht0⟩
    show i ∈ ((View.whole main_v47).slice (win1_3.rect ⟨(i 0).val / 10000, ht0⟩)).set
    rw [View.set_slice_whole, Rect.mem_set_unit]
    intro a
    match a with
    | ⟨0, _⟩ => show win1_3.index ⟨(i 0).val / 10000, ht0⟩ 0 * 10000 ≤ (i 0).val ∧ (i 0).val < win1_3.index ⟨(i 0).val / 10000, ht0⟩ 0 * 10000 + 10000; rw [e0]; dsimp only; omega
    | ⟨1, _⟩ => show win1_3.index ⟨(i 0).val / 10000, ht0⟩ 1 * 32 ≤ (i 1).val ∧ (i 1).val < win1_3.index ⟨(i 0).val / 10000, ht0⟩ 1 * 32 + 32; rw [e1]; omega

end Cert.KernelIdeal.Hand

end
-- ==== Proof.MathL3.lean ====
/-
  The third layer, read entry by entry on the extended reals: both the block program's payload and the whole-array
  layer are "add the bias to the row, apply the leaky rectifier, take the inner product with a column of the
  32×10 weights". A block of 10000 rows whose entries are the array's rows `10000·t + p` therefore gives the
  layer's rows `10000·t + p`. On the extended reals a change of number format is the identity, and a product
  accumulated into zero rows and a plain contraction are the same sum over the 32 inner coordinates.
-/
import proofs.«165814_j17411797418191_1_alg».proof.Proof.Gen.KernelIdeal.Skeleton
import proofs.«165814_j17411797418191_1_alg».proof.Proof.Spec
import proofs.«165814_j17411797418191_1_alg».proof.Proof.LibBlockRows
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.Bridge

namespace L3

/-! ### The two contractions' operand indices -/

/-- The block product's dimension numbers: rows × 32 times 32 × 10, one contracted axis. -/
abbrev dotK3 := Cert.KernelIdeal.dot_S10000x32_S32x10_S10000x10_1_0_0_1_n_n
/-- The whole-array product's dimension numbers. -/
abbrev dotR3 := Cert.ReferenceIdeal.dot_S100000x32_S32x10_S100000x10_1_0_0_1_n_n

/-- In the block product, entry (p, q) at inner coordinate k reads the left operand at (p, k) … -/
theorem k3_lhs (p : Fin 10000) (q : Fin 10) (k : Fin 32) :
    dotK3.lhsIdx (ix2 p q) ((contrEquiv1 dotK3 32 rfl rfl).symm k) = ix2 p k := by
  funext a
  refine Fin.ext ?_
  match a with
  | ⟨0, _⟩ =>
    show (dotK3.lhsIdx (ix2 p q) _ 0).val = p.val
    unfold DotDims.lhsIdx
    rw [dif_neg (show ¬(0 : Fin Cert.KernelIdeal.S10000x32.rank) ∈ dotK3.lhsBatch by decide),
      dif_pos (show (0 : Fin Cert.KernelIdeal.S10000x32.rank) ∈ dotK3.lhsNonContracting by decide)]
    rfl
  | ⟨1, _⟩ => exact (dotK3.lhsIdx_val_of_single rfl _ _).trans (contrEquiv1_symm_val dotK3 32 rfl rfl k)

/-- … and the right operand at (k, q). -/
theorem k3_rhs (p : Fin 10000) (q : Fin 10) (k : Fin 32) :
    dotK3.rhsIdx (ix2 p q) ((contrEquiv1 dotK3 32 rfl rfl).symm k) = ix2 k q := by
  funext a
  refine Fin.ext ?_
  match a with
  | ⟨0, _⟩ => exact (dotK3.rhsIdx_val_of_single rfl _ _).trans (contrEquiv1_symm_val dotK3 32 rfl rfl k)
  | ⟨1, _⟩ =>
    show (dotK3.rhsIdx (ix2 p q) _ 1).val = q.val
    unfold DotDims.rhsIdx
    rw [dif_neg (show ¬(1 : Fin Cert.KernelIdeal.S32x10.rank) ∈ dotK3.rhsBatch by decide),
      dif_pos (show (1 : Fin Cert.KernelIdeal.S32x10.rank) ∈ dotK3.rhsNonContracting by decide)]
    rfl

/-- The same for the whole-array product: entry (r, q) at k reads (r, k) … -/
theorem r3_lhs (r : Fin 100000) (q : Fin 10) (k : Fin 32) :
    dotR3.lhsIdx (ix2 r q) ((contrEquiv1 dotR3 32 rfl rfl).symm k) = ix2 r k := by
  funext a
  refine Fin.ext ?_
  match a with
  | ⟨0, _⟩ =>
    show (dotR3.lhsIdx (ix2 r q) _ 0).val = r.val
    unfold DotDims.lhsIdx
    rw [dif_neg (show ¬(0 : Fin Cert.ReferenceIdeal.S100000x32.rank) ∈ dotR3.lhsBatch by decide),
      dif_pos (show (0 : Fin Cert.ReferenceIdeal.S100000x32.rank) ∈ dotR3.lhsNonContracting by decide)]
    rfl
  | ⟨1, _⟩ => exact (dotR3.lhsIdx_val_of_single rfl _ _).trans (contrEquiv1_symm_val dotR3 32 rfl rfl k)

/-- … and (k, q). -/
theorem r3_rhs (r : Fin 100000) (q : Fin 10) (k : Fin 32) :
    dotR3.rhsIdx (ix2 r q) ((contrEquiv1 dotR3 32 rfl rfl).symm k) = ix2 k q := by
  funext a
  refine Fin.ext ?_
  match a with
  | ⟨0, _⟩ => exact (dotR3.rhsIdx_val_of_single rfl _ _).trans (contrEquiv1_symm_val dotR3 32 rfl rfl k)
  | ⟨1, _⟩ =>
    show (dotR3.rhsIdx (ix2 r q) _ 1).val = q.val
    unfold DotDims.rhsIdx
    rw [dif_neg (show ¬(1 : Fin Cert.ReferenceIdeal.S32x10.rank) ∈ dotR3.rhsBatch by decide),
      dif_pos (show (1 : Fin Cert.ReferenceIdeal.S32x10.rank) ∈ dotR3.rhsNonContracting by decide)]
    rfl

/-! ### Both sides as the same sum -/

/- The leaky rectifier at one value: `v` where `v ≥ 0`, else the slope constant times `v`. The two constants stay
   the words both programs write (zero, and the float nearest 1/10); they are the same on both sides and are
   never evaluated. -/
set_option quotPrecheck false in
local notation "leak(" v ")" =>
  Scalar.select (FloatOps.cmpf (F := Ideal) (φ := FTy.f32) CmpFPredicate.oge v (Ideal.ofBits FTy.f32 0x00000000#32)) v
    (Ideal.ofBits FTy.f32 0x3DCCCCCD#32 * v)

/-- The block program's entry (p, q): the sum over k of the rectified `x[p, k] + bias[k]` times `w[k, q]`. -/
theorem k2_pay1_apply (xb : Vec Ideal Cert.KernelIdeal.S10000x32 .f32) (bk : Vec Ideal Cert.KernelIdeal.S1x32 .f32)
    (W : Vec Ideal Cert.KernelIdeal.S32x10 .f32) (p : Fin 10000) (q : Fin 10) :
    Cert.KernelIdeal.Gen.k2_pay1 (F := Ideal) xb bk W (ix2 p q)
      = ∑ k : Fin 32, leak(xb (ix2 p k) + bk (ix2 0 k)) * W (ix2 k q) := by
  unfold Cert.KernelIdeal.Gen.k2_pay1
  simp only [shapeCast_self]
  refine (Ideal.matmul_constant_zero_apply dotK3 none _ _ (ix2 p q)).trans ?_
  rw [← Equiv.sum_comp (contrEquiv1 dotK3 32 rfl rfl).symm]
  refine Finset.sum_congr rfl fun k _ => ?_
  rw [k3_lhs, k3_rhs]
  -- the bias row repeated down the block reads the row's entry k
  have hbc : broadcastTo Cert.KernelIdeal.S10000x32 bk Cert.KernelIdeal.Facts₀.broadcasts_S1x32_S10000x32 (ix2 p k) = bk (ix2 0 k) :=
    broadcastTo_apply bk _ (ix2 p k) (ix2 0 k) (fun a => by match a with | ⟨0, _⟩ => rfl | ⟨1, _⟩ => rfl)
  simp only [truncf_apply, select_apply, cmpf_apply, addf_apply, mulf_apply, broadcast_apply, hbc]
  rfl

/-- The length-32 bias repeated for every row reads its entry k. -/
theorem bias32_apply (b : Cert.Spec.FArr (F := Ideal) Cert.ReferenceIdeal.S32) (r : Fin 100000) (k : Fin 32) :
    Cert.Spec.bias32 b (ix2 r k) = b (ix1 k) := by
  unfold Cert.Spec.bias32
  refine (broadcastInDim_apply _ _ _ (ix2 r k) (ix2 0 k) (fun a => by match a with | ⟨0, _⟩ => rfl | ⟨1, _⟩ => rfl)).trans ?_
  exact broadcastInDim_apply _ _ b (ix2 0 k) (ix1 k) (fun a => by match a with | ⟨0, _⟩ => rfl)

/-- The whole-array layer's entry (r, q): the same sum over k, of row r. -/
theorem layer3_apply (A : Cert.Spec.FArr (F := Ideal) Cert.ReferenceIdeal.S100000x32)
    (b : Cert.Spec.FArr (F := Ideal) Cert.ReferenceIdeal.S32) (W : Cert.Spec.FArr (F := Ideal) Cert.ReferenceIdeal.S32x10)
    (r : Fin 100000) (q : Fin 10) :
    Cert.Spec.layer3 A b W (ix2 r q) = ∑ k : Fin 32, leak(A (ix2 r k) + b (ix1 k)) * W (ix2 k q) := by
  unfold Cert.Spec.layer3
  refine (Ideal.dotGeneral_apply dotR3 none .single _ _ (ix2 r q)).trans ?_
  rw [← Equiv.sum_comp (contrEquiv1 dotR3 32 rfl rfl).symm]
  refine Finset.sum_congr rfl fun k _ => ?_
  rw [r3_lhs, r3_rhs]
  unfold Cert.Spec.leaky32
  simp only [select_apply, cmpf_apply, addf_apply, mulf_apply, bias32_apply]
  rfl

end L3

/-- A block whose rows are the array's rows `10000·t + p`, with the same bias and weights, gives the layer's rows
    `10000·t + p`. -/
theorem layer3_block (A : Cert.Spec.FArr (F := Ideal) Cert.ReferenceIdeal.S100000x32)
    (b : Cert.Spec.FArr (F := Ideal) Cert.ReferenceIdeal.S32) (W : Cert.Spec.FArr (F := Ideal) Cert.ReferenceIdeal.S32x10)
    (bk : Vec Ideal Cert.KernelIdeal.S1x32 .f32) (hb : ∀ q : Fin 32, bk (ix2 0 q) = b (ix1 q)) (t : Fin 10)
    (xb : Vec Ideal Cert.KernelIdeal.S10000x32 .f32)
    (hx : ∀ (p : Fin 10000) (k : Fin 32), xb (ix2 p k) = A (ix2 (row t p) k)) (p : Fin 10000) (q : Fin 10) :
    Cert.KernelIdeal.Gen.k2_pay1 (F := Ideal) xb bk W (ix2 p q) = Cert.Spec.layer3 A b W (ix2 (row t p) q) := by
  rw [L3.k2_pay1_apply, L3.layer3_apply]
  exact Finset.sum_congr rfl fun k _ => by rw [hx p k, hb k]

end Cert.Bridge

end
-- ==== Proof.KI.Final2.lean ====
/-
  Region 2's output array at the exact reals: every block the pipeline writes back is the layer's payload of the
  region's input blocks, which is block `t` of the layer applied to the whole input array (rows 10000·t … 10000·t + 9999),
  the bias row and the weights; the ten blocks cover the output array, so it ends holding the layer of the arrays the
  region was entered with.
-/
import proofs.«165814_j17411797418191_1_alg».proof.Proof.KI.Reg2
import proofs.«165814_j17411797418191_1_alg».proof.Proof.MathL3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Dat)
open Idealize.ShloMosaic.ValueIdx Cert.Bridge

variable (V : (c : Dev nD) → (b : Ref sig .tc) → Buf (Elt Ideal) ((c : Thread nD τ).loc b))

theorem hz2_2 : (![0, 0] : Fin 2 → Nat) = fun _ => 0 := funext fun a => by fin_cases a <;> rfl

/-- The printed index maps over the grid: the row-blocked windows sit at block (t, 0), the bias and the weights at (0, 0). -/
theorem idx_facts2 : ∀ t : Fin cfg2.N, win2_0.index t 0 = t.val ∧ win2_0.index t 1 = 0 ∧ win2_1.index t 0 = 0 ∧ win2_1.index t 1 = 0
    ∧ win2_2.index t 0 = 0 ∧ win2_2.index t 1 = 0 ∧ win2_3.index t 0 = t.val ∧ win2_3.index t 1 = 0 :=
  (by decide +kernel : ∀ t : Fin grid2.N, _)

/-- A row-blocked read of the input array: local row `p` of block `t` is row `10000·t + p`. -/
theorem in_rows2 (c : Dev nD) (X : Buf (Elt Ideal) ((c : Thread nD τ).loc main_v60)) (t : Fin cfg2.N) (x : S10000x32.Idx) (j : S100000x32.Idx)
    (h0 : (j 0).val = 10000 * t.val + (x 0).val) (h1 : (j 1).val = (x 1).val) :
    (((cfg2.win 0).blk t).view.read (Elt Ideal) X : S10000x32.Idx → EReal) x = (X : S100000x32.Idx → EReal) j := by
  obtain ⟨e0, e1, -⟩ := idx_facts2 t
  rw [View.read_apply]
  show X _ = X _
  congr 1
  funext a
  apply Fin.ext
  match a with
  | ⟨0, _⟩ => show win2_0.index t 0 * 10000 + 1 * (x 0).val = (j 0).val; rw [e0, h0]; omega
  | ⟨1, _⟩ => show win2_0.index t 1 * 32 + 1 * (x 1).val = (j 1).val; rw [e1, h1]; omega

/-- The same for the output array. -/
theorem out_rows2 (c : Dev nD) (X : Buf (Elt Ideal) ((c : Thread nD τ).loc main_v61)) (t : Fin cfg2.N) (x : S10000x10.Idx) (j : S100000x10.Idx)
    (h0 : (j 0).val = 10000 * t.val + (x 0).val) (h1 : (j 1).val = (x 1).val) :
    (((cfg2.win 3).blk t).view.read (Elt Ideal) X : S10000x10.Idx → EReal) x = (X : S100000x10.Idx → EReal) j := by
  obtain ⟨-, -, -, -, -, -, e0, e1⟩ := idx_facts2 t
  rw [View.read_apply]
  show X _ = X _
  congr 1
  funext a
  apply Fin.ext
  match a with
  | ⟨0, _⟩ => show win2_3.index t 0 * 10000 + 1 * (x 0).val = (j 0).val; rw [e0, h0]; omega
  | ⟨1, _⟩ => show win2_3.index t 1 * 10 + 1 * (x 1).val = (j 1).val; rw [e1, h1]; omega

/-- The bias row's block is the whole row at every point. -/
theorem bias_whole2 (c : Dev nD) (X : Buf (Elt Ideal) ((c : Thread nD τ).loc main_v31)) (t : Fin cfg2.N) (x : S1x32.Idx) :
    (((cfg2.win 1).blk t).view.read (Elt Ideal) X : S1x32.Idx → EReal) x = (X : S1x32.Idx → EReal) x := by
  obtain ⟨-, -, e0, e1, -⟩ := idx_facts2 t
  rw [View.read_apply]
  show X _ = X _
  congr 1
  funext a
  apply Fin.ext
  match a with
  | ⟨0, _⟩ => show win2_1.index t 0 * 1 + 1 * (x 0).val = (x 0).val; rw [e0]; omega
  | ⟨1, _⟩ => show win2_1.index t 1 * 32 + 1 * (x 1).val = (x 1).val; rw [e1]; omega

/-- The weights' block is the whole matrix at every point. -/
theorem weights_whole2 (c : Dev nD) (X : Buf (Elt Ideal) ((c : Thread nD τ).loc main_arg6)) (t : Fin cfg2.N) :
    (((cfg2.win 2).blk t).view.read (Elt Ideal) X : S32x10.Idx → EReal) = (X : S32x10.Idx → EReal) := by
  obtain ⟨-, -, -, -, e0, e1, -⟩ := idx_facts2 t
  funext x
  rw [View.read_apply]
  show X _ = X _
  congr 1
  funext a
  apply Fin.ext
  match a with
  | ⟨0, _⟩ => show win2_2.index t 0 * 32 + 1 * (x 0).val = (x 0).val; rw [e0]; omega
  | ⟨1, _⟩ => show win2_2.index t 1 * 10 + 1 * (x 1).val = (x 1).val; rw [e1]; omega

/-- What point `t` writes back is block `t` of the layer of the entry arrays. -/
theorem flushed_eq2 (c : Dev nD) (b : Cert.Spec.FArr (F := Ideal) Cert.ReferenceIdeal.S32)
    (hb : ∀ q : Fin 32, (V c main_v31 : S1x32.Idx → EReal) (ix2 0 q) = b (ix1 q)) (t : Fin cfg2.N) :
    (dat2 V c).flushed 3 t = ((cfg2.win 3).blk t).view.read (Elt Ideal) (Cert.Spec.layer3 (V c main_v60) b (V c main_arg6)) := by
  have hN : t.val < 10 := lt_of_lt_of_eq t.isLt (show cfg2.N = 10 from N_2)
  show (cfg2.win 3).cut (grid2.coords t) ((dat2 V c).after 3 t) = _
  rw [after2_3]
  unfold out2_3
  rw [View.canon_unit_zero hz2_2]
  simp only [View.ld_unit_zero (S := S10000x32) hz2_2, View.ld_unit_zero (S := S1x32) hz2_2, View.ld_unit_zero (S := S32x10) hz2_2]
  funext y
  obtain ⟨p, q, rfl⟩ : ∃ (p : Fin 10000) (q : Fin 10), y = ix2 p q := ⟨y 0, y 1, eq_ix2 y⟩
  have hW : (iblk2 V c 2 t : S32x10.Idx → EReal) = (V c main_arg6 : S32x10.Idx → EReal) := weights_whole2 c (V c main_arg6) t
  rw [show iblk2 V c 2 t = (V c main_arg6 : S32x10.Idx → EReal) from hW]
  refine (layer3_block (V c main_v60) b (V c main_arg6) (iblk2 V c 1 t) (fun q => (bias_whole2 c (V c main_v31) t (ix2 0 q)).trans (hb q)) ⟨t.val, hN⟩ (iblk2 V c 0 t)
    (fun p k => in_rows2 c (V c main_v60) t (ix2 p k) (ix2 (row ⟨t.val, hN⟩ p) k) rfl rfl) p q).trans ?_
  exact (out_rows2 c _ t (ix2 p q) (ix2 (row ⟨t.val, hN⟩ p) q) rfl rfl).symm

/-- The region's output array ends holding the layer of the arrays the region was entered with. -/
theorem final2 (c : Dev nD) (b : Cert.Spec.FArr (F := Ideal) Cert.ReferenceIdeal.S32)
    (hb : ∀ q : Fin 32, (V c main_v31 : S1x32.Idx → EReal) (ix2 0 q) = b (ix1 q)) :
    (dat2 V c).arrAt 3 cfg2.N = Cert.Spec.layer3 (V c main_v60) b (V c main_arg6) :=
  (dat2 V c).arrAt_eq_of_cover 3 _ (fun t _ => flushed_eq2 V c b hb t) fun i => by
    have hi0 : (i 0).val < 100000 := (i 0).isLt
    have hi1 : (i 1).val < 10 := (i 1).isLt
    have hN : cfg2.N = 10 := N_2
    have ht0 : (i 0).val / 10000 < cfg2.N := by omega
    refine ⟨⟨(i 0).val / 10000, ht0⟩, flush2_3 _, ?_⟩
    obtain ⟨-, -, -, -, -, -, e0, e1⟩ := idx_facts2 ⟨(i 0).val / 10000, ht0⟩
    show i ∈ ((View.whole main_v61).slice (win2_3.rect ⟨(i 0).val / 10000, ht0⟩)).set
    rw [View.set_slice_whole, Rect.mem_set_unit]
    intro a
    match a with
    | ⟨0, _⟩ => show win2_3.index ⟨(i 0).val / 10000, ht0⟩ 0 * 10000 ≤ (i 0).val ∧ (i 0).val < win2_3.index ⟨(i 0).val / 10000, ht0⟩ 0 * 10000 + 10000; rw [e0]; dsimp only; omega
    | ⟨1, _⟩ => show win2_3.index ⟨(i 0).val / 10000, ht0⟩ 1 * 10 ≤ (i 1).val ∧ (i 1).val < win2_3.index ⟨(i 0).val / 10000, ht0⟩ 1 * 10 + 10; rw [e1]; omega

end Cert.KernelIdeal.Hand

end
-- ==== Proof.KI.Val3.lean ====
/-
  The read-out region's values. Each control case of the body leaves in the scratch row the block's payload — the
  scratch's previous contents (zero at the first block) plus the column sums of the block's rows with the bias added —
  and the last block leaves in the output row that sum scaled by the reciprocal of the node count. So after block n the
  scratch row is a ten-step recursion over the blocks, and the region's output array, written back once after the last
  block, is the scaled tenth step.
-/
import proofs.«165814_j17411797418191_1_alg».proof.Proof.KI.Reg3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Dat)

variable (V : (c : Dev nD) → (b : Ref sig .tc) → Buf (Elt F) ((c : Thread nD τ).loc b))

theorem hz2 : (![0, 0] : Fin 2 → Nat) = fun _ => 0 := funext fun a => by fin_cases a <;> rfl

/-- The first block leaves the block's payload over the zeroed row. -/
theorem soutA_eq (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : cond3_0 i) (hc1 : ¬cond3_1 i) (x0 : Vec F S10000x10 .f32) (x1 : Vec F S1x10 .f32) :
    sout3_A_0 c i arg1 harg1 arg2 harg2 arg3 harg3 arg4 harg4 hc0 hc1 x0 x1 = k3_pay2 x0 x1 (k3_pay1 (F := F)) := by
  unfold sout3_A_0
  rw [View.read_writes_eq_canon _ _ _ (scover3_A_0 c i arg1 harg1 arg2 harg2 arg3 harg3 arg4 harg4 hc0 hc1 x0 x1)]
  unfold kernelRun3_A
  dsimp only
  try sl_unfold_words
  refine (View.canon_cons_unit_zero (S := S1x10) hz2 _ _ _).trans ?_
  simp only [View.readAt_eq_ld, harg1.read_unread, harg2.read_unread, View.ld_unit_zero (S := S10000x10) hz2, View.ld_unit_zero (S := S1x10) hz2, View.readCov_unit_zero (S := S1x10) _ hz2]

/-- A middle block leaves the block's payload over what the scratch held. -/
theorem soutB_eq (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : ¬cond3_1 i) (x0 : Vec F S10000x10 .f32) (x1 xs0 : Vec F S1x10 .f32) :
    sout3_B_0 c i arg1 harg1 arg2 harg2 arg3 harg3 arg4 harg4 hc0 hc1 x0 x1 xs0 = k3_pay2 x0 x1 xs0 := by
  unfold sout3_B_0
  rw [View.read_writes_eq_canon _ _ _ (scover3_B_0 c i arg1 harg1 arg2 harg2 arg3 harg3 arg4 harg4 hc0 hc1 x0 x1 xs0)]
  unfold kernelRun3_B
  dsimp only
  try sl_unfold_words
  refine (View.canon_cons_unit_zero (S := S1x10) hz2 _ _ _).trans ?_
  simp only [View.readAt_eq_ld, harg1.read_unread, harg2.read_unread, harg4.read_unread, View.ld_unit_zero (S := S10000x10) hz2, View.ld_unit_zero (S := S1x10) hz2, View.readCov_unit_zero (S := S1x10) _ hz2]

/-- So does the last block, -/
theorem soutC_eq (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : cond3_1 i) (x0 : Vec F S10000x10 .f32) (x1 xs0 : Vec F S1x10 .f32) :
    sout3_C_0 c i arg1 harg1 arg2 harg2 arg3 harg3 arg4 harg4 hc0 hc1 x0 x1 xs0 = k3_pay2 x0 x1 xs0 := by
  unfold sout3_C_0
  rw [View.read_writes_eq_canon _ _ _ (scover3_C_0 c i arg1 harg1 arg2 harg2 arg3 harg3 arg4 harg4 hc0 hc1 x0 x1 xs0)]
  unfold kernelRun3_C
  dsimp only
  try sl_unfold_words
  refine (View.canon_cons_unit_zero (S := S1x10) hz2 _ _ _).trans ?_
  simp only [View.readAt_eq_ld, harg1.read_unread, harg2.read_unread, harg4.read_unread, View.ld_unit_zero (S := S10000x10) hz2, View.ld_unit_zero (S := S1x10) hz2, View.readCov_unit_zero (S := S1x10) _ hz2]

/-- and it stores the scaled new scratch row into the output row. -/
theorem outC_eq (c : Dev nD) (i : grid3.Coords) (arg1 : Memref sig .tc .vmem S10000x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (hc0 : ¬cond3_0 i) (hc1 : cond3_1 i) (x0 : Vec F S10000x10 .f32) (x1 xs0 : Vec F S1x10 .f32) :
    out3_C_2 c i arg1 harg1 arg2 harg2 arg3 harg3 arg4 harg4 hc0 hc1 x0 x1 xs0 = k3_pay3 (k3_pay2 x0 x1 xs0) := by
  unfold out3_C_2
  rw [View.read_writes_eq_canon _ _ _ (cover3_C_2 c i arg1 harg1 arg2 harg2 arg3 harg3 arg4 harg4 hc0 hc1 x0 x1 xs0)]
  unfold kernelRun3_C
  dsimp only
  try sl_unfold_words
  refine (View.canon_cons_unit_zero (S := S1x10) hz2 _ _ _).trans ?_
  simp only [View.readAt_eq_ld, harg1.read_unread, harg2.read_unread, harg4.read_unread, View.ld_unit_zero (S := S10000x10) hz2, View.ld_unit_zero (S := S1x10) hz2, View.readCov_unit_zero (S := S1x10) _ hz2]

/-- The scratch row after block `n`: the payload of block `n`'s inputs over the scratch row after block `n − 1`
    (over the zero row at block 0). -/
def acc3 (c : Dev nD) : (n : ℕ) → n < cfg3.N → Vec F S1x10 .f32
  | 0, hn => k3_pay2 (iblk3 V c 0 ⟨0, hn⟩) (iblk3 V c 1 ⟨0, hn⟩) (k3_pay1 (F := F))
  | n + 1, hn => k3_pay2 (iblk3 V c 0 ⟨n + 1, hn⟩) (iblk3 V c 1 ⟨n + 1, hn⟩) (acc3 c n (Nat.lt_of_succ_lt hn))

theorem outsAt3_snd (c : Dev nD) : ∀ (n : ℕ) (hn : n < cfg3.N), (outsAt3 V c n hn).2 = acc3 V c n hn := by
  intro n
  induction n with
  | zero =>
    intro hn
    have e := outsAt3_A V c ⟨0, hn⟩ (Nat.zero_mod _) (by show ¬ (0 % 10 = 9); decide)
    refine (congrArg Prod.snd e).trans ?_
    dsimp only
    rw [soutA_eq]
    rfl
  | succ n ih =>
    intro hn
    have hN : n + 1 < 10 := lt_of_lt_of_eq hn (show cfg3.N = 10 from N_3)
    have h0 : ¬ (n + 1) % 10 = 0 := by omega
    by_cases h1 : (n + 1) % 10 = 9
    · have e := outsAt3_C V c ⟨n + 1, hn⟩ h0 h1
      refine (congrArg Prod.snd e).trans ?_
      dsimp only
      rw [soutC_eq]
      exact congrArg (k3_pay2 (F := F) _ _) (ih _)
    · have e := outsAt3_B V c ⟨n + 1, hn⟩ h0 h1
      refine (congrArg Prod.snd e).trans ?_
      dsimp only
      rw [soutB_eq]
      exact congrArg (k3_pay2 (F := F) _ _) (ih _)

theorem h9 : 9 < cfg3.N := by rw [show cfg3.N = 10 from N_3]; decide

/-- The region's result row: the tenth scratch row scaled. -/
abbrev result3 (c : Dev nD) : Buf (Elt F) ((c : Thread nD τ).loc main_v75) :=
  k3_pay3 (acc3 V c 9 h9)

/-- What the output row's staging buffer holds after the last block is the result row. -/
theorem after_last3 (c : Dev nD) : (outsAt3 V c t3_9.val t3_9.isLt).1 = result3 V c := by
  rw [outsAt3_C V c t3_9 (by decide) (by decide)]
  dsimp only
  rw [outC_eq]
  refine congrArg (k3_pay3 (F := F)) ?_
  exact congrArg (k3_pay2 (F := F) _ _) (outsAt3_snd V c 8 _)

/-- The one write-back, after the last block, writes the result row: block (0, 0) of the 1×10 array is the array. -/
theorem flushed_eq3 (c : Dev nD) (t : Fin cfg3.N) (hf : (cfg3.win 2).flush t = true) :
    (dat3 V c).flushed 2 t = ((cfg3.win 2).blk t).view.read (Elt F) (result3 V c) := by
  have hN : cfg3.N = 10 := N_3
  have h1 : t.val = 9 := by have := (flush3_2 t).mp hf; have := t.isLt; omega
  obtain rfl : t = t3_9 := Fin.ext h1
  show (cfg3.win 2).cut (grid3.coords t3_9) ((dat3 V c).after 2 t3_9) = _
  rw [after3_2, after_last3]
  have hz' : (fun a => win3_2.index t3_9 a * main_v75.ty.shape.size a) = fun _ => 0 := funext fun a => by fin_cases a <;> decide
  exact (Memref.read_access_unit_zero (Elt F) main_v75 hz' (fun a => by rw [congrFun hz' a]; simp) (result3 V c)).symm

/-- So the region's output array ends holding the result row. -/
theorem final3 (c : Dev nD) : (dat3 V c).arrAt 2 cfg3.N = result3 V c :=
  (dat3 V c).arrAt_eq_of_cover 2 (result3 V c) (flushed_eq3 V c) fun i =>
    ⟨t3_9, (flush3_2 t3_9).mpr rfl, by
      show i ∈ ((View.whole main_v75).slice (win3_2.rect t3_9)).set
      rw [View.set_slice_whole, Rect.mem_set_unit]
      intro a
      have h0 : (i 0 : Nat) < 1 := (i 0).isLt
      have h1 : (i 1 : Nat) < 10 := (i 1).isLt
      match a with
      | ⟨0, _⟩ => show win3_2.index t3_9 0 * win3_2.size 0 ≤ (i 0 : Nat) ∧ (i 0 : Nat) < win3_2.index t3_9 0 * win3_2.size 0 + win3_2.xsize (grid3.coords t3_9) 0
                  rw [show win3_2.index t3_9 0 * win3_2.size 0 = 0 from by decide +kernel, show win3_2.xsize (grid3.coords t3_9) 0 = 1 from by decide +kernel]; omega
      | ⟨1, _⟩ => show win3_2.index t3_9 1 * win3_2.size 1 ≤ (i 1 : Nat) ∧ (i 1 : Nat) < win3_2.index t3_9 1 * win3_2.size 1 + win3_2.xsize (grid3.coords t3_9) 1
                  rw [show win3_2.index t3_9 1 * win3_2.size 1 = 0 from by decide +kernel, show win3_2.xsize (grid3.coords t3_9) 1 = 10 from by decide +kernel]; omega⟩

end Cert.KernelIdeal.Hand

end
-- ==== Proof.MathMean.lean ====
/-
  The read-out, on the extended reals. The block program keeps a running row of ten sums: it starts from zero, each
  block adds, for every column q, the sum over the block's 10000 rows of `x[p, q] + bias[q]`, and after the last block
  the row is multiplied by the real 1/100000. The whole-array read-out adds the bias to every row, sums each column
  over all 100000 rows starting from zero, and divides by 100000. Division by the real 100000 is multiplication by
  1/100000 on every extended real, and a sum over the 100000 rows is the sum over the ten blocks of the sums over
  each block's rows (addition of extended reals is commutative and associative, so no finiteness is needed).
-/
import proofs.«165814_j17411797418191_1_alg».proof.Proof.Gen.KernelIdeal.Skeleton
import proofs.«165814_j17411797418191_1_alg».proof.Proof.Spec
import proofs.«165814_j17411797418191_1_alg».proof.Proof.LibBlockRows
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.Bridge

namespace Mean

/-! ### The two constants -/

/-- The f32 word of `100000.0` (sign 0, exponent 2¹⁶, significand 12800000 / 2²³) denotes the real 100000. -/
theorem ofBits_100000 : Ideal.ofBits .f32 0x47C35000#32 = ((100000 : ℝ) : EReal) := by
  simp [Ideal.ofBits, Ideal.ieee, -EReal.coe_mul]; norm_num

/-- The block program's named reciprocal denotes the real 1/100000, by the table of named constants. -/
theorem inv_100000 :
    Named.named (F := Ideal) Cert.KernelIdeal.κ "inv_100000" (φ := .f32) 0x3727C5AC#32 = ((1 / 100000 : ℝ) : EReal) :=
  IdealRules.named_const.ideal_named_scalar _ _ _ _ rfl

/-- The length-10 bias repeated for every row reads its entry q. -/
theorem bias10_apply (b : Cert.Spec.FArr (F := Ideal) Cert.ReferenceIdeal.S10) (r : Fin 100000) (q : Fin 10) :
    Cert.Spec.bias10 b (ix2 r q) = b (ix1 q) := by
  unfold Cert.Spec.bias10
  refine (broadcastInDim_apply _ _ _ (ix2 r q) (ix2 0 q) (fun a => by match a with | ⟨0, _⟩ => rfl | ⟨1, _⟩ => rfl)).trans ?_
  exact broadcastInDim_apply _ _ b (ix2 0 q) (ix1 q) (fun a => by match a with | ⟨0, _⟩ => rfl)

end Mean

/-! ### The running row of sums -/

/-- The row the first block starts from is zero. -/
theorem acc_init (q : Fin 10) : Cert.KernelIdeal.Gen.k3_pay1 (F := Ideal) (ix2 0 q) = 0 := by
  unfold Cert.KernelIdeal.Gen.k3_pay1
  simp only [shapeCast_self]
  exact Ideal.ofBits_zero_f32

/-- One block's step: column q of the running row gains the sum over the block's rows of `x[p, q] + bias[q]`. -/
theorem acc_step (xb : Vec Ideal Cert.KernelIdeal.S10000x10 .f32) (bk acc : Vec Ideal Cert.KernelIdeal.S1x10 .f32)
    (q : Fin 10) :
    Cert.KernelIdeal.Gen.k3_pay2 (F := Ideal) xb bk acc (ix2 0 q)
      = acc (ix2 0 q) + ∑ p : Fin 10000, (xb (ix2 p q) + bk (ix2 0 q)) := by
  unfold Cert.KernelIdeal.Gen.k3_pay2
  simp only [shapeCast_self, addf_apply]
  refine congrArg (acc (ix2 0 q) + ·) ?_
  -- the length-10 vector of column sums viewed as a 1×10 row: entry (0, q) is entry q
  refine (shapeCast_apply _ _ (ix2 0 q) (ix1 q) ?_).trans ?_
  · rw [Shape.rowMajor_val_one, Shape.rowMajor_val_two]
    show q.val = 0 * 10 + q.val
    omega
  -- the sum over the row axis, from zero, at column q: the sum over the 10000 rows of entry (p, q)
  refine (Ideal.multiReduction_add_single _ _ Cert.KernelIdeal.Facts₀.reduces_S10000x10_S10 _ _ (ix1 q)).trans ?_
  show ∑ k : Fin 10000, _ = _
  refine Finset.sum_congr rfl fun k _ => ?_
  have hl : Cert.KernelIdeal.Facts₀.reduces_S10000x10_S10.lift (ix1 q) k = ix2 k q :=
    funext fun a => Fin.ext (by match a with | ⟨0, _⟩ => rfl | ⟨1, _⟩ => rfl)
  -- the bias row repeated down the block reads the row's entry q
  have hbc : broadcastTo Cert.KernelIdeal.S10000x10 bk Cert.KernelIdeal.Facts₀.broadcasts_S1x10_S10000x10 (ix2 k q) = bk (ix2 0 q) :=
    broadcastTo_apply bk _ (ix2 k q) (ix2 0 q) (fun a => by match a with | ⟨0, _⟩ => rfl | ⟨1, _⟩ => rfl)
  rw [hl, addf_apply, hbc]

/-- The last block's closing step multiplies the running row by the real 1/100000. -/
theorem acc_scale (acc : Vec Ideal Cert.KernelIdeal.S1x10 .f32) (q : Fin 10) :
    Cert.KernelIdeal.Gen.k3_pay3 (F := Ideal) acc (ix2 0 q) = acc (ix2 0 q) * ((1 / 100000 : ℝ) : EReal) := by
  unfold Cert.KernelIdeal.Gen.k3_pay3
  simp only [mulf_apply, broadcast_apply, Mean.inv_100000]

/-! ### The whole-array mean -/

/-- Column q of the mean: the sum, block by block, of `a[10000·t + p, q] + bias[q]`, times the real 1/100000. -/
theorem mean10_apply (A : Cert.Spec.FArr (F := Ideal) Cert.ReferenceIdeal.S100000x10)
    (b : Cert.Spec.FArr (F := Ideal) Cert.ReferenceIdeal.S10) (q : Fin 10) :
    Cert.Spec.mean10 (F := Ideal) A b (ix1 q)
      = (∑ t : Fin 10, ∑ p : Fin 10000, (A (ix2 (row t p) q) + b (ix1 q))) * ((1 / 100000 : ℝ) : EReal) := by
  unfold Cert.Spec.mean10
  show Ideal.div (Ideal.hostReduceAdd Cert.ReferenceIdeal.Facts₀.reducesTo_S100000x10_S10_d0
      (addf A (Cert.Spec.bias10 b)) (Ideal.ofBits .f32 0x00000000#32) (ix1 q)) (Ideal.ofBits .f32 0x47C35000#32) = _
  -- dividing by the real 100000 is multiplying by 1/100000
  rw [Mean.ofBits_100000, Ideal.div_coe (by norm_num : (100000 : ℝ) ≠ 0)]
  refine congrArg (· * ((1 / 100000 : ℝ) : EReal)) ?_
  -- the sum over the row axis, from zero, at column q: the sum over the 100000 rows of entry (r, q)
  have hred : Cert.ReferenceIdeal.S100000x10.Reduces [0] Cert.ReferenceIdeal.S10 := by decide
  refine (Ideal.hostReduceAdd_single Cert.ReferenceIdeal.Facts₀.reducesTo_S100000x10_S10_d0 hred _ _ (ix1 q)).trans ?_
  -- and the rows regrouped into the ten blocks
  rw [Ideal.ofBits_zero_f32, zero_add, ← sum_blockRows (fun r : Fin 100000 => A (ix2 r q) + b (ix1 q))]
  show ∑ k : Fin 100000, _ = _
  refine Finset.sum_congr rfl fun k _ => ?_
  have hl : hred.lift (ix1 q) k = ix2 k q :=
    funext fun a => Fin.ext (by match a with | ⟨0, _⟩ => rfl | ⟨1, _⟩ => rfl)
  rw [hl, addf_apply, Mean.bias10_apply]

end Cert.Bridge

end
-- ==== Proof.KI.Final3.lean ====
/-
  The read-out region's output at the exact reals. After block n the scratch row holds, in column q, the sum over the
  blocks up to n of the block's rows' entries with the bias added (each step adds one block's column sum to what the
  row held, starting from zero); so after the tenth block it holds the sum over all 100000 nodes, and the output row —
  that sum times the reciprocal of the node count — is the reference's mean of the biased aggregate.
-/
import proofs.«165814_j17411797418191_1_alg».proof.Proof.KI.Val3
import proofs.«165814_j17411797418191_1_alg».proof.Proof.MathMean
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Dat)
open Idealize.ShloMosaic.ValueIdx Cert.Bridge
open scoped BigOperators

variable (V : (c : Dev nD) → (b : Ref sig .tc) → Buf (Elt Ideal) ((c : Thread nD τ).loc b))

/-- The printed index maps over the grid: the aggregate's window sits at block (t, 0), the bias row at (0, 0). -/
theorem idx_facts3 : ∀ t : Fin cfg3.N, win3_0.index t 0 = t.val ∧ win3_0.index t 1 = 0 ∧ win3_1.index t 0 = 0 ∧ win3_1.index t 1 = 0 :=
  (by decide +kernel : ∀ t : Fin grid3.N, _)

theorem in_rows3 (c : Dev nD) (X : Buf (Elt Ideal) ((c : Thread nD τ).loc main_v74)) (t : Fin cfg3.N) (x : S10000x10.Idx) (j : S100000x10.Idx)
    (h0 : (j 0).val = 10000 * t.val + (x 0).val) (h1 : (j 1).val = (x 1).val) :
    (((cfg3.win 0).blk t).view.read (Elt Ideal) X : S10000x10.Idx → EReal) x = (X : S100000x10.Idx → EReal) j := by
  obtain ⟨e0, e1, -⟩ := idx_facts3 t
  rw [View.read_apply]
  show X _ = X _
  congr 1
  funext a
  apply Fin.ext
  match a with
  | ⟨0, _⟩ => show win3_0.index t 0 * 10000 + 1 * (x 0).val = (j 0).val; rw [e0, h0]; omega
  | ⟨1, _⟩ => show win3_0.index t 1 * 10 + 1 * (x 1).val = (j 1).val; rw [e1, h1]; omega

theorem bias_whole3 (c : Dev nD) (X : Buf (Elt Ideal) ((c : Thread nD τ).loc main_v32)) (t : Fin cfg3.N) (x : S1x10.Idx) :
    (((cfg3.win 1).blk t).view.read (Elt Ideal) X : S1x10.Idx → EReal) x = (X : S1x10.Idx → EReal) x := by
  obtain ⟨-, -, e0, e1⟩ := idx_facts3 t
  rw [View.read_apply]
  show X _ = X _
  congr 1
  funext a
  apply Fin.ext
  match a with
  | ⟨0, _⟩ => show win3_1.index t 0 * 1 + 1 * (x 0).val = (x 0).val; rw [e0]; omega
  | ⟨1, _⟩ => show win3_1.index t 1 * 10 + 1 * (x 1).val = (x 1).val; rw [e1]; omega

/-- Block `t`'s column sum of the biased aggregate (zero past the tenth block). -/
def blockSum (A : S100000x10.Idx → EReal) (b3 : S10.Idx → EReal) (q : Fin 10) (t : ℕ) : EReal :=
  if h : t < 10 then ∑ p : Fin 10000, (A (ix2 (row ⟨t, h⟩ p) q) + b3 (ix1 q)) else 0

/-- One block's payload adds the block's column sum to what the scratch row held. -/
theorem step3 (c : Dev nD) (b3 : Cert.Spec.FArr (F := Ideal) Cert.ReferenceIdeal.S10)
    (hb : ∀ q : Fin 10, (V c main_v32 : S1x10.Idx → EReal) (ix2 0 q) = b3 (ix1 q)) (q : Fin 10)
    (t : Fin cfg3.N) (a : Vec Ideal S1x10 .f32) :
    k3_pay2 (F := Ideal) (iblk3 V c 0 t) (iblk3 V c 1 t) a (ix2 0 q) = a (ix2 0 q) + blockSum (V c main_v74) b3 q t.val := by
  have hN : t.val < 10 := lt_of_lt_of_eq t.isLt (show cfg3.N = 10 from N_3)
  rw [acc_step]
  unfold blockSum
  rw [dif_pos hN]
  refine congrArg (a (ix2 0 q) + ·) (Finset.sum_congr rfl fun p _ => ?_)
  have e1 : (iblk3 V c 0 t : S10000x10.Idx → EReal) (ix2 p q) = (V c main_v74 : S100000x10.Idx → EReal) (ix2 (row ⟨t.val, hN⟩ p) q) :=
    in_rows3 c (V c main_v74) t (ix2 p q) (ix2 (row ⟨t.val, hN⟩ p) q) rfl rfl
  have e2 : (iblk3 V c 1 t : S1x10.Idx → EReal) (ix2 0 q) = b3 (ix1 q) :=
    (bias_whole3 c (V c main_v32) t (ix2 0 q)).trans (hb q)
  rw [e1, e2]

/-- The scratch row after block `n`: the column sums of the blocks up to `n`. -/
theorem acc3_apply (c : Dev nD) (b3 : Cert.Spec.FArr (F := Ideal) Cert.ReferenceIdeal.S10)
    (hb : ∀ q : Fin 10, (V c main_v32 : S1x10.Idx → EReal) (ix2 0 q) = b3 (ix1 q)) (q : Fin 10) :
    ∀ (n : ℕ) (hn : n < cfg3.N), acc3 V c n hn (ix2 0 q) = ∑ t ∈ Finset.range (n + 1), blockSum (V c main_v74) b3 q t := by
  intro n
  induction n with
  | zero =>
    intro hn
    show k3_pay2 (F := Ideal) (iblk3 V c 0 ⟨0, hn⟩) (iblk3 V c 1 ⟨0, hn⟩) (k3_pay1 (F := Ideal)) (ix2 0 q) = _
    rw [step3 V c b3 hb q ⟨0, hn⟩, acc_init, zero_add, Finset.sum_range_one]
  | succ n ih =>
    intro hn
    show k3_pay2 (F := Ideal) (iblk3 V c 0 ⟨n + 1, hn⟩) (iblk3 V c 1 ⟨n + 1, hn⟩) (acc3 V c n (Nat.lt_of_succ_lt hn)) (ix2 0 q) = _
    rw [step3 V c b3 hb q ⟨n + 1, hn⟩, ih, Finset.sum_range_succ _ (n + 1)]

/-- The region's output row is the reference's mean of the biased aggregate. -/
theorem final3_apply (c : Dev nD) (b3 : Cert.Spec.FArr (F := Ideal) Cert.ReferenceIdeal.S10)
    (hb : ∀ q : Fin 10, (V c main_v32 : S1x10.Idx → EReal) (ix2 0 q) = b3 (ix1 q)) (q : Fin 10) :
    ((dat3 V c).arrAt 2 cfg3.N : S1x10.Idx → EReal) (ix2 0 q) = Cert.Spec.mean10 (F := Ideal) (V c main_v74) b3 (ix1 q) := by
  rw [final3]
  show k3_pay3 (F := Ideal) (acc3 V c 9 h9) (ix2 0 q) = _
  rw [acc_scale, acc3_apply V c b3 hb q 9 h9, mean10_apply]
  refine congrArg (· * _) ?_
  rw [← Fin.sum_univ_eq_sum_range (fun t => blockSum (V c main_v74) b3 q t) 10]
  refine Finset.sum_congr rfl fun t _ => ?_
  unfold blockSum
  rw [dif_pos t.isLt]

end Cert.KernelIdeal.Hand

end
-- ==== Proof.RefStages.lean ====
/-
  The reference program's operations cut into ten consecutive stretches — the graph's index vectors and edge weights
  (three stretches), then for each of the three layers the dense product, the gather-scale-scatter aggregation and the
  bias/rectifier part, ending with the mean — so that what a stretch writes can be stated as a function of what it finds,
  and a buffer a stretch does not write is carried across it.
-/
import proofs.«165814_j17411797418191_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

local notation:max "𝒞[" S ", " e "]" => BufTy.Contents (Elt F) (BufTy.mk S e)

/-- Running two stretches one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

abbrev RS0 : List (HloOp τ sig (Elt F)) :=
  [ StableHlo.nullary main_v0 (iotaInDim S100000 32 0),
    StableHlo.unary main_arg1 main_v1 ((extractStridedSlice S1x3200000 ![0, 0] · slices_S2x3200000_S1x3200000_0_0) : 𝒞[S2x3200000, .i32] → 𝒞[S1x3200000, .i32]),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : 𝒞[S3200000, .i32] → 𝒞[S100000, .i32] → 𝒞[S3300000, .i32]),
    StableHlo.unary main_arg1 main_v4 ((extractStridedSlice S1x3200000 ![1, 0] · slices_S2x3200000_S1x3200000_1_0) : 𝒞[S2x3200000, .i32] → 𝒞[S1x3200000, .i32]),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : 𝒞[S3200000, .i32] → 𝒞[S100000, .i32] → 𝒞[S3300000, .i32]),
    StableHlo.nullary main_cst (constant S_ .f32 0x3F800000#32),
    StableHlo.unary main_cst main_v7 (broadcastInDim S3300000 ![] bcast_S_S3300000 : 𝒞[S_, .f32] → 𝒞[S3300000, .f32]),
    StableHlo.nullary main_cst_0 (constant S_ .f32 0x00000000#32),
    StableHlo.unary main_cst_0 main_v8 (broadcastInDim S100000 ![] bcast_S_S100000 : 𝒞[S_, .f32] → 𝒞[S100000, .f32]),
    StableHlo.unary main_v6 main_v9 (broadcastInDim S3300000x1 ![0] bcast_S3300000_S3300000x1_0 : 𝒞[S3300000, .i32] → 𝒞[S3300000x1, .i32]),
    StableHlo.ternary main_v8 main_v9 main_v7 main_v10 ((fun x i u => Host.scatterAdd scatter_S100000_S3300000x1_S3300000_n_0_0_1 x i u) : 𝒞[S100000, .f32] → 𝒞[S3300000x1, .i32] → 𝒞[S3300000, .f32] → 𝒞[S100000, .f32]),
    StableHlo.nullary main_cst_1 (constant S_ .f32 0x00000000#32),
    StableHlo.unary main_cst_1 main_v11 (broadcastInDim S100000 ![] bcast_S_S100000 : 𝒞[S_, .f32] → 𝒞[S100000, .f32]),
    StableHlo.binary main_v10 main_v11 main_v12 (cmpf .ogt : 𝒞[S100000, .f32] → 𝒞[S100000, .f32] → 𝒞[S100000, .i1]),
    StableHlo.unary main_v10 main_v13 (Host.rsqrt : 𝒞[S100000, .f32] → 𝒞[S100000, .f32]),
    StableHlo.nullary main_cst_2 (constant S_ .f32 0x00000000#32) ]
abbrev RS0_W : List (Ref sig .tc) := [main_v0, main_v1, main_v2, main_v3, main_v4, main_v5, main_v6, main_cst, main_v7, main_cst_0, main_v8, main_v9, main_v10, main_cst_1, main_v11, main_v12, main_v13, main_cst_2]
theorem RS0_writes : (RS0 : List (HloOp τ sig (Elt F))).Forall fun op => op.writes ⊆ (RS0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem RS0_keep (W : Valuation τ sig (Elt F)) (r : Ref sig .tc) (h : r ∉ RS0_W) : after RS0 W (Proc.devRef .tc r) = W (Proc.devRef .tc r) :=
  after_of_writes_sub RS0 W RS0_writes h

abbrev RS1 : List (HloOp τ sig (Elt F)) :=
  [ StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select ]
abbrev RS1_W : List (Ref sig .tc) := [main_call0_v0, main_call0_v1, main_v14]
theorem RS1_writes : (RS1 : List (HloOp τ sig (Elt F))).Forall fun op => op.writes ⊆ (RS1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem RS1_keep (W : Valuation τ sig (Elt F)) (r : Ref sig .tc) (h : r ∉ RS1_W) : after RS1 W (Proc.devRef .tc r) = W (Proc.devRef .tc r) :=
  after_of_writes_sub RS1 W RS1_writes h

abbrev RS2 : List (HloOp τ sig (Elt F)) :=
  [ StableHlo.nullary main_c (constantI S_ 32 0#32),
    StableHlo.unary main_c main_v15 (broadcastInDim S3300000 ![] bcast_S_S3300000 : 𝒞[S_, .i32] → 𝒞[S3300000, .i32]),
    StableHlo.binary main_v3 main_v15 main_v16 (cmpi .slt : 𝒞[S3300000, .i32] → 𝒞[S3300000, .i32] → 𝒞[S3300000, .i1]),
    StableHlo.nullary main_c_3 (constantI S_ 32 100000#32),
    StableHlo.unary main_c_3 main_v17 (broadcastInDim S3300000 ![] bcast_S_S3300000 : 𝒞[S_, .i32] → 𝒞[S3300000, .i32]),
    StableHlo.binary main_v3 main_v17 main_v18 (addi : 𝒞[S3300000, .i32] → 𝒞[S3300000, .i32] → 𝒞[S3300000, .i32]),
    StableHlo.ternary main_v16 main_v18 main_v3 main_v19 (select : 𝒞[S3300000, .i1] → 𝒞[S3300000, .i32] → 𝒞[S3300000, .i32] → 𝒞[S3300000, .i32]),
    StableHlo.unary main_v19 main_v20 (broadcastInDim S3300000x1 ![0] bcast_S3300000_S3300000x1_0 : 𝒞[S3300000, .i32] → 𝒞[S3300000x1, .i32]),
    StableHlo.binary main_v14 main_v20 main_v21 ((fun x i => Host.gather gather_S100000_S3300000x1_S3300000_n_0_n_n_0_1_1 x i) : 𝒞[S100000, .f32] → 𝒞[S3300000x1, .i32] → 𝒞[S3300000, .f32]),
    StableHlo.nullary main_c_4 (constantI S_ 32 0#32),
    StableHlo.unary main_c_4 main_v22 (broadcastInDim S3300000 ![] bcast_S_S3300000 : 𝒞[S_, .i32] → 𝒞[S3300000, .i32]),
    StableHlo.binary main_v6 main_v22 main_v23 (cmpi .slt : 𝒞[S3300000, .i32] → 𝒞[S3300000, .i32] → 𝒞[S3300000, .i1]),
    StableHlo.nullary main_c_5 (constantI S_ 32 100000#32),
    StableHlo.unary main_c_5 main_v24 (broadcastInDim S3300000 ![] bcast_S_S3300000 : 𝒞[S_, .i32] → 𝒞[S3300000, .i32]),
    StableHlo.binary main_v6 main_v24 main_v25 (addi : 𝒞[S3300000, .i32] → 𝒞[S3300000, .i32] → 𝒞[S3300000, .i32]),
    StableHlo.ternary main_v23 main_v25 main_v6 main_v26 (select : 𝒞[S3300000, .i1] → 𝒞[S3300000, .i32] → 𝒞[S3300000, .i32] → 𝒞[S3300000, .i32]),
    StableHlo.unary main_v26 main_v27 (broadcastInDim S3300000x1 ![0] bcast_S3300000_S3300000x1_0 : 𝒞[S3300000, .i32] → 𝒞[S3300000x1, .i32]),
    StableHlo.binary main_v14 main_v27 main_v28 ((fun x i => Host.gather gather_S100000_S3300000x1_S3300000_n_0_n_n_0_1_1 x i) : 𝒞[S100000, .f32] → 𝒞[S3300000x1, .i32] → 𝒞[S3300000, .f32]),
    StableHlo.binary main_v21 main_v28 main_v29 (mulf : 𝒞[S3300000, .f32] → 𝒞[S3300000, .f32] → 𝒞[S3300000, .f32]) ]
abbrev RS2_W : List (Ref sig .tc) := [main_c, main_v15, main_v16, main_c_3, main_v17, main_v18, main_v19, main_v20, main_v21, main_c_4, main_v22, main_v23, main_c_5, main_v24, main_v25, main_v26, main_v27, main_v28, main_v29]
theorem RS2_writes : (RS2 : List (HloOp τ sig (Elt F))).Forall fun op => op.writes ⊆ (RS2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem RS2_keep (W : Valuation τ sig (Elt F)) (r : Ref sig .tc) (h : r ∉ RS2_W) : after RS2 W (Proc.devRef .tc r) = W (Proc.devRef .tc r) :=
  after_of_writes_sub RS2 W RS2_writes h

abbrev RD1 : List (HloOp τ sig (Elt F)) :=
  [ StableHlo.binary main_arg0 main_arg2 main_v30 ((fun l r => Host.dotGeneral dot_S100000x1_S1x64_S100000x64_1_0_0_1_n_n none l r) : 𝒞[S100000x1, .f32] → 𝒞[S1x64, .f32] → 𝒞[S100000x64, .f32]) ]
abbrev RD1_W : List (Ref sig .tc) := [main_v30]
theorem RD1_writes : (RD1 : List (HloOp τ sig (Elt F))).Forall fun op => op.writes ⊆ (RD1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RD1_keep (W : Valuation τ sig (Elt F)) (r : Ref sig .tc) (h : r ∉ RD1_W) : after RD1 W (Proc.devRef .tc r) = W (Proc.devRef .tc r) :=
  after_of_writes_sub RD1 W RD1_writes h

abbrev RA1 : List (HloOp τ sig (Elt F)) :=
  [ StableHlo.nullary main_c_6 (constantI S_ 32 0#32),
    StableHlo.unary main_c_6 main_v31 (broadcastInDim S3300000 ![] bcast_S_S3300000 : 𝒞[S_, .i32] → 𝒞[S3300000, .i32]),
    StableHlo.binary main_v3 main_v31 main_v32 (cmpi .slt : 𝒞[S3300000, .i32] → 𝒞[S3300000, .i32] → 𝒞[S3300000, .i1]),
    StableHlo.nullary main_c_7 (constantI S_ 32 100000#32),
    StableHlo.unary main_c_7 main_v33 (broadcastInDim S3300000 ![] bcast_S_S3300000 : 𝒞[S_, .i32] → 𝒞[S3300000, .i32]),
    StableHlo.binary main_v3 main_v33 main_v34 (addi : 𝒞[S3300000, .i32] → 𝒞[S3300000, .i32] → 𝒞[S3300000, .i32]),
    StableHlo.ternary main_v32 main_v34 main_v3 main_v35 (select : 𝒞[S3300000, .i1] → 𝒞[S3300000, .i32] → 𝒞[S3300000, .i32] → 𝒞[S3300000, .i32]),
    StableHlo.unary main_v35 main_v36 (broadcastInDim S3300000x1 ![0] bcast_S3300000_S3300000x1_0 : 𝒞[S3300000, .i32] → 𝒞[S3300000x1, .i32]),
    StableHlo.binary main_v30 main_v36 main_v37 ((fun x i => Host.gather gather_S100000x64_S3300000x1_S3300000x64_1_0_n_n_0_1_164 x i) : 𝒞[S100000x64, .f32] → 𝒞[S3300000x1, .i32] → 𝒞[S3300000x64, .f32]),
    StableHlo.unary main_v29 main_v38 (broadcastInDim S3300000x1 ![0] bcast_S3300000_S3300000x1_0 : 𝒞[S3300000, .f32] → 𝒞[S3300000x1, .f32]),
    StableHlo.unary main_v38 main_v39 (broadcastInDim S3300000x64 ![0, 1] bcast_S3300000x1_S3300000x64_0_1 : 𝒞[S3300000x1, .f32] → 𝒞[S3300000x64, .f32]),
    StableHlo.binary main_v37 main_v39 main_v40 (mulf : 𝒞[S3300000x64, .f32] → 𝒞[S3300000x64, .f32] → 𝒞[S3300000x64, .f32]),
    StableHlo.nullary main_cst_8 (constant S_ .f32 0x00000000#32),
    StableHlo.unary main_cst_8 main_v41 (broadcastInDim S100000x64 ![] bcast_S_S100000x64 : 𝒞[S_, .f32] → 𝒞[S100000x64, .f32]),
    StableHlo.unary main_v6 main_v42 (broadcastInDim S3300000x1 ![0] bcast_S3300000_S3300000x1_0 : 𝒞[S3300000, .i32] → 𝒞[S3300000x1, .i32]),
    StableHlo.ternary main_v41 main_v42 main_v40 main_v43 ((fun x i u => Host.scatterAdd scatter_S100000x64_S3300000x1_S3300000x64_1_0_0_1 x i u) : 𝒞[S100000x64, .f32] → 𝒞[S3300000x1, .i32] → 𝒞[S3300000x64, .f32] → 𝒞[S100000x64, .f32]) ]
abbrev RA1_W : List (Ref sig .tc) := [main_c_6, main_v31, main_v32, main_c_7, main_v33, main_v34, main_v35, main_v36, main_v37, main_v38, main_v39, main_v40, main_cst_8, main_v41, main_v42, main_v43]
theorem RA1_writes : (RA1 : List (HloOp τ sig (Elt F))).Forall fun op => op.writes ⊆ (RA1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem RA1_keep (W : Valuation τ sig (Elt F)) (r : Ref sig .tc) (h : r ∉ RA1_W) : after RA1 W (Proc.devRef .tc r) = W (Proc.devRef .tc r) :=
  after_of_writes_sub RA1 W RA1_writes h

abbrev RT1 : List (HloOp τ sig (Elt F)) :=
  [ StableHlo.unary main_arg3 main_v44 (broadcastInDim S1x64 ![1] bcast_S64_S1x64_1 : 𝒞[S64, .f32] → 𝒞[S1x64, .f32]),
    StableHlo.unary main_v44 main_v45 (broadcastInDim S100000x64 ![0, 1] bcast_S1x64_S100000x64_0_1 : 𝒞[S1x64, .f32] → 𝒞[S100000x64, .f32]),
    StableHlo.binary main_v43 main_v45 main_v46 (addf : 𝒞[S100000x64, .f32] → 𝒞[S100000x64, .f32] → 𝒞[S100000x64, .f32]),
    StableHlo.nullary main_cst_9 (constant S_ .f32 0x3DCCCCCD#32),
    StableHlo.TRef.nullary main_call1.cst (constant S_ .f32 0x00000000#32),
    StableHlo.TRef.unary main_call1.cst main_call1.v0 (broadcastInDim S100000x64 ![] bcast_S_S100000x64),
    StableHlo.TRef.binary (.of main_v46 : StableHlo.TRef sig ⟨S100000x64, .f32⟩) main_call1.v0 main_call1.v1 (cmpf .oge),
    StableHlo.TRef.unary (.of main_cst_9 : StableHlo.TRef sig ⟨S_, .f32⟩) main_call1.v2 id,
    StableHlo.TRef.unary main_call1.v2 main_call1.v3 (broadcastInDim S100000x64 ![] bcast_S_S100000x64),
    StableHlo.TRef.binary main_call1.v3 (.of main_v46 : StableHlo.TRef sig ⟨S100000x64, .f32⟩) main_call1.v4 mulf,
    StableHlo.TRef.ternary main_call1.v1 (.of main_v46 : StableHlo.TRef sig ⟨S100000x64, .f32⟩) main_call1.v4 main_call1.call0.v0 select,
    StableHlo.binary main_v47 main_arg4 main_v48 ((fun l r => Host.dotGeneral dot_S100000x64_S64x32_S100000x32_1_0_0_1_n_n none l r) : 𝒞[S100000x64, .f32] → 𝒞[S64x32, .f32] → 𝒞[S100000x32, .f32]) ]
abbrev RT1_W : List (Ref sig .tc) := [main_v44, main_v45, main_v46, main_cst_9, main_call1_cst, main_call1_v0, main_call1_v1, main_call1_v2, main_call1_v3, main_call1_v4, main_v47, main_v48]
theorem RT1_writes : (RT1 : List (HloOp τ sig (Elt F))).Forall fun op => op.writes ⊆ (RT1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem RT1_keep (W : Valuation τ sig (Elt F)) (r : Ref sig .tc) (h : r ∉ RT1_W) : after RT1 W (Proc.devRef .tc r) = W (Proc.devRef .tc r) :=
  after_of_writes_sub RT1 W RT1_writes h

abbrev RA2 : List (HloOp τ sig (Elt F)) :=
  [ StableHlo.nullary main_c_10 (constantI S_ 32 0#32),
    StableHlo.unary main_c_10 main_v49 (broadcastInDim S3300000 ![] bcast_S_S3300000 : 𝒞[S_, .i32] → 𝒞[S3300000, .i32]),
    StableHlo.binary main_v3 main_v49 main_v50 (cmpi .slt : 𝒞[S3300000, .i32] → 𝒞[S3300000, .i32] → 𝒞[S3300000, .i1]),
    StableHlo.nullary main_c_11 (constantI S_ 32 100000#32),
    StableHlo.unary main_c_11 main_v51 (broadcastInDim S3300000 ![] bcast_S_S3300000 : 𝒞[S_, .i32] → 𝒞[S3300000, .i32]),
    StableHlo.binary main_v3 main_v51 main_v52 (addi : 𝒞[S3300000, .i32] → 𝒞[S3300000, .i32] → 𝒞[S3300000, .i32]),
    StableHlo.ternary main_v50 main_v52 main_v3 main_v53 (select : 𝒞[S3300000, .i1] → 𝒞[S3300000, .i32] → 𝒞[S3300000, .i32] → 𝒞[S3300000, .i32]),
    StableHlo.unary main_v53 main_v54 (broadcastInDim S3300000x1 ![0] bcast_S3300000_S3300000x1_0 : 𝒞[S3300000, .i32] → 𝒞[S3300000x1, .i32]),
    StableHlo.binary main_v48 main_v54 main_v55 ((fun x i => Host.gather gather_S100000x32_S3300000x1_S3300000x32_1_0_n_n_0_1_132 x i) : 𝒞[S100000x32, .f32] → 𝒞[S3300000x1, .i32] → 𝒞[S3300000x32, .f32]),
    StableHlo.unary main_v29 main_v56 (broadcastInDim S3300000x1 ![0] bcast_S3300000_S3300000x1_0 : 𝒞[S3300000, .f32] → 𝒞[S3300000x1, .f32]),
    StableHlo.unary main_v56 main_v57 (broadcastInDim S3300000x32 ![0, 1] bcast_S3300000x1_S3300000x32_0_1 : 𝒞[S3300000x1, .f32] → 𝒞[S3300000x32, .f32]),
    StableHlo.binary main_v55 main_v57 main_v58 (mulf : 𝒞[S3300000x32, .f32] → 𝒞[S3300000x32, .f32] → 𝒞[S3300000x32, .f32]),
    StableHlo.nullary main_cst_12 (constant S_ .f32 0x00000000#32),
    StableHlo.unary main_cst_12 main_v59 (broadcastInDim S100000x32 ![] bcast_S_S100000x32 : 𝒞[S_, .f32] → 𝒞[S100000x32, .f32]),
    StableHlo.unary main_v6 main_v60 (broadcastInDim S3300000x1 ![0] bcast_S3300000_S3300000x1_0 : 𝒞[S3300000, .i32] → 𝒞[S3300000x1, .i32]),
    StableHlo.ternary main_v59 main_v60 main_v58 main_v61 ((fun x i u => Host.scatterAdd scatter_S100000x32_S3300000x1_S3300000x32_1_0_0_1 x i u) : 𝒞[S100000x32, .f32] → 𝒞[S3300000x1, .i32] → 𝒞[S3300000x32, .f32] → 𝒞[S100000x32, .f32]) ]
abbrev RA2_W : List (Ref sig .tc) := [main_c_10, main_v49, main_v50, main_c_11, main_v51, main_v52, main_v53, main_v54, main_v55, main_v56, main_v57, main_v58, main_cst_12, main_v59, main_v60, main_v61]
theorem RA2_writes : (RA2 : List (HloOp τ sig (Elt F))).Forall fun op => op.writes ⊆ (RA2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem RA2_keep (W : Valuation τ sig (Elt F)) (r : Ref sig .tc) (h : r ∉ RA2_W) : after RA2 W (Proc.devRef .tc r) = W (Proc.devRef .tc r) :=
  after_of_writes_sub RA2 W RA2_writes h

abbrev RT2 : List (HloOp τ sig (Elt F)) :=
  [ StableHlo.unary main_arg5 main_v62 (broadcastInDim S1x32 ![1] bcast_S32_S1x32_1 : 𝒞[S32, .f32] → 𝒞[S1x32, .f32]),
    StableHlo.unary main_v62 main_v63 (broadcastInDim S100000x32 ![0, 1] bcast_S1x32_S100000x32_0_1 : 𝒞[S1x32, .f32] → 𝒞[S100000x32, .f32]),
    StableHlo.binary main_v61 main_v63 main_v64 (addf : 𝒞[S100000x32, .f32] → 𝒞[S100000x32, .f32] → 𝒞[S100000x32, .f32]),
    StableHlo.nullary main_cst_13 (constant S_ .f32 0x3DCCCCCD#32),
    StableHlo.TRef.nullary main_call2.cst (constant S_ .f32 0x00000000#32),
    StableHlo.TRef.unary main_call2.cst main_call2.v0 (broadcastInDim S100000x32 ![] bcast_S_S100000x32),
    StableHlo.TRef.binary (.of main_v64 : StableHlo.TRef sig ⟨S100000x32, .f32⟩) main_call2.v0 main_call2.v1 (cmpf .oge),
    StableHlo.TRef.unary (.of main_cst_13 : StableHlo.TRef sig ⟨S_, .f32⟩) main_call2.v2 id,
    StableHlo.TRef.unary main_call2.v2 main_call2.v3 (broadcastInDim S100000x32 ![] bcast_S_S100000x32),
    StableHlo.TRef.binary main_call2.v3 (.of main_v64 : StableHlo.TRef sig ⟨S100000x32, .f32⟩) main_call2.v4 mulf,
    StableHlo.TRef.ternary main_call2.v1 (.of main_v64 : StableHlo.TRef sig ⟨S100000x32, .f32⟩) main_call2.v4 main_call2.call0.v0 select,
    StableHlo.binary main_v65 main_arg6 main_v66 ((fun l r => Host.dotGeneral dot_S100000x32_S32x10_S100000x10_1_0_0_1_n_n none l r) : 𝒞[S100000x32, .f32] → 𝒞[S32x10, .f32] → 𝒞[S100000x10, .f32]) ]
abbrev RT2_W : List (Ref sig .tc) := [main_v62, main_v63, main_v64, main_cst_13, main_call2_cst, main_call2_v0, main_call2_v1, main_call2_v2, main_call2_v3, main_call2_v4, main_v65, main_v66]
theorem RT2_writes : (RT2 : List (HloOp τ sig (Elt F))).Forall fun op => op.writes ⊆ (RT2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem RT2_keep (W : Valuation τ sig (Elt F)) (r : Ref sig .tc) (h : r ∉ RT2_W) : after RT2 W (Proc.devRef .tc r) = W (Proc.devRef .tc r) :=
  after_of_writes_sub RT2 W RT2_writes h

abbrev RA3 : List (HloOp τ sig (Elt F)) :=
  [ StableHlo.nullary main_c_14 (constantI S_ 32 0#32),
    StableHlo.unary main_c_14 main_v67 (broadcastInDim S3300000 ![] bcast_S_S3300000 : 𝒞[S_, .i32] → 𝒞[S3300000, .i32]),
    StableHlo.binary main_v3 main_v67 main_v68 (cmpi .slt : 𝒞[S3300000, .i32] → 𝒞[S3300000, .i32] → 𝒞[S3300000, .i1]),
    StableHlo.nullary main_c_15 (constantI S_ 32 100000#32),
    StableHlo.unary main_c_15 main_v69 (broadcastInDim S3300000 ![] bcast_S_S3300000 : 𝒞[S_, .i32] → 𝒞[S3300000, .i32]),
    StableHlo.binary main_v3 main_v69 main_v70 (addi : 𝒞[S3300000, .i32] → 𝒞[S3300000, .i32] → 𝒞[S3300000, .i32]),
    StableHlo.ternary main_v68 main_v70 main_v3 main_v71 (select : 𝒞[S3300000, .i1] → 𝒞[S3300000, .i32] → 𝒞[S3300000, .i32] → 𝒞[S3300000, .i32]),
    StableHlo.unary main_v71 main_v72 (broadcastInDim S3300000x1 ![0] bcast_S3300000_S3300000x1_0 : 𝒞[S3300000, .i32] → 𝒞[S3300000x1, .i32]),
    StableHlo.binary main_v66 main_v72 main_v73 ((fun x i => Host.gather gather_S100000x10_S3300000x1_S3300000x10_1_0_n_n_0_1_110 x i) : 𝒞[S100000x10, .f32] → 𝒞[S3300000x1, .i32] → 𝒞[S3300000x10, .f32]),
    StableHlo.unary main_v29 main_v74 (broadcastInDim S3300000x1 ![0] bcast_S3300000_S3300000x1_0 : 𝒞[S3300000, .f32] → 𝒞[S3300000x1, .f32]),
    StableHlo.unary main_v74 main_v75 (broadcastInDim S3300000x10 ![0, 1] bcast_S3300000x1_S3300000x10_0_1 : 𝒞[S3300000x1, .f32] → 𝒞[S3300000x10, .f32]),
    StableHlo.binary main_v73 main_v75 main_v76 (mulf : 𝒞[S3300000x10, .f32] → 𝒞[S3300000x10, .f32] → 𝒞[S3300000x10, .f32]),
    StableHlo.nullary main_cst_16 (constant S_ .f32 0x00000000#32),
    StableHlo.unary main_cst_16 main_v77 (broadcastInDim S100000x10 ![] bcast_S_S100000x10 : 𝒞[S_, .f32] → 𝒞[S100000x10, .f32]),
    StableHlo.unary main_v6 main_v78 (broadcastInDim S3300000x1 ![0] bcast_S3300000_S3300000x1_0 : 𝒞[S3300000, .i32] → 𝒞[S3300000x1, .i32]),
    StableHlo.ternary main_v77 main_v78 main_v76 main_v79 ((fun x i u => Host.scatterAdd scatter_S100000x10_S3300000x1_S3300000x10_1_0_0_1 x i u) : 𝒞[S100000x10, .f32] → 𝒞[S3300000x1, .i32] → 𝒞[S3300000x10, .f32] → 𝒞[S100000x10, .f32]) ]
abbrev RA3_W : List (Ref sig .tc) := [main_c_14, main_v67, main_v68, main_c_15, main_v69, main_v70, main_v71, main_v72, main_v73, main_v74, main_v75, main_v76, main_cst_16, main_v77, main_v78, main_v79]
theorem RA3_writes : (RA3 : List (HloOp τ sig (Elt F))).Forall fun op => op.writes ⊆ (RA3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem RA3_keep (W : Valuation τ sig (Elt F)) (r : Ref sig .tc) (h : r ∉ RA3_W) : after RA3 W (Proc.devRef .tc r) = W (Proc.devRef .tc r) :=
  after_of_writes_sub RA3 W RA3_writes h

abbrev RT3 : List (HloOp τ sig (Elt F)) :=
  [ StableHlo.unary main_arg7 main_v80 (broadcastInDim S1x10 ![1] bcast_S10_S1x10_1 : 𝒞[S10, .f32] → 𝒞[S1x10, .f32]),
    StableHlo.unary main_v80 main_v81 (broadcastInDim S100000x10 ![0, 1] bcast_S1x10_S100000x10_0_1 : 𝒞[S1x10, .f32] → 𝒞[S100000x10, .f32]),
    StableHlo.binary main_v79 main_v81 main_v82 (addf : 𝒞[S100000x10, .f32] → 𝒞[S100000x10, .f32] → 𝒞[S100000x10, .f32]),
    StableHlo.nullary main_cst_17 (constant S_ .f32 0x00000000#32),
    StableHlo.binary main_v82 main_cst_17 main_v83 ((fun x v => Host.reduceAdd x v reducesTo_S100000x10_S10_d0 h_S_) : 𝒞[S100000x10, .f32] → 𝒞[S_, .f32] → 𝒞[S10, .f32]),
    StableHlo.nullary main_cst_18 (constant S_ .f32 0x47C35000#32),
    StableHlo.unary main_cst_18 main_v84 (broadcastInDim S10 ![] bcast_S_S10 : 𝒞[S_, .f32] → 𝒞[S10, .f32]),
    StableHlo.binary main_v83 main_v84 main_v85 (Host.divf : 𝒞[S10, .f32] → 𝒞[S10, .f32] → 𝒞[S10, .f32]) ]
abbrev RT3_W : List (Ref sig .tc) := [main_v80, main_v81, main_v82, main_cst_17, main_v83, main_cst_18, main_v84, main_v85]
theorem RT3_writes : (RT3 : List (HloOp τ sig (Elt F))).Forall fun op => op.writes ⊆ (RT3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem RT3_keep (W : Valuation τ sig (Elt F)) (r : Ref sig .tc) (h : r ∉ RT3_W) : after RT3 W (Proc.devRef .tc r) = W (Proc.devRef .tc r) :=
  after_of_writes_sub RT3 W RT3_writes h

/-- @main's operations are the ten stretches in order. -/
theorem ops_split : (ops : List (HloOp τ sig (Elt F))) = RS0 ++ RS1 ++ RS2 ++ RD1 ++ RA1 ++ RT1 ++ RA2 ++ RT2 ++ RA3 ++ RT3 := rfl

end Cert.ReferenceIdeal.RefRun

end
-- ==== Proof.SpecAgg.lean ====
/-
  The graph aggregation of one layer as a pure function: gather the source node's row for every edge (negative
  indices wrapped by the node count), scale it by the edge's weight, and scatter-add the scaled rows into the
  destination nodes, starting from zero — spelled with the reference program's own host operations.
-/
import proofs.«165814_j17411797418191_1_alg».proof.Proof.Gen.ReferenceIdeal

noncomputable section

namespace Cert.Spec

open Idealize.ShloMosaic Cert.ReferenceIdeal Cert.ReferenceIdeal.Facts₀

variable {F : FTy → Type} [FloatOps F]

/-- Contents of a float / a 32-bit integer buffer of shape `S`. -/
abbrev FA (S : Shape) : Type := (⟨S, .f32⟩ : BufTy).Contents (Elt F)
abbrev IA (S : Shape) : Type := (⟨S, .i32⟩ : BufTy).Contents (Elt F)

/-- The source index of every edge as a gather index: a negative index has the node count added. -/
def wrapIdx (s : IA (F := F) S3300000) : IA (F := F) S3300000x1 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

def agg64 (T : FA (F := F) S100000x64) (s d : IA (F := F) S3300000) (n : FA (F := F) S3300000) : FA (F := F) S100000x64 :=
  Host.scatterAdd scatter_S100000x64_S3300000x1_S3300000x64_1_0_0_1
    (broadcastInDim S100000x64 ![] bcast_S_S100000x64 (constant (F := F) S_ .f32 0x00000000#32))
    (broadcastInDim S3300000x1 ![0] bcast_S3300000_S3300000x1_0 d)
    (mulf (Host.gather gather_S100000x64_S3300000x1_S3300000x64_1_0_n_n_0_1_164 T (wrapIdx s))
      (broadcastInDim S3300000x64 ![0, 1] bcast_S3300000x1_S3300000x64_0_1 (broadcastInDim S3300000x1 ![0] bcast_S3300000_S3300000x1_0 n)))

def agg32 (T : FA (F := F) S100000x32) (s d : IA (F := F) S3300000) (n : FA (F := F) S3300000) : FA (F := F) S100000x32 :=
  Host.scatterAdd scatter_S100000x32_S3300000x1_S3300000x32_1_0_0_1
    (broadcastInDim S100000x32 ![] bcast_S_S100000x32 (constant (F := F) S_ .f32 0x00000000#32))
    (broadcastInDim S3300000x1 ![0] bcast_S3300000_S3300000x1_0 d)
    (mulf (Host.gather gather_S100000x32_S3300000x1_S3300000x32_1_0_n_n_0_1_132 T (wrapIdx s))
      (broadcastInDim S3300000x32 ![0, 1] bcast_S3300000x1_S3300000x32_0_1 (broadcastInDim S3300000x1 ![0] bcast_S3300000_S3300000x1_0 n)))

def agg10 (T : FA (F := F) S100000x10) (s d : IA (F := F) S3300000) (n : FA (F := F) S3300000) : FA (F := F) S100000x10 :=
  Host.scatterAdd scatter_S100000x10_S3300000x1_S3300000x10_1_0_0_1
    (broadcastInDim S100000x10 ![] bcast_S_S100000x10 (constant (F := F) S_ .f32 0x00000000#32))
    (broadcastInDim S3300000x1 ![0] bcast_S3300000_S3300000x1_0 d)
    (mulf (Host.gather gather_S100000x10_S3300000x1_S3300000x10_1_0_n_n_0_1_110 T (wrapIdx s))
      (broadcastInDim S3300000x10 ![0, 1] bcast_S3300000x1_S3300000x10_0_1 (broadcastInDim S3300000x1 ![0] bcast_S3300000_S3300000x1_0 n)))

end Cert.Spec

end
-- ==== Proof.KI.Stretch.lean ====
/-
  What each stretch of host operations of the kernel's program writes, as a function of what it finds — the three
  gather-scale-scatter stretches are the graph aggregation, the same function the reference applies; the reshapes of the
  bias vectors into rows and of the result row into a vector keep the entries — and, for the stretches that compute the
  graph's index vectors and edge weights, that they compute in the kernel's program exactly what the reference's first
  stretches compute (both are the same operations applied to the edge list).
-/
import proofs.«165814_j17411797418191_1_alg».proof.Proof.Gen.KernelIdeal.Launch
import proofs.«165814_j17411797418191_1_alg».proof.Proof.RefStages
import proofs.«165814_j17411797418191_1_alg».proof.Proof.SpecAgg
import Idealize.ShloMosaic.Lib.ValueIdx
import Idealize.ShloMosaic.Lib.ValueLayout
import Idealize.ShloMosaic.Lib.Pipeline.Value

noncomputable section

namespace Cert.Stretch

open Idealize.ShloMosaic Idealize.ShloMosaic.TcCoe Idealize.SL.Sem Idealize.ShloMosaic.StableHlo Idealize.ShloMosaic.ValueIdx

variable {F : FTy → Type} [FloatOps F] [Named F]
variable (W : Valuation Cert.KernelIdeal.τ Cert.KernelIdeal.sig (Elt F))
variable (W' : Valuation Cert.ReferenceIdeal.τ Cert.ReferenceIdeal.sig (Elt F))

attribute [local irreducible] Host.scatterAdd Host.gather

set_option maxRecDepth 16384 in
theorem KA1_val : after Cert.KernelIdeal.Gen.hostOps1 W (Cert.KernelIdeal.main_v46 : DevRef Cert.KernelIdeal.τ Cert.KernelIdeal.sig) = Cert.Spec.agg64 (W (Cert.KernelIdeal.main_v33 : DevRef Cert.KernelIdeal.τ Cert.KernelIdeal.sig)) (W (Cert.KernelIdeal.main_v3 : DevRef Cert.KernelIdeal.τ Cert.KernelIdeal.sig)) (W (Cert.KernelIdeal.main_v6 : DevRef Cert.KernelIdeal.τ Cert.KernelIdeal.sig)) (W (Cert.KernelIdeal.main_v29 : DevRef Cert.KernelIdeal.τ Cert.KernelIdeal.sig)) := by
  after_results_simp; rfl
set_option maxRecDepth 16384 in
theorem KA2_val : after Cert.KernelIdeal.Gen.hostOps2 W (Cert.KernelIdeal.main_v60 : DevRef Cert.KernelIdeal.τ Cert.KernelIdeal.sig) = Cert.Spec.agg32 (W (Cert.KernelIdeal.main_v47 : DevRef Cert.KernelIdeal.τ Cert.KernelIdeal.sig)) (W (Cert.KernelIdeal.main_v3 : DevRef Cert.KernelIdeal.τ Cert.KernelIdeal.sig)) (W (Cert.KernelIdeal.main_v6 : DevRef Cert.KernelIdeal.τ Cert.KernelIdeal.sig)) (W (Cert.KernelIdeal.main_v29 : DevRef Cert.KernelIdeal.τ Cert.KernelIdeal.sig)) := by
  after_results_simp; rfl
set_option maxRecDepth 16384 in
theorem KA3_val : after Cert.KernelIdeal.Gen.hostOps3 W (Cert.KernelIdeal.main_v74 : DevRef Cert.KernelIdeal.τ Cert.KernelIdeal.sig) = Cert.Spec.agg10 (W (Cert.KernelIdeal.main_v61 : DevRef Cert.KernelIdeal.τ Cert.KernelIdeal.sig)) (W (Cert.KernelIdeal.main_v3 : DevRef Cert.KernelIdeal.τ Cert.KernelIdeal.sig)) (W (Cert.KernelIdeal.main_v6 : DevRef Cert.KernelIdeal.τ Cert.KernelIdeal.sig)) (W (Cert.KernelIdeal.main_v29 : DevRef Cert.KernelIdeal.τ Cert.KernelIdeal.sig)) := by
  after_results_simp; rfl

/-! The graph's index vectors and edge weights: the kernel's program and the reference compute them by the same operations. -/

set_option maxRecDepth 16384 in
theorem G0_v3 (h : W (Cert.KernelIdeal.main_arg1 : DevRef Cert.KernelIdeal.τ Cert.KernelIdeal.sig) = W' (Cert.ReferenceIdeal.main_arg1 : DevRef Cert.ReferenceIdeal.τ Cert.ReferenceIdeal.sig)) :
    after Cert.KernelIdeal.Gen.hostOps0 W (Cert.KernelIdeal.main_v3 : DevRef Cert.KernelIdeal.τ Cert.KernelIdeal.sig) = after Cert.ReferenceIdeal.RefRun.RS0 W' (Cert.ReferenceIdeal.main_v3 : DevRef Cert.ReferenceIdeal.τ Cert.ReferenceIdeal.sig) := by
  after_results; rw [h]; rfl
set_option maxRecDepth 16384 in
theorem G0_v6 (h : W (Cert.KernelIdeal.main_arg1 : DevRef Cert.KernelIdeal.τ Cert.KernelIdeal.sig) = W' (Cert.ReferenceIdeal.main_arg1 : DevRef Cert.ReferenceIdeal.τ Cert.ReferenceIdeal.sig)) :
    after Cert.KernelIdeal.Gen.hostOps0 W (Cert.KernelIdeal.main_v6 : DevRef Cert.KernelIdeal.τ Cert.KernelIdeal.sig) = after Cert.ReferenceIdeal.RefRun.RS0 W' (Cert.ReferenceIdeal.main_v6 : DevRef Cert.ReferenceIdeal.τ Cert.ReferenceIdeal.sig) := by
  after_results; rw [h]; rfl
set_option maxRecDepth 16384 in
theorem G0_v12 (h : W (Cert.KernelIdeal.main_arg1 : DevRef Cert.KernelIdeal.τ Cert.KernelIdeal.sig) = W' (Cert.ReferenceIdeal.main_arg1 : DevRef Cert.ReferenceIdeal.τ Cert.ReferenceIdeal.sig)) :
    after Cert.KernelIdeal.Gen.hostOps0 W (Cert.KernelIdeal.main_v12 : DevRef Cert.KernelIdeal.τ Cert.KernelIdeal.sig) = after Cert.ReferenceIdeal.RefRun.RS0 W' (Cert.ReferenceIdeal.main_v12 : DevRef Cert.ReferenceIdeal.τ Cert.ReferenceIdeal.sig) := by
  after_results; rw [h]; rfl
set_option maxRecDepth 16384 in
theorem G0_v13 (h : W (Cert.KernelIdeal.main_arg1 : DevRef Cert.KernelIdeal.τ Cert.KernelIdeal.sig) = W' (Cert.ReferenceIdeal.main_arg1 : DevRef Cert.ReferenceIdeal.τ Cert.ReferenceIdeal.sig)) :
    after Cert.KernelIdeal.Gen.hostOps0 W (Cert.KernelIdeal.main_v13 : DevRef Cert.KernelIdeal.τ Cert.KernelIdeal.sig) = after Cert.ReferenceIdeal.RefRun.RS0 W' (Cert.ReferenceIdeal.main_v13 : DevRef Cert.ReferenceIdeal.τ Cert.ReferenceIdeal.sig) := by
  after_results; rw [h]; rfl
set_option maxRecDepth 16384 in
theorem G0_cst2 :
    after Cert.KernelIdeal.Gen.hostOps0 W (Cert.KernelIdeal.main_cst_2 : DevRef Cert.KernelIdeal.τ Cert.KernelIdeal.sig) = after Cert.ReferenceIdeal.RefRun.RS0 W' (Cert.ReferenceIdeal.main_cst_2 : DevRef Cert.ReferenceIdeal.τ Cert.ReferenceIdeal.sig) := by
  after_results
set_option maxRecDepth 16384 in
theorem G1_v14 (h12 : W (Cert.KernelIdeal.main_v12 : DevRef Cert.KernelIdeal.τ Cert.KernelIdeal.sig) = W' (Cert.ReferenceIdeal.main_v12 : DevRef Cert.ReferenceIdeal.τ Cert.ReferenceIdeal.sig)) (h13 : W (Cert.KernelIdeal.main_v13 : DevRef Cert.KernelIdeal.τ Cert.KernelIdeal.sig) = W' (Cert.ReferenceIdeal.main_v13 : DevRef Cert.ReferenceIdeal.τ Cert.ReferenceIdeal.sig)) (hc : W (Cert.KernelIdeal.main_cst_2 : DevRef Cert.KernelIdeal.τ Cert.KernelIdeal.sig) = W' (Cert.ReferenceIdeal.main_cst_2 : DevRef Cert.ReferenceIdeal.τ Cert.ReferenceIdeal.sig)) :
    after Cert.KernelIdeal.Gen.hostOps0_1 W (Cert.KernelIdeal.main_v14 : DevRef Cert.KernelIdeal.τ Cert.KernelIdeal.sig) = after Cert.ReferenceIdeal.RefRun.RS1 W' (Cert.ReferenceIdeal.main_v14 : DevRef Cert.ReferenceIdeal.τ Cert.ReferenceIdeal.sig) := by
  after_results_simp
  rw [h12, h13, hc]
set_option maxRecDepth 16384 in
theorem G2_v29 (h3 : W (Cert.KernelIdeal.main_v3 : DevRef Cert.KernelIdeal.τ Cert.KernelIdeal.sig) = W' (Cert.ReferenceIdeal.main_v3 : DevRef Cert.ReferenceIdeal.τ Cert.ReferenceIdeal.sig)) (h6 : W (Cert.KernelIdeal.main_v6 : DevRef Cert.KernelIdeal.τ Cert.KernelIdeal.sig) = W' (Cert.ReferenceIdeal.main_v6 : DevRef Cert.ReferenceIdeal.τ Cert.ReferenceIdeal.sig)) (h14 : W (Cert.KernelIdeal.main_v14 : DevRef Cert.KernelIdeal.τ Cert.KernelIdeal.sig) = W' (Cert.ReferenceIdeal.main_v14 : DevRef Cert.ReferenceIdeal.τ Cert.ReferenceIdeal.sig)) :
    after Cert.KernelIdeal.Gen.hostOps0_2 W (Cert.KernelIdeal.main_v29 : DevRef Cert.KernelIdeal.τ Cert.KernelIdeal.sig) = after Cert.ReferenceIdeal.RefRun.RS2 W' (Cert.ReferenceIdeal.main_v29 : DevRef Cert.ReferenceIdeal.τ Cert.ReferenceIdeal.sig) := by
  after_results_simp
  rw [h3, h6, h14]; rfl

/-! The bias vectors reshaped into rows, and the result row reshaped into a vector, keep their entries. -/

set_option maxRecDepth 16384 in
theorem Kb1 (q : Fin 64) : (after Cert.KernelIdeal.Gen.hostOps0_2 W (Cert.KernelIdeal.main_v30 : DevRef Cert.KernelIdeal.τ Cert.KernelIdeal.sig) : Cert.KernelIdeal.S1x64.Idx → Elt F .f32) (ix2 0 q)
    = (W (Cert.KernelIdeal.main_arg3 : DevRef Cert.KernelIdeal.τ Cert.KernelIdeal.sig) : Cert.KernelIdeal.S64.Idx → Elt F .f32) (ix1 q) := by
  after_results_simp
  exact shapeCast_a_1a_apply _ _ 0 q
set_option maxRecDepth 16384 in
theorem Kb2 (q : Fin 32) : (after Cert.KernelIdeal.Gen.hostOps0_2 W (Cert.KernelIdeal.main_v31 : DevRef Cert.KernelIdeal.τ Cert.KernelIdeal.sig) : Cert.KernelIdeal.S1x32.Idx → Elt F .f32) (ix2 0 q)
    = (W (Cert.KernelIdeal.main_arg5 : DevRef Cert.KernelIdeal.τ Cert.KernelIdeal.sig) : Cert.KernelIdeal.S32.Idx → Elt F .f32) (ix1 q) := by
  after_results_simp
  exact shapeCast_a_1a_apply _ _ 0 q
set_option maxRecDepth 16384 in
theorem Kb3 (q : Fin 10) : (after Cert.KernelIdeal.Gen.hostOps0_2 W (Cert.KernelIdeal.main_v32 : DevRef Cert.KernelIdeal.τ Cert.KernelIdeal.sig) : Cert.KernelIdeal.S1x10.Idx → Elt F .f32) (ix2 0 q)
    = (W (Cert.KernelIdeal.main_arg7 : DevRef Cert.KernelIdeal.τ Cert.KernelIdeal.sig) : Cert.KernelIdeal.S10.Idx → Elt F .f32) (ix1 q) := by
  after_results_simp
  exact shapeCast_a_1a_apply _ _ 0 q
set_option maxRecDepth 16384 in
theorem Kout (q : Fin 10) : (after Cert.KernelIdeal.Gen.hostOps4 W (Cert.KernelIdeal.main_v76 : DevRef Cert.KernelIdeal.τ Cert.KernelIdeal.sig) : Cert.KernelIdeal.S10.Idx → Elt F .f32) (ix1 q)
    = (W (Cert.KernelIdeal.main_v75 : DevRef Cert.KernelIdeal.τ Cert.KernelIdeal.sig) : Cert.KernelIdeal.S1x10.Idx → Elt F .f32) (ix2 0 q) := by
  after_results_simp
  exact shapeCast_1a_a_apply _ _ q

end Cert.Stretch

end
-- ==== Proof.RefVals.lean ====
/-
  What each stretch of the reference program writes, as a function of what it finds: the dense products and the
  bias/rectifier parts are the network's layers, the gather-scale-scatter stretches the graph aggregation, the last
  stretch the mean.
-/
import proofs.«165814_j17411797418191_1_alg».proof.Proof.RefStages
import proofs.«165814_j17411797418191_1_alg».proof.Proof.Spec
import proofs.«165814_j17411797418191_1_alg».proof.Proof.SpecAgg

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
variable (W : Valuation τ sig (Elt F))

-- the aggregation's operations are folds and searches over their operands' elements: the equations below never look inside them
attribute [local irreducible] Host.scatterAdd Host.gather

set_option maxRecDepth 16384 in
theorem RD1_val : after RD1 W (main_v30 : DevRef τ sig) = Cert.Spec.layer1 (W (main_arg0 : DevRef τ sig)) (W (main_arg2 : DevRef τ sig)) := by
  after_results; rfl
set_option maxRecDepth 16384 in
theorem RA1_val : after RA1 W (main_v43 : DevRef τ sig) = Cert.Spec.agg64 (W (main_v30 : DevRef τ sig)) (W (main_v3 : DevRef τ sig)) (W (main_v6 : DevRef τ sig)) (W (main_v29 : DevRef τ sig)) := by
  after_results_simp; rfl
set_option maxRecDepth 16384 in
theorem RT1_val : after RT1 W (main_v48 : DevRef τ sig) = Cert.Spec.layer2 (W (main_v43 : DevRef τ sig)) (W (main_arg3 : DevRef τ sig)) (W (main_arg4 : DevRef τ sig)) := by
  after_results; rfl
set_option maxRecDepth 16384 in
theorem RA2_val : after RA2 W (main_v61 : DevRef τ sig) = Cert.Spec.agg32 (W (main_v48 : DevRef τ sig)) (W (main_v3 : DevRef τ sig)) (W (main_v6 : DevRef τ sig)) (W (main_v29 : DevRef τ sig)) := by
  after_results_simp; rfl
set_option maxRecDepth 16384 in
theorem RT2_val : after RT2 W (main_v66 : DevRef τ sig) = Cert.Spec.layer3 (W (main_v61 : DevRef τ sig)) (W (main_arg5 : DevRef τ sig)) (W (main_arg6 : DevRef τ sig)) := by
  after_results; rfl
set_option maxRecDepth 16384 in
theorem RA3_val : after RA3 W (main_v79 : DevRef τ sig) = Cert.Spec.agg10 (W (main_v66 : DevRef τ sig)) (W (main_v3 : DevRef τ sig)) (W (main_v6 : DevRef τ sig)) (W (main_v29 : DevRef τ sig)) := by
  after_results_simp; rfl
set_option maxRecDepth 16384 in
theorem RT3_val : after RT3 W (main_v85 : DevRef τ sig) = Cert.Spec.mean10 (W (main_v79 : DevRef τ sig)) (W (main_arg7 : DevRef τ sig)) := by
  after_results; rfl

end Cert.ReferenceIdeal.RefRun

end
-- ==== Proof.Algebraic.lean ====
/-
  The two idealized programs end with equal results. Both apply the same graph operations to the edge list (index vectors
  and edge weights: the same host operations in both programs), and between them the kernel's program computes each layer
  in a region while the reference computes it on the host; stage by stage — after the index stretches, after each layer,
  after each aggregation — the kernel's buffer and the reference's hold the same array: the regions' output arrays are the
  layers of their entry arrays, the aggregation stretches are one function of equal inputs, and the read-out region's row
  is the reference's mean.
-/
import proofs.«165814_j17411797418191_1_alg».proof.Defs
import proofs.«165814_j17411797418191_1_alg».proof.Proof.KI.Run
import proofs.«165814_j17411797418191_1_alg».proof.Proof.KI.Final0
import proofs.«165814_j17411797418191_1_alg».proof.Proof.KI.Final1
import proofs.«165814_j17411797418191_1_alg».proof.Proof.KI.Final2
import proofs.«165814_j17411797418191_1_alg».proof.Proof.KI.Final3
import proofs.«165814_j17411797418191_1_alg».proof.Proof.KI.Stretch
import proofs.«165814_j17411797418191_1_alg».proof.Proof.RefVals

set_option maxRecDepth 16384

noncomputable section

namespace Cert.Alg

open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-! ## The reference's buffers after each of its ten stretches -/

abbrev R0 : Valuation Cert.ReferenceIdeal.τ Cert.ReferenceIdeal.sig (Elt Ideal) := StableHlo.launchContents m' c
abbrev R1 : Valuation Cert.ReferenceIdeal.τ Cert.ReferenceIdeal.sig (Elt Ideal) := after Cert.ReferenceIdeal.RefRun.RS0 (R0 m' c)
abbrev R2 : Valuation Cert.ReferenceIdeal.τ Cert.ReferenceIdeal.sig (Elt Ideal) := after Cert.ReferenceIdeal.RefRun.RS1 (R1 m' c)
abbrev R3 : Valuation Cert.ReferenceIdeal.τ Cert.ReferenceIdeal.sig (Elt Ideal) := after Cert.ReferenceIdeal.RefRun.RS2 (R2 m' c)
abbrev R4 : Valuation Cert.ReferenceIdeal.τ Cert.ReferenceIdeal.sig (Elt Ideal) := after Cert.ReferenceIdeal.RefRun.RD1 (R3 m' c)
abbrev R5 : Valuation Cert.ReferenceIdeal.τ Cert.ReferenceIdeal.sig (Elt Ideal) := after Cert.ReferenceIdeal.RefRun.RA1 (R4 m' c)
abbrev R6 : Valuation Cert.ReferenceIdeal.τ Cert.ReferenceIdeal.sig (Elt Ideal) := after Cert.ReferenceIdeal.RefRun.RT1 (R5 m' c)
abbrev R7 : Valuation Cert.ReferenceIdeal.τ Cert.ReferenceIdeal.sig (Elt Ideal) := after Cert.ReferenceIdeal.RefRun.RA2 (R6 m' c)
abbrev R8 : Valuation Cert.ReferenceIdeal.τ Cert.ReferenceIdeal.sig (Elt Ideal) := after Cert.ReferenceIdeal.RefRun.RT2 (R7 m' c)
abbrev R9 : Valuation Cert.ReferenceIdeal.τ Cert.ReferenceIdeal.sig (Elt Ideal) := after Cert.ReferenceIdeal.RefRun.RA3 (R8 m' c)
abbrev R10 : Valuation Cert.ReferenceIdeal.τ Cert.ReferenceIdeal.sig (Elt Ideal) := after Cert.ReferenceIdeal.RefRun.RT3 (R9 m' c)

theorem Rfin : after (Cert.ReferenceIdeal.RefRun.ops (F := Ideal)) (R0 m' c) = R10 m' c := by
  rw [Cert.ReferenceIdeal.RefRun.ops_split]
  simp only [Cert.ReferenceIdeal.RefRun.after_append]

variable (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))

/-! ## The arguments, wherever they are read, are the launch contents -/
theorem Karg0 : Cert.KernelIdeal.Hand.B3 m ρ c (Proc.devRef .tc Cert.KernelIdeal.main_arg0) = m ((c.tc : Thread Cert.KernelIdeal.nD Cert.KernelIdeal.τ).loc Cert.KernelIdeal.main_arg0) := ((Cert.KernelIdeal.Hand.B3_of m ρ c Cert.KernelIdeal.main_arg0 (by decide)).trans ((Cert.KernelIdeal.Hand.B2_of m ρ c Cert.KernelIdeal.main_arg0 (by decide)).trans (Cert.KernelIdeal.Hand.B1_of m ρ c Cert.KernelIdeal.main_arg0 (by decide)))).trans rfl
theorem Karg2 : Cert.KernelIdeal.Hand.B3 m ρ c (Proc.devRef .tc Cert.KernelIdeal.main_arg2) = m ((c.tc : Thread Cert.KernelIdeal.nD Cert.KernelIdeal.τ).loc Cert.KernelIdeal.main_arg2) := ((Cert.KernelIdeal.Hand.B3_of m ρ c Cert.KernelIdeal.main_arg2 (by decide)).trans ((Cert.KernelIdeal.Hand.B2_of m ρ c Cert.KernelIdeal.main_arg2 (by decide)).trans (Cert.KernelIdeal.Hand.B1_of m ρ c Cert.KernelIdeal.main_arg2 (by decide)))).trans rfl
theorem Karg3 : Cert.KernelIdeal.Hand.B2 m ρ c (Proc.devRef .tc Cert.KernelIdeal.main_arg3) = m ((c.tc : Thread Cert.KernelIdeal.nD Cert.KernelIdeal.τ).loc Cert.KernelIdeal.main_arg3) := ((Cert.KernelIdeal.Hand.B2_of m ρ c Cert.KernelIdeal.main_arg3 (by decide)).trans (Cert.KernelIdeal.Hand.B1_of m ρ c Cert.KernelIdeal.main_arg3 (by decide))).trans rfl
theorem Karg5 : Cert.KernelIdeal.Hand.B2 m ρ c (Proc.devRef .tc Cert.KernelIdeal.main_arg5) = m ((c.tc : Thread Cert.KernelIdeal.nD Cert.KernelIdeal.τ).loc Cert.KernelIdeal.main_arg5) := ((Cert.KernelIdeal.Hand.B2_of m ρ c Cert.KernelIdeal.main_arg5 (by decide)).trans (Cert.KernelIdeal.Hand.B1_of m ρ c Cert.KernelIdeal.main_arg5 (by decide))).trans rfl
theorem Karg7 : Cert.KernelIdeal.Hand.B2 m ρ c (Proc.devRef .tc Cert.KernelIdeal.main_arg7) = m ((c.tc : Thread Cert.KernelIdeal.nD Cert.KernelIdeal.τ).loc Cert.KernelIdeal.main_arg7) := ((Cert.KernelIdeal.Hand.B2_of m ρ c Cert.KernelIdeal.main_arg7 (by decide)).trans (Cert.KernelIdeal.Hand.B1_of m ρ c Cert.KernelIdeal.main_arg7 (by decide))).trans rfl
theorem Karg4 : Cert.KernelIdeal.Hand.B5 m ρ c (Proc.devRef .tc Cert.KernelIdeal.main_arg4) = m ((c.tc : Thread Cert.KernelIdeal.nD Cert.KernelIdeal.τ).loc Cert.KernelIdeal.main_arg4) := ((Cert.KernelIdeal.Hand.B5_of m ρ c Cert.KernelIdeal.main_arg4 (by decide)).trans ((Cert.KernelIdeal.Hand.B4_of_ne m ρ c Cert.KernelIdeal.main_arg4 (by decide)).trans ((Cert.KernelIdeal.Hand.B3_of m ρ c Cert.KernelIdeal.main_arg4 (by decide)).trans ((Cert.KernelIdeal.Hand.B2_of m ρ c Cert.KernelIdeal.main_arg4 (by decide)).trans (Cert.KernelIdeal.Hand.B1_of m ρ c Cert.KernelIdeal.main_arg4 (by decide)))))).trans rfl
theorem Karg6 : Cert.KernelIdeal.Hand.B7 m ρ c (Proc.devRef .tc Cert.KernelIdeal.main_arg6) = m ((c.tc : Thread Cert.KernelIdeal.nD Cert.KernelIdeal.τ).loc Cert.KernelIdeal.main_arg6) := ((Cert.KernelIdeal.Hand.B7_of m ρ c Cert.KernelIdeal.main_arg6 (by decide)).trans ((Cert.KernelIdeal.Hand.B6_of_ne m ρ c Cert.KernelIdeal.main_arg6 (by decide)).trans ((Cert.KernelIdeal.Hand.B5_of m ρ c Cert.KernelIdeal.main_arg6 (by decide)).trans ((Cert.KernelIdeal.Hand.B4_of_ne m ρ c Cert.KernelIdeal.main_arg6 (by decide)).trans ((Cert.KernelIdeal.Hand.B3_of m ρ c Cert.KernelIdeal.main_arg6 (by decide)).trans ((Cert.KernelIdeal.Hand.B2_of m ρ c Cert.KernelIdeal.main_arg6 (by decide)).trans (Cert.KernelIdeal.Hand.B1_of m ρ c Cert.KernelIdeal.main_arg6 (by decide)))))))).trans rfl
include hagree in
theorem agree1 : Cert.KernelIdeal.Hand.B0 m ρ c (Proc.devRef .tc Cert.KernelIdeal.main_arg1) = R0 m' c (Proc.devRef .tc Cert.ReferenceIdeal.main_arg1) := (hagree c).2.1.symm
include hagree in
theorem Rarg0 : R3 m' c (Proc.devRef .tc Cert.ReferenceIdeal.main_arg0) = m ((c.tc : Thread Cert.KernelIdeal.nD Cert.KernelIdeal.τ).loc Cert.KernelIdeal.main_arg0) := (((Cert.ReferenceIdeal.RefRun.RS2_keep (R2 m' c) Cert.ReferenceIdeal.main_arg0 (by decide)).trans ((Cert.ReferenceIdeal.RefRun.RS1_keep (R1 m' c) Cert.ReferenceIdeal.main_arg0 (by decide)).trans (Cert.ReferenceIdeal.RefRun.RS0_keep (R0 m' c) Cert.ReferenceIdeal.main_arg0 (by decide)))).trans rfl).trans (hagree c).1
include hagree in
theorem Rarg2 : R3 m' c (Proc.devRef .tc Cert.ReferenceIdeal.main_arg2) = m ((c.tc : Thread Cert.KernelIdeal.nD Cert.KernelIdeal.τ).loc Cert.KernelIdeal.main_arg2) := (((Cert.ReferenceIdeal.RefRun.RS2_keep (R2 m' c) Cert.ReferenceIdeal.main_arg2 (by decide)).trans ((Cert.ReferenceIdeal.RefRun.RS1_keep (R1 m' c) Cert.ReferenceIdeal.main_arg2 (by decide)).trans (Cert.ReferenceIdeal.RefRun.RS0_keep (R0 m' c) Cert.ReferenceIdeal.main_arg2 (by decide)))).trans rfl).trans (hagree c).2.2.1
include hagree in
theorem Rarg3 : R5 m' c (Proc.devRef .tc Cert.ReferenceIdeal.main_arg3) = m ((c.tc : Thread Cert.KernelIdeal.nD Cert.KernelIdeal.τ).loc Cert.KernelIdeal.main_arg3) := (((Cert.ReferenceIdeal.RefRun.RA1_keep (R4 m' c) Cert.ReferenceIdeal.main_arg3 (by decide)).trans ((Cert.ReferenceIdeal.RefRun.RD1_keep (R3 m' c) Cert.ReferenceIdeal.main_arg3 (by decide)).trans ((Cert.ReferenceIdeal.RefRun.RS2_keep (R2 m' c) Cert.ReferenceIdeal.main_arg3 (by decide)).trans ((Cert.ReferenceIdeal.RefRun.RS1_keep (R1 m' c) Cert.ReferenceIdeal.main_arg3 (by decide)).trans (Cert.ReferenceIdeal.RefRun.RS0_keep (R0 m' c) Cert.ReferenceIdeal.main_arg3 (by decide)))))).trans rfl).trans (hagree c).2.2.2.1
include hagree in
theorem Rarg4 : R5 m' c (Proc.devRef .tc Cert.ReferenceIdeal.main_arg4) = m ((c.tc : Thread Cert.KernelIdeal.nD Cert.KernelIdeal.τ).loc Cert.KernelIdeal.main_arg4) := (((Cert.ReferenceIdeal.RefRun.RA1_keep (R4 m' c) Cert.ReferenceIdeal.main_arg4 (by decide)).trans ((Cert.ReferenceIdeal.RefRun.RD1_keep (R3 m' c) Cert.ReferenceIdeal.main_arg4 (by decide)).trans ((Cert.ReferenceIdeal.RefRun.RS2_keep (R2 m' c) Cert.ReferenceIdeal.main_arg4 (by decide)).trans ((Cert.ReferenceIdeal.RefRun.RS1_keep (R1 m' c) Cert.ReferenceIdeal.main_arg4 (by decide)).trans (Cert.ReferenceIdeal.RefRun.RS0_keep (R0 m' c) Cert.ReferenceIdeal.main_arg4 (by decide)))))).trans rfl).trans (hagree c).2.2.2.2.1
include hagree in
theorem Rarg5 : R7 m' c (Proc.devRef .tc Cert.ReferenceIdeal.main_arg5) = m ((c.tc : Thread Cert.KernelIdeal.nD Cert.KernelIdeal.τ).loc Cert.KernelIdeal.main_arg5) := (((Cert.ReferenceIdeal.RefRun.RA2_keep (R6 m' c) Cert.ReferenceIdeal.main_arg5 (by decide)).trans ((Cert.ReferenceIdeal.RefRun.RT1_keep (R5 m' c) Cert.ReferenceIdeal.main_arg5 (by decide)).trans ((Cert.ReferenceIdeal.RefRun.RA1_keep (R4 m' c) Cert.ReferenceIdeal.main_arg5 (by decide)).trans ((Cert.ReferenceIdeal.RefRun.RD1_keep (R3 m' c) Cert.ReferenceIdeal.main_arg5 (by decide)).trans ((Cert.ReferenceIdeal.RefRun.RS2_keep (R2 m' c) Cert.ReferenceIdeal.main_arg5 (by decide)).trans ((Cert.ReferenceIdeal.RefRun.RS1_keep (R1 m' c) Cert.ReferenceIdeal.main_arg5 (by decide)).trans (Cert.ReferenceIdeal.RefRun.RS0_keep (R0 m' c) Cert.ReferenceIdeal.main_arg5 (by decide)))))))).trans rfl).trans (hagree c).2.2.2.2.2.1
include hagree in
theorem Rarg6 : R7 m' c (Proc.devRef .tc Cert.ReferenceIdeal.main_arg6) = m ((c.tc : Thread Cert.KernelIdeal.nD Cert.KernelIdeal.τ).loc Cert.KernelIdeal.main_arg6) := (((Cert.ReferenceIdeal.RefRun.RA2_keep (R6 m' c) Cert.ReferenceIdeal.main_arg6 (by decide)).trans ((Cert.ReferenceIdeal.RefRun.RT1_keep (R5 m' c) Cert.ReferenceIdeal.main_arg6 (by decide)).trans ((Cert.ReferenceIdeal.RefRun.RA1_keep (R4 m' c) Cert.ReferenceIdeal.main_arg6 (by decide)).trans ((Cert.ReferenceIdeal.RefRun.RD1_keep (R3 m' c) Cert.ReferenceIdeal.main_arg6 (by decide)).trans ((Cert.ReferenceIdeal.RefRun.RS2_keep (R2 m' c) Cert.ReferenceIdeal.main_arg6 (by decide)).trans ((Cert.ReferenceIdeal.RefRun.RS1_keep (R1 m' c) Cert.ReferenceIdeal.main_arg6 (by decide)).trans (Cert.ReferenceIdeal.RefRun.RS0_keep (R0 m' c) Cert.ReferenceIdeal.main_arg6 (by decide)))))))).trans rfl).trans (hagree c).2.2.2.2.2.2.1
include hagree in
theorem Rarg7 : R9 m' c (Proc.devRef .tc Cert.ReferenceIdeal.main_arg7) = m ((c.tc : Thread Cert.KernelIdeal.nD Cert.KernelIdeal.τ).loc Cert.KernelIdeal.main_arg7) := (((Cert.ReferenceIdeal.RefRun.RA3_keep (R8 m' c) Cert.ReferenceIdeal.main_arg7 (by decide)).trans ((Cert.ReferenceIdeal.RefRun.RT2_keep (R7 m' c) Cert.ReferenceIdeal.main_arg7 (by decide)).trans ((Cert.ReferenceIdeal.RefRun.RA2_keep (R6 m' c) Cert.ReferenceIdeal.main_arg7 (by decide)).trans ((Cert.ReferenceIdeal.RefRun.RT1_keep (R5 m' c) Cert.ReferenceIdeal.main_arg7 (by decide)).trans ((Cert.ReferenceIdeal.RefRun.RA1_keep (R4 m' c) Cert.ReferenceIdeal.main_arg7 (by decide)).trans ((Cert.ReferenceIdeal.RefRun.RD1_keep (R3 m' c) Cert.ReferenceIdeal.main_arg7 (by decide)).trans ((Cert.ReferenceIdeal.RefRun.RS2_keep (R2 m' c) Cert.ReferenceIdeal.main_arg7 (by decide)).trans ((Cert.ReferenceIdeal.RefRun.RS1_keep (R1 m' c) Cert.ReferenceIdeal.main_arg7 (by decide)).trans (Cert.ReferenceIdeal.RefRun.RS0_keep (R0 m' c) Cert.ReferenceIdeal.main_arg7 (by decide)))))))))).trans rfl).trans (hagree c).2.2.2.2.2.2.2

/-! ## The index vectors and the edge weights are the same in both programs -/

include hagree in
theorem g1_v3 : Cert.KernelIdeal.Hand.B1 m ρ c (Proc.devRef .tc Cert.KernelIdeal.main_v3) = R1 m' c (Proc.devRef .tc Cert.ReferenceIdeal.main_v3) := Cert.Stretch.G0_v3 _ _ (agree1 m ρ m' c hagree)
include hagree in
theorem g1_v6 : Cert.KernelIdeal.Hand.B1 m ρ c (Proc.devRef .tc Cert.KernelIdeal.main_v6) = R1 m' c (Proc.devRef .tc Cert.ReferenceIdeal.main_v6) := Cert.Stretch.G0_v6 _ _ (agree1 m ρ m' c hagree)
include hagree in
theorem g1_v12 : Cert.KernelIdeal.Hand.B1 m ρ c (Proc.devRef .tc Cert.KernelIdeal.main_v12) = R1 m' c (Proc.devRef .tc Cert.ReferenceIdeal.main_v12) := Cert.Stretch.G0_v12 _ _ (agree1 m ρ m' c hagree)
include hagree in
theorem g1_v13 : Cert.KernelIdeal.Hand.B1 m ρ c (Proc.devRef .tc Cert.KernelIdeal.main_v13) = R1 m' c (Proc.devRef .tc Cert.ReferenceIdeal.main_v13) := Cert.Stretch.G0_v13 _ _ (agree1 m ρ m' c hagree)
theorem g1_cst2 : Cert.KernelIdeal.Hand.B1 m ρ c (Proc.devRef .tc Cert.KernelIdeal.main_cst_2) = R1 m' c (Proc.devRef .tc Cert.ReferenceIdeal.main_cst_2) := Cert.Stretch.G0_cst2 _ _
include hagree in
theorem g2_v14 : Cert.KernelIdeal.Hand.B2 m ρ c (Proc.devRef .tc Cert.KernelIdeal.main_v14) = R2 m' c (Proc.devRef .tc Cert.ReferenceIdeal.main_v14) :=
  Cert.Stretch.G1_v14 _ _ (g1_v12 m ρ m' c hagree) (g1_v13 m ρ m' c hagree) (g1_cst2 m ρ m' c)
include hagree in
theorem g2_v3 : Cert.KernelIdeal.Hand.B2 m ρ c (Proc.devRef .tc Cert.KernelIdeal.main_v3) = R2 m' c (Proc.devRef .tc Cert.ReferenceIdeal.main_v3) :=
  (Cert.KernelIdeal.Hand.B2_of m ρ c Cert.KernelIdeal.main_v3 (by decide)).trans ((g1_v3 m ρ m' c hagree).trans (Cert.ReferenceIdeal.RefRun.RS1_keep (R1 m' c) Cert.ReferenceIdeal.main_v3 (by decide)).symm)
include hagree in
theorem g2_v6 : Cert.KernelIdeal.Hand.B2 m ρ c (Proc.devRef .tc Cert.KernelIdeal.main_v6) = R2 m' c (Proc.devRef .tc Cert.ReferenceIdeal.main_v6) :=
  (Cert.KernelIdeal.Hand.B2_of m ρ c Cert.KernelIdeal.main_v6 (by decide)).trans ((g1_v6 m ρ m' c hagree).trans (Cert.ReferenceIdeal.RefRun.RS1_keep (R1 m' c) Cert.ReferenceIdeal.main_v6 (by decide)).symm)
include hagree in
theorem g3_v29 : Cert.KernelIdeal.Hand.B3 m ρ c (Proc.devRef .tc Cert.KernelIdeal.main_v29) = R3 m' c (Proc.devRef .tc Cert.ReferenceIdeal.main_v29) :=
  Cert.Stretch.G2_v29 _ _ (g2_v3 m ρ m' c hagree) (g2_v6 m ρ m' c hagree) (g2_v14 m ρ m' c hagree)
include hagree in
theorem s4_v3 : Cert.KernelIdeal.Hand.B4 m ρ c (Proc.devRef .tc Cert.KernelIdeal.main_v3) = R4 m' c (Proc.devRef .tc Cert.ReferenceIdeal.main_v3) :=
  ((Cert.KernelIdeal.Hand.B4_of_ne m ρ c Cert.KernelIdeal.main_v3 (by decide)).trans (Cert.KernelIdeal.Hand.B3_of m ρ c Cert.KernelIdeal.main_v3 (by decide))).trans ((g2_v3 m ρ m' c hagree).trans ((Cert.ReferenceIdeal.RefRun.RD1_keep (R3 m' c) Cert.ReferenceIdeal.main_v3 (by decide)).trans (Cert.ReferenceIdeal.RefRun.RS2_keep (R2 m' c) Cert.ReferenceIdeal.main_v3 (by decide))).symm)
include hagree in
theorem s4_v6 : Cert.KernelIdeal.Hand.B4 m ρ c (Proc.devRef .tc Cert.KernelIdeal.main_v6) = R4 m' c (Proc.devRef .tc Cert.ReferenceIdeal.main_v6) :=
  ((Cert.KernelIdeal.Hand.B4_of_ne m ρ c Cert.KernelIdeal.main_v6 (by decide)).trans (Cert.KernelIdeal.Hand.B3_of m ρ c Cert.KernelIdeal.main_v6 (by decide))).trans ((g2_v6 m ρ m' c hagree).trans ((Cert.ReferenceIdeal.RefRun.RD1_keep (R3 m' c) Cert.ReferenceIdeal.main_v6 (by decide)).trans (Cert.ReferenceIdeal.RefRun.RS2_keep (R2 m' c) Cert.ReferenceIdeal.main_v6 (by decide))).symm)
include hagree in
theorem s4_v29 : Cert.KernelIdeal.Hand.B4 m ρ c (Proc.devRef .tc Cert.KernelIdeal.main_v29) = R4 m' c (Proc.devRef .tc Cert.ReferenceIdeal.main_v29) :=
  (Cert.KernelIdeal.Hand.B4_of_ne m ρ c Cert.KernelIdeal.main_v29 (by decide)).trans ((g3_v29 m ρ m' c hagree).trans (Cert.ReferenceIdeal.RefRun.RD1_keep (R3 m' c) Cert.ReferenceIdeal.main_v29 (by decide)).symm)
include hagree in
theorem s6_v3 : Cert.KernelIdeal.Hand.B6 m ρ c (Proc.devRef .tc Cert.KernelIdeal.main_v3) = R6 m' c (Proc.devRef .tc Cert.ReferenceIdeal.main_v3) :=
  ((Cert.KernelIdeal.Hand.B6_of_ne m ρ c Cert.KernelIdeal.main_v3 (by decide)).trans ((Cert.KernelIdeal.Hand.B5_of m ρ c Cert.KernelIdeal.main_v3 (by decide)).trans ((Cert.KernelIdeal.Hand.B4_of_ne m ρ c Cert.KernelIdeal.main_v3 (by decide)).trans (Cert.KernelIdeal.Hand.B3_of m ρ c Cert.KernelIdeal.main_v3 (by decide))))).trans ((g2_v3 m ρ m' c hagree).trans ((Cert.ReferenceIdeal.RefRun.RT1_keep (R5 m' c) Cert.ReferenceIdeal.main_v3 (by decide)).trans ((Cert.ReferenceIdeal.RefRun.RA1_keep (R4 m' c) Cert.ReferenceIdeal.main_v3 (by decide)).trans ((Cert.ReferenceIdeal.RefRun.RD1_keep (R3 m' c) Cert.ReferenceIdeal.main_v3 (by decide)).trans (Cert.ReferenceIdeal.RefRun.RS2_keep (R2 m' c) Cert.ReferenceIdeal.main_v3 (by decide))))).symm)
include hagree in
theorem s6_v6 : Cert.KernelIdeal.Hand.B6 m ρ c (Proc.devRef .tc Cert.KernelIdeal.main_v6) = R6 m' c (Proc.devRef .tc Cert.ReferenceIdeal.main_v6) :=
  ((Cert.KernelIdeal.Hand.B6_of_ne m ρ c Cert.KernelIdeal.main_v6 (by decide)).trans ((Cert.KernelIdeal.Hand.B5_of m ρ c Cert.KernelIdeal.main_v6 (by decide)).trans ((Cert.KernelIdeal.Hand.B4_of_ne m ρ c Cert.KernelIdeal.main_v6 (by decide)).trans (Cert.KernelIdeal.Hand.B3_of m ρ c Cert.KernelIdeal.main_v6 (by decide))))).trans ((g2_v6 m ρ m' c hagree).trans ((Cert.ReferenceIdeal.RefRun.RT1_keep (R5 m' c) Cert.ReferenceIdeal.main_v6 (by decide)).trans ((Cert.ReferenceIdeal.RefRun.RA1_keep (R4 m' c) Cert.ReferenceIdeal.main_v6 (by decide)).trans ((Cert.ReferenceIdeal.RefRun.RD1_keep (R3 m' c) Cert.ReferenceIdeal.main_v6 (by decide)).trans (Cert.ReferenceIdeal.RefRun.RS2_keep (R2 m' c) Cert.ReferenceIdeal.main_v6 (by decide))))).symm)
include hagree in
theorem s6_v29 : Cert.KernelIdeal.Hand.B6 m ρ c (Proc.devRef .tc Cert.KernelIdeal.main_v29) = R6 m' c (Proc.devRef .tc Cert.ReferenceIdeal.main_v29) :=
  ((Cert.KernelIdeal.Hand.B6_of_ne m ρ c Cert.KernelIdeal.main_v29 (by decide)).trans ((Cert.KernelIdeal.Hand.B5_of m ρ c Cert.KernelIdeal.main_v29 (by decide)).trans (Cert.KernelIdeal.Hand.B4_of_ne m ρ c Cert.KernelIdeal.main_v29 (by decide)))).trans ((g3_v29 m ρ m' c hagree).trans ((Cert.ReferenceIdeal.RefRun.RT1_keep (R5 m' c) Cert.ReferenceIdeal.main_v29 (by decide)).trans ((Cert.ReferenceIdeal.RefRun.RA1_keep (R4 m' c) Cert.ReferenceIdeal.main_v29 (by decide)).trans (Cert.ReferenceIdeal.RefRun.RD1_keep (R3 m' c) Cert.ReferenceIdeal.main_v29 (by decide)))).symm)
include hagree in
theorem s8_v3 : Cert.KernelIdeal.Hand.B8 m ρ c (Proc.devRef .tc Cert.KernelIdeal.main_v3) = R8 m' c (Proc.devRef .tc Cert.ReferenceIdeal.main_v3) :=
  ((Cert.KernelIdeal.Hand.B8_of_ne m ρ c Cert.KernelIdeal.main_v3 (by decide)).trans ((Cert.KernelIdeal.Hand.B7_of m ρ c Cert.KernelIdeal.main_v3 (by decide)).trans ((Cert.KernelIdeal.Hand.B6_of_ne m ρ c Cert.KernelIdeal.main_v3 (by decide)).trans ((Cert.KernelIdeal.Hand.B5_of m ρ c Cert.KernelIdeal.main_v3 (by decide)).trans ((Cert.KernelIdeal.Hand.B4_of_ne m ρ c Cert.KernelIdeal.main_v3 (by decide)).trans (Cert.KernelIdeal.Hand.B3_of m ρ c Cert.KernelIdeal.main_v3 (by decide))))))).trans ((g2_v3 m ρ m' c hagree).trans ((Cert.ReferenceIdeal.RefRun.RT2_keep (R7 m' c) Cert.ReferenceIdeal.main_v3 (by decide)).trans ((Cert.ReferenceIdeal.RefRun.RA2_keep (R6 m' c) Cert.ReferenceIdeal.main_v3 (by decide)).trans ((Cert.ReferenceIdeal.RefRun.RT1_keep (R5 m' c) Cert.ReferenceIdeal.main_v3 (by decide)).trans ((Cert.ReferenceIdeal.RefRun.RA1_keep (R4 m' c) Cert.ReferenceIdeal.main_v3 (by decide)).trans ((Cert.ReferenceIdeal.RefRun.RD1_keep (R3 m' c) Cert.ReferenceIdeal.main_v3 (by decide)).trans (Cert.ReferenceIdeal.RefRun.RS2_keep (R2 m' c) Cert.ReferenceIdeal.main_v3 (by decide))))))).symm)
include hagree in
theorem s8_v6 : Cert.KernelIdeal.Hand.B8 m ρ c (Proc.devRef .tc Cert.KernelIdeal.main_v6) = R8 m' c (Proc.devRef .tc Cert.ReferenceIdeal.main_v6) :=
  ((Cert.KernelIdeal.Hand.B8_of_ne m ρ c Cert.KernelIdeal.main_v6 (by decide)).trans ((Cert.KernelIdeal.Hand.B7_of m ρ c Cert.KernelIdeal.main_v6 (by decide)).trans ((Cert.KernelIdeal.Hand.B6_of_ne m ρ c Cert.KernelIdeal.main_v6 (by decide)).trans ((Cert.KernelIdeal.Hand.B5_of m ρ c Cert.KernelIdeal.main_v6 (by decide)).trans ((Cert.KernelIdeal.Hand.B4_of_ne m ρ c Cert.KernelIdeal.main_v6 (by decide)).trans (Cert.KernelIdeal.Hand.B3_of m ρ c Cert.KernelIdeal.main_v6 (by decide))))))).trans ((g2_v6 m ρ m' c hagree).trans ((Cert.ReferenceIdeal.RefRun.RT2_keep (R7 m' c) Cert.ReferenceIdeal.main_v6 (by decide)).trans ((Cert.ReferenceIdeal.RefRun.RA2_keep (R6 m' c) Cert.ReferenceIdeal.main_v6 (by decide)).trans ((Cert.ReferenceIdeal.RefRun.RT1_keep (R5 m' c) Cert.ReferenceIdeal.main_v6 (by decide)).trans ((Cert.ReferenceIdeal.RefRun.RA1_keep (R4 m' c) Cert.ReferenceIdeal.main_v6 (by decide)).trans ((Cert.ReferenceIdeal.RefRun.RD1_keep (R3 m' c) Cert.ReferenceIdeal.main_v6 (by decide)).trans (Cert.ReferenceIdeal.RefRun.RS2_keep (R2 m' c) Cert.ReferenceIdeal.main_v6 (by decide))))))).symm)
include hagree in
theorem s8_v29 : Cert.KernelIdeal.Hand.B8 m ρ c (Proc.devRef .tc Cert.KernelIdeal.main_v29) = R8 m' c (Proc.devRef .tc Cert.ReferenceIdeal.main_v29) :=
  ((Cert.KernelIdeal.Hand.B8_of_ne m ρ c Cert.KernelIdeal.main_v29 (by decide)).trans ((Cert.KernelIdeal.Hand.B7_of m ρ c Cert.KernelIdeal.main_v29 (by decide)).trans ((Cert.KernelIdeal.Hand.B6_of_ne m ρ c Cert.KernelIdeal.main_v29 (by decide)).trans ((Cert.KernelIdeal.Hand.B5_of m ρ c Cert.KernelIdeal.main_v29 (by decide)).trans (Cert.KernelIdeal.Hand.B4_of_ne m ρ c Cert.KernelIdeal.main_v29 (by decide)))))).trans ((g3_v29 m ρ m' c hagree).trans ((Cert.ReferenceIdeal.RefRun.RT2_keep (R7 m' c) Cert.ReferenceIdeal.main_v29 (by decide)).trans ((Cert.ReferenceIdeal.RefRun.RA2_keep (R6 m' c) Cert.ReferenceIdeal.main_v29 (by decide)).trans ((Cert.ReferenceIdeal.RefRun.RT1_keep (R5 m' c) Cert.ReferenceIdeal.main_v29 (by decide)).trans ((Cert.ReferenceIdeal.RefRun.RA1_keep (R4 m' c) Cert.ReferenceIdeal.main_v29 (by decide)).trans (Cert.ReferenceIdeal.RefRun.RD1_keep (R3 m' c) Cert.ReferenceIdeal.main_v29 (by decide)))))).symm)

/-! ## Stage by stage: each layer and each aggregation leaves the same array in both programs -/

include hagree in
theorem t1 : Cert.KernelIdeal.Hand.B4 m ρ c (Proc.devRef .tc Cert.KernelIdeal.main_v33) = R4 m' c (Proc.devRef .tc Cert.ReferenceIdeal.main_v30) := by
  have hK : Cert.KernelIdeal.Hand.B4 m ρ c (Proc.devRef .tc Cert.KernelIdeal.main_v33) = Cert.Spec.layer1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) :=
    (Cert.KernelIdeal.Hand.B4_arr m ρ c 2).trans ((Cert.KernelIdeal.Hand.final0 (Cert.KernelIdeal.Hand.E3 m ρ) c).trans (congr (congrArg Cert.Spec.layer1 (Karg0 m ρ c)) (Karg2 m ρ c)))
  have hR : R4 m' c (Proc.devRef .tc Cert.ReferenceIdeal.main_v30) = Cert.Spec.layer1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) :=
    (Cert.ReferenceIdeal.RefRun.RD1_val (R3 m' c)).trans (congr (congrArg Cert.Spec.layer1 (Rarg0 m m' c hagree)) (Rarg2 m m' c hagree))
  exact hK.trans hR.symm

include hagree in
theorem a1 : Cert.KernelIdeal.Hand.B5 m ρ c (Proc.devRef .tc Cert.KernelIdeal.main_v46) = R5 m' c (Proc.devRef .tc Cert.ReferenceIdeal.main_v43) :=
  (Cert.Stretch.KA1_val (Cert.KernelIdeal.Hand.B4 m ρ c)).trans
    ((congr (congr (congr (congrArg Cert.Spec.agg64 (t1 m ρ m' c hagree)) (s4_v3 m ρ m' c hagree)) (s4_v6 m ρ m' c hagree)) (s4_v29 m ρ m' c hagree)).trans
      (Cert.ReferenceIdeal.RefRun.RA1_val (R4 m' c)).symm)

include hagree in
theorem t2 : Cert.KernelIdeal.Hand.B6 m ρ c (Proc.devRef .tc Cert.KernelIdeal.main_v47) = R6 m' c (Proc.devRef .tc Cert.ReferenceIdeal.main_v48) := by
  have a := a1 m ρ m' c hagree
  have hb : ∀ q : Fin 64, (Cert.KernelIdeal.Hand.E5 m ρ c Cert.KernelIdeal.main_v30 : Cert.KernelIdeal.S1x64.Idx → EReal) (ix2 0 q) = ((m ((c.tc : Thread Cert.KernelIdeal.nD Cert.KernelIdeal.τ).loc Cert.KernelIdeal.main_arg3)) : Cert.KernelIdeal.S64.Idx → EReal) (ix1 q) := fun q =>
    (congrArg (fun X : Cert.KernelIdeal.S1x64.Idx → EReal => X (ix2 0 q)) ((Cert.KernelIdeal.Hand.B5_of m ρ c Cert.KernelIdeal.main_v30 (by decide)).trans (Cert.KernelIdeal.Hand.B4_of_ne m ρ c Cert.KernelIdeal.main_v30 (by decide)))).trans
      ((Cert.Stretch.Kb1 (Cert.KernelIdeal.Hand.B2 m ρ c) q).trans (congrArg (fun X : Cert.KernelIdeal.S64.Idx → EReal => X (ix1 q)) (Karg3 m ρ c)))
  have hK : Cert.KernelIdeal.Hand.B6 m ρ c (Proc.devRef .tc Cert.KernelIdeal.main_v47) = Cert.Spec.layer2 (Cert.KernelIdeal.Hand.B5 m ρ c (Proc.devRef .tc Cert.KernelIdeal.main_v46)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) :=
    (Cert.KernelIdeal.Hand.B6_arr m ρ c 3).trans ((Cert.KernelIdeal.Hand.final1 (Cert.KernelIdeal.Hand.E5 m ρ) c (m ((c.tc : Thread Cert.KernelIdeal.nD Cert.KernelIdeal.τ).loc Cert.KernelIdeal.main_arg3)) hb).trans (congrArg (Cert.Spec.layer2 (Cert.KernelIdeal.Hand.B5 m ρ c (Proc.devRef .tc Cert.KernelIdeal.main_v46)) (m ((c.tc : Thread Cert.KernelIdeal.nD Cert.KernelIdeal.τ).loc Cert.KernelIdeal.main_arg3))) (Karg4 m ρ c)))
  have hR : R6 m' c (Proc.devRef .tc Cert.ReferenceIdeal.main_v48) = Cert.Spec.layer2 (R5 m' c (Proc.devRef .tc Cert.ReferenceIdeal.main_v43)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) :=
    (Cert.ReferenceIdeal.RefRun.RT1_val (R5 m' c)).trans (congr (congrArg (Cert.Spec.layer2 (R5 m' c (Proc.devRef .tc Cert.ReferenceIdeal.main_v43))) (Rarg3 m m' c hagree)) (Rarg4 m m' c hagree))
  exact hK.trans ((congrArg (fun A => Cert.Spec.layer2 A (m ((c.tc : Thread Cert.KernelIdeal.nD Cert.KernelIdeal.τ).loc Cert.KernelIdeal.main_arg3)) (m ((c.tc : Thread Cert.KernelIdeal.nD Cert.KernelIdeal.τ).loc Cert.KernelIdeal.main_arg4))) a).trans hR.symm)

include hagree in
theorem a2 : Cert.KernelIdeal.Hand.B7 m ρ c (Proc.devRef .tc Cert.KernelIdeal.main_v60) = R7 m' c (Proc.devRef .tc Cert.ReferenceIdeal.main_v61) :=
  (Cert.Stretch.KA2_val (Cert.KernelIdeal.Hand.B6 m ρ c)).trans
    ((congr (congr (congr (congrArg Cert.Spec.agg32 (t2 m ρ m' c hagree)) (s6_v3 m ρ m' c hagree)) (s6_v6 m ρ m' c hagree)) (s6_v29 m ρ m' c hagree)).trans
      (Cert.ReferenceIdeal.RefRun.RA2_val (R6 m' c)).symm)

include hagree in
theorem t3 : Cert.KernelIdeal.Hand.B8 m ρ c (Proc.devRef .tc Cert.KernelIdeal.main_v61) = R8 m' c (Proc.devRef .tc Cert.ReferenceIdeal.main_v66) := by
  have a := a2 m ρ m' c hagree
  have hb : ∀ q : Fin 32, (Cert.KernelIdeal.Hand.E7 m ρ c Cert.KernelIdeal.main_v31 : Cert.KernelIdeal.S1x32.Idx → EReal) (ix2 0 q) = ((m ((c.tc : Thread Cert.KernelIdeal.nD Cert.KernelIdeal.τ).loc Cert.KernelIdeal.main_arg5)) : Cert.KernelIdeal.S32.Idx → EReal) (ix1 q) := fun q =>
    (congrArg (fun X : Cert.KernelIdeal.S1x32.Idx → EReal => X (ix2 0 q)) ((Cert.KernelIdeal.Hand.B7_of m ρ c Cert.KernelIdeal.main_v31 (by decide)).trans ((Cert.KernelIdeal.Hand.B6_of_ne m ρ c Cert.KernelIdeal.main_v31 (by decide)).trans ((Cert.KernelIdeal.Hand.B5_of m ρ c Cert.KernelIdeal.main_v31 (by decide)).trans (Cert.KernelIdeal.Hand.B4_of_ne m ρ c Cert.KernelIdeal.main_v31 (by decide)))))).trans
      ((Cert.Stretch.Kb2 (Cert.KernelIdeal.Hand.B2 m ρ c) q).trans (congrArg (fun X : Cert.KernelIdeal.S32.Idx → EReal => X (ix1 q)) (Karg5 m ρ c)))
  have hK : Cert.KernelIdeal.Hand.B8 m ρ c (Proc.devRef .tc Cert.KernelIdeal.main_v61) = Cert.Spec.layer3 (Cert.KernelIdeal.Hand.B7 m ρ c (Proc.devRef .tc Cert.KernelIdeal.main_v60)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
    (Cert.KernelIdeal.Hand.B8_arr m ρ c 3).trans ((Cert.KernelIdeal.Hand.final2 (Cert.KernelIdeal.Hand.E7 m ρ) c (m ((c.tc : Thread Cert.KernelIdeal.nD Cert.KernelIdeal.τ).loc Cert.KernelIdeal.main_arg5)) hb).trans (congrArg (Cert.Spec.layer3 (Cert.KernelIdeal.Hand.B7 m ρ c (Proc.devRef .tc Cert.KernelIdeal.main_v60)) (m ((c.tc : Thread Cert.KernelIdeal.nD Cert.KernelIdeal.τ).loc Cert.KernelIdeal.main_arg5))) (Karg6 m ρ c)))
  have hR : R8 m' c (Proc.devRef .tc Cert.ReferenceIdeal.main_v66) = Cert.Spec.layer3 (R7 m' c (Proc.devRef .tc Cert.ReferenceIdeal.main_v61)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
    (Cert.ReferenceIdeal.RefRun.RT2_val (R7 m' c)).trans (congr (congrArg (Cert.Spec.layer3 (R7 m' c (Proc.devRef .tc Cert.ReferenceIdeal.main_v61))) (Rarg5 m m' c hagree)) (Rarg6 m m' c hagree))
  exact hK.trans ((congrArg (fun A => Cert.Spec.layer3 A (m ((c.tc : Thread Cert.KernelIdeal.nD Cert.KernelIdeal.τ).loc Cert.KernelIdeal.main_arg5)) (m ((c.tc : Thread Cert.KernelIdeal.nD Cert.KernelIdeal.τ).loc Cert.KernelIdeal.main_arg6))) a).trans hR.symm)

include hagree in
theorem a3 : Cert.KernelIdeal.Hand.B9 m ρ c (Proc.devRef .tc Cert.KernelIdeal.main_v74) = R9 m' c (Proc.devRef .tc Cert.ReferenceIdeal.main_v79) :=
  (Cert.Stretch.KA3_val (Cert.KernelIdeal.Hand.B8 m ρ c)).trans
    ((congr (congr (congr (congrArg Cert.Spec.agg10 (t3 m ρ m' c hagree)) (s8_v3 m ρ m' c hagree)) (s8_v6 m ρ m' c hagree)) (s8_v29 m ρ m' c hagree)).trans
      (Cert.ReferenceIdeal.RefRun.RA3_val (R8 m' c)).symm)

/-! ## The results -/

include hagree in
/-- The reference's result vector is the kernel program's. -/
theorem result_eq : after (Cert.ReferenceIdeal.RefRun.ops (F := Ideal)) (StableHlo.launchContents m' c) (Proc.devRef .tc Cert.ReferenceIdeal.main_v85) = Cert.KernelIdeal.Hand.B11 m ρ c (Proc.devRef .tc Cert.KernelIdeal.main_v76) := by
  rw [show after (Cert.ReferenceIdeal.RefRun.ops (F := Ideal)) (StableHlo.launchContents m' c) = R10 m' c from Rfin m' c]
  have a := a3 m ρ m' c hagree
  have hb : ∀ q : Fin 10, (Cert.KernelIdeal.Hand.E9 m ρ c Cert.KernelIdeal.main_v32 : Cert.KernelIdeal.S1x10.Idx → EReal) (ix2 0 q) = ((m ((c.tc : Thread Cert.KernelIdeal.nD Cert.KernelIdeal.τ).loc Cert.KernelIdeal.main_arg7)) : Cert.KernelIdeal.S10.Idx → EReal) (ix1 q) := fun q =>
    (congrArg (fun X : Cert.KernelIdeal.S1x10.Idx → EReal => X (ix2 0 q)) ((Cert.KernelIdeal.Hand.B9_of m ρ c Cert.KernelIdeal.main_v32 (by decide)).trans ((Cert.KernelIdeal.Hand.B8_of_ne m ρ c Cert.KernelIdeal.main_v32 (by decide)).trans ((Cert.KernelIdeal.Hand.B7_of m ρ c Cert.KernelIdeal.main_v32 (by decide)).trans ((Cert.KernelIdeal.Hand.B6_of_ne m ρ c Cert.KernelIdeal.main_v32 (by decide)).trans ((Cert.KernelIdeal.Hand.B5_of m ρ c Cert.KernelIdeal.main_v32 (by decide)).trans (Cert.KernelIdeal.Hand.B4_of_ne m ρ c Cert.KernelIdeal.main_v32 (by decide)))))))).trans
      ((Cert.Stretch.Kb3 (Cert.KernelIdeal.Hand.B2 m ρ c) q).trans (congrArg (fun X : Cert.KernelIdeal.S10.Idx → EReal => X (ix1 q)) (Karg7 m ρ c)))
  have hR : R10 m' c (Proc.devRef .tc Cert.ReferenceIdeal.main_v85) = Cert.Spec.mean10 (R9 m' c (Proc.devRef .tc Cert.ReferenceIdeal.main_v79)) (m ((c.tc : Thread Cert.KernelIdeal.nD Cert.KernelIdeal.τ).loc Cert.KernelIdeal.main_arg7)) :=
    (Cert.ReferenceIdeal.RefRun.RT3_val (R9 m' c)).trans (congrArg (Cert.Spec.mean10 (R9 m' c (Proc.devRef .tc Cert.ReferenceIdeal.main_v79))) (Rarg7 m m' c hagree))
  show (R10 m' c (Proc.devRef .tc Cert.ReferenceIdeal.main_v85) : Cert.KernelIdeal.S10.Idx → EReal) = (Cert.KernelIdeal.Hand.B11 m ρ c (Proc.devRef .tc Cert.KernelIdeal.main_v76) : Cert.KernelIdeal.S10.Idx → EReal)
  funext i
  obtain ⟨q, rfl⟩ : ∃ q : Fin 10, i = ix1 q := ⟨i 0, eq_ix1 i⟩
  have hK : (Cert.KernelIdeal.Hand.B11 m ρ c (Proc.devRef .tc Cert.KernelIdeal.main_v76) : Cert.KernelIdeal.S10.Idx → EReal) (ix1 q) = Cert.Spec.mean10 (F := Ideal) (Cert.KernelIdeal.Hand.B9 m ρ c (Proc.devRef .tc Cert.KernelIdeal.main_v74)) (m ((c.tc : Thread Cert.KernelIdeal.nD Cert.KernelIdeal.τ).loc Cert.KernelIdeal.main_arg7)) (ix1 q) :=
    (Cert.Stretch.Kout (Cert.KernelIdeal.Hand.B10 m ρ c) q).trans
      ((congrArg (fun X : Cert.KernelIdeal.S1x10.Idx → EReal => X (ix2 0 q)) (Cert.KernelIdeal.Hand.B10_arr m ρ c 2)).trans (Cert.KernelIdeal.Hand.final3_apply (Cert.KernelIdeal.Hand.E9 m ρ) c (m ((c.tc : Thread Cert.KernelIdeal.nD Cert.KernelIdeal.τ).loc Cert.KernelIdeal.main_arg7)) hb q))
  exact ((congrArg (fun X : Cert.KernelIdeal.S10.Idx → EReal => X (ix1 q)) hR).trans
    (congrArg (fun A => Cert.Spec.mean10 (F := Ideal) A (m ((c.tc : Thread Cert.KernelIdeal.nD Cert.KernelIdeal.τ).loc Cert.KernelIdeal.main_arg7)) (ix1 q)) a.symm)).trans hK.symm

end Cert.Alg

end
-- ==== Proof.lean ====
/-
  The certificate of the graph network (three graph-convolution layers, leaky rectifier, mean over the nodes) computed by
  four tiled dense kernels among host gather/scatter stretches, against the same network written with host operations.

  Frames. Each of the kernel's two printings (word-level and idealized) is run as eleven items — seven stretches of host
  operations and four pipelined regions of ten grid points — with every buffer's contents named at each boundary; every
  execution terminates without a fault and no item writes an argument array. The reference is one straight line of host
  operations. The one rewrite of the idealization names the reciprocal of the node count, 1/100000.

  Values, at the exact reals. The three dense regions leave, block by block, the layers of the arrays they are entered
  with (a matrix product over a block of rows is the block of the whole product; bias and rectifier are entrywise); the
  read-out region accumulates the ten blocks' column sums of the biased aggregate and scales by 1/100000, which is the
  reference's sum over all nodes divided by 100000 (regrouping a sum of extended reals needs no finiteness); the graph
  aggregation between layers is the same function in both programs, applied to equal arrays. So the results are equal.
-/
import proofs.«165814_j17411797418191_1_alg».proof.Defs
import proofs.«165814_j17411797418191_1_alg».proof.Proof.Gen.Kernel
import proofs.«165814_j17411797418191_1_alg».proof.Proof.Gen.KernelIdeal
import proofs.«165814_j17411797418191_1_alg».proof.Proof.Gen.ReferenceIdeal
import proofs.«165814_j17411797418191_1_alg».proof.Proof.Gen.Pre_finite_inputs
import proofs.«165814_j17411797418191_1_alg».proof.Proof.K.Run
import proofs.«165814_j17411797418191_1_alg».proof.Proof.KI.Run
import proofs.«165814_j17411797418191_1_alg».proof.Proof.RefRun
import proofs.«165814_j17411797418191_1_alg».proof.Proof.Algebraic
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.RefRun.frame (F := Ideal) m ρ

/-- The idealization's one rewrite: the literal nearest 1/100000 is read as 1/100000. -/
theorem preserves : Cert.preserves_Kernel_KernelIdeal :=
  IdealRules.named_const.statement Cert.KernelIdeal.κ "inv_100000" .f32 0x3727C5AC#32 ((1 / 100000 : ℝ) : EReal) rfl

/-- Both idealized programs run to the end with the arguments unchanged, and the reference's result vector is the
    kernel program's. -/
theorem algebraic : Cert.algebraic_KernelIdeal_ReferenceIdeal := by
  intro m ρ m' ρ' _ hagree
  refine ⟨fun c => Cert.KernelIdeal.Hand.B11 (F := Ideal) m ρ c (Proc.devRef .tc Cert.KernelIdeal.main_v76), ?_, ?_⟩
  · exact (θ_run Cert.KernelIdeal.defs _ _).mono (fun r h c =>
      ⟨h c _ (Cert.KernelIdeal.Hand.mem_uc Cert.KernelIdeal.main_v76 (by decide)),
       (h c _ (Cert.KernelIdeal.Hand.mem_uc Cert.KernelIdeal.main_arg0 (by decide))).trans (Cert.KernelIdeal.Hand.B11_main_arg0 m ρ c),
       (h c _ (Cert.KernelIdeal.Hand.mem_uc Cert.KernelIdeal.main_arg1 (by decide))).trans (Cert.KernelIdeal.Hand.B11_main_arg1 m ρ c),
       (h c _ (Cert.KernelIdeal.Hand.mem_uc Cert.KernelIdeal.main_arg2 (by decide))).trans (Cert.KernelIdeal.Hand.B11_main_arg2 m ρ c),
       (h c _ (Cert.KernelIdeal.Hand.mem_uc Cert.KernelIdeal.main_arg3 (by decide))).trans (Cert.KernelIdeal.Hand.B11_main_arg3 m ρ c),
       (h c _ (Cert.KernelIdeal.Hand.mem_uc Cert.KernelIdeal.main_arg4 (by decide))).trans (Cert.KernelIdeal.Hand.B11_main_arg4 m ρ c),
       (h c _ (Cert.KernelIdeal.Hand.mem_uc Cert.KernelIdeal.main_arg5 (by decide))).trans (Cert.KernelIdeal.Hand.B11_main_arg5 m ρ c),
       (h c _ (Cert.KernelIdeal.Hand.mem_uc Cert.KernelIdeal.main_arg6 (by decide))).trans (Cert.KernelIdeal.Hand.B11_main_arg6 m ρ c),
       (h c _ (Cert.KernelIdeal.Hand.mem_uc Cert.KernelIdeal.main_arg7 (by decide))).trans (Cert.KernelIdeal.Hand.B11_main_arg7 m ρ c)⟩)
      (Cert.KernelIdeal.Hand.run_all (F := Ideal) m ρ)
  · exact (θ_run Cert.ReferenceIdeal.defs _ _).mono (fun r h c =>
      ⟨(h c Cert.ReferenceIdeal.main_v85).trans (Cert.Alg.result_eq m ρ m' c hagree),
       (h c Cert.ReferenceIdeal.main_arg0).trans (Cert.ReferenceIdeal.RefRun.arg0_eq _),
       (h c Cert.ReferenceIdeal.main_arg1).trans (Cert.ReferenceIdeal.RefRun.arg1_eq _),
       (h c Cert.ReferenceIdeal.main_arg2).trans (Cert.ReferenceIdeal.RefRun.arg2_eq _),
       (h c Cert.ReferenceIdeal.main_arg3).trans (Cert.ReferenceIdeal.RefRun.arg3_eq _),
       (h c Cert.ReferenceIdeal.main_arg4).trans (Cert.ReferenceIdeal.RefRun.arg4_eq _),
       (h c Cert.ReferenceIdeal.main_arg5).trans (Cert.ReferenceIdeal.RefRun.arg5_eq _),
       (h c Cert.ReferenceIdeal.main_arg6).trans (Cert.ReferenceIdeal.RefRun.arg6_eq _),
       (h c Cert.ReferenceIdeal.main_arg7).trans (Cert.ReferenceIdeal.RefRun.arg7_eq _)⟩)
      (Cert.ReferenceIdeal.RefRun.run_main (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
